-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S160x160x160x12 : Shape := ⟨4, ![160, 160, 160, 12]⟩
abbrev S12x128 : Shape := ⟨2, ![12, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S41x128 : Shape := ⟨2, ![41, 128]⟩
abbrev S128x3 : Shape := ⟨2, ![128, 3]⟩
abbrev S3 : Shape := ⟨1, ![3]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S160x160x160x12 : S_.BroadcastsInDim S160x160x160x12 (![] : Fin 0 → Fin S160x160x160x12.rank)
  reducesTo_S160x160x160x12_S_d0_1_2_3 : S160x160x160x12.ReducesTo [0, 1, 2, 3] S_
  bcast_S_S12x128 : S_.BroadcastsInDim S12x128 (![] : Fin 0 → Fin S12x128.rank)
  reducesTo_S12x128_S_d0_1 : S12x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S41x128 : S_.BroadcastsInDim S41x128 (![] : Fin 0 → Fin S41x128.rank)
  reducesTo_S41x128_S_d0_1 : S41x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x3 .f32) (main_arg13 : FVec F S3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x3 .f32 := Host.absf main_arg12
  let main_cst_22 : FVec F S_ .f32 := constant S_ .f32 0x7F800000#32
  let main_v60 : FVec F S128x3 .f32 := broadcastInDim S128x3 ![] bcast_S_S128x3 main_cst_22
  let main_v61 : IVec S128x3 1 := cmpf .olt main_v59 main_v60
  let main_c_23 : IVec S_ 1 := constantI S_ 1 1#1
  let main_v62 : IVec S_ 1 := (fun x v => Host.reduce IntOp.andi x v reducesTo_S128x3_S_d0_1 h_S_) main_v61 main_c_23
  let main_v63 : IVec S_ 1 := andi main_v58 main_v62
  let main_v64 : FVec F S3 .f32 := Host.absf main_arg13
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg7 : FVec F S1 .f32) (main_arg8 : FVec F S41x128 .f32) (main_arg9 : FVec F S128 .f32) (main_arg10 : FVec F S128x128 .f32) (main_arg11 : FVec F S128 .f32) (main_arg12 : FVec F S128x3 .f32) (main_arg13 : FVec F S3 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S41x128 .f32 := Host.absf main_arg8
  let main_cst_14 : FVec F S_ .f32 := constant S_ .f32 0x7F800000#32
  let main_v40 : FVec F S41x128 .f32 := broadcastInDim S41x128 ![] bcast_S_S41x128 main_cst_14
  let main_v41 : IVec S41x128 1 := cmpf .olt main_v39 main_v40
  let main_c_15 : IVec S_ 1 := constantI S_ 1 1#1
  let main_v42 : IVec S_ 1 := (fun x v => Host.reduce IntOp.andi x v reducesTo_S41x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x1 .f32) (main_arg7 : FVec F S1 .f32) (main_arg8 : FVec F S41x128 .f32) (main_arg9 : FVec F S128 .f32) (main_arg10 : FVec F S128x128 .f32) (main_arg11 : FVec F S128 .f32) (main_arg12 : FVec F S128x3 .f32) (main_arg13 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1048576x8 .f32) (main_arg1 : FVec F S160x160x160x12 .f32) (main_arg2 : FVec F S12x128 .f32) (main_arg3 : FVec F S128 .f32) (main_arg4 : FVec F S128x128 .f32) (main_arg5 : FVec F S128 .f32) (main_arg6 : FVec F S128x1 .f32) (main_arg7 : FVec F S1 .f32) (main_arg8 : FVec F S41x128 .f32) (main_arg9 : FVec F S128 .f32) (main_arg10 : FVec F S128x128 .f32) (main_arg11 : FVec F S128 .f32) (main_arg12 : FVec F S128x3 .f32) (main_arg13 : FVec F S3 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S160x160x160x12 .f32 := Host.absf main_arg1
  let main_cst_0 : FVec F S_ .f32 := constant S_ .f32 0x7F800000#32
  let main_v5 : FVec F S160x160x160x12 .f32 := broadcastInDim S160x160x160x12 ![] bcast_S_S160x160x160x12 main_cst_0
  let main_v6 : IVec S160x160x160x12 1 := cmpf .olt main_v4 main_v5
  let main_c_1 : IVec S_ 1 := constantI S_ 1 1#1
  let main_v7 : IVec S_ 1 := (fun x v => Host.reduce IntOp.andi x v reducesTo_S160x160x160x12_S_d0_1_2_3 h_S_) main_v6 main_c_1
  let main_v8 : IVec S_ 1 := andi main_v3 main_v7
  let main_v9 : FVec F S12x128 .f32 := Host.absf main_arg2
  let main_cst_2 : FVec F S_ .f32 := constant S_ .f32 0x7F800000#32
  let main_v10 : FVec F S12x128 .f32 := broadcastInDim S12x128 ![] bcast_S_S12x128 main_cst_2
  let main_v11 : IVec S12x128 1 := cmpf .olt main_v9 main_v10
  let main_c_3 : IVec S_ 1 := constantI S_ 1 1#1
  let main_v12 : IVec S_ 1 := (fun x v => Host.reduce IntOp.andi x v reducesTo_S12x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S1048576x8 : Shape := ⟨2, ![1048576, 8]⟩
abbrev S160x160x160x12 : Shape := ⟨4, ![160, 160, 160, 12]⟩
abbrev S12x128 : Shape := ⟨2, ![12, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S41x128 : Shape := ⟨2, ![41, 128]⟩
abbrev S128x3 : Shape := ⟨2, ![128, 3]⟩
abbrev S3 : Shape := ⟨1, ![3]⟩
abbrev S1048576x3 : Shape := ⟨2, ![1048576, 3]⟩
abbrev S_ : Shape := ⟨0, ![]⟩
abbrev S4096000x12 : Shape := ⟨2, ![4096000, 12]⟩
abbrev S1048576x1 : Shape := ⟨2, ![1048576, 1]⟩
abbrev S1048576 : Shape := ⟨1, ![1048576]⟩
abbrev S1048576x12 : Shape := ⟨2, ![1048576, 12]⟩
abbrev S41x256 : Shape := ⟨2, ![41, 256]⟩
abbrev S2 : Shape := ⟨1, ![2]⟩
abbrev S256 : Shape := ⟨1, ![256]⟩
abbrev S256x256 : Shape := ⟨2, ![256, 256]⟩
abbrev S256x4 : Shape := ⟨2, ![256, 4]⟩
abbrev S4 : Shape := ⟨1, ![4]⟩
abbrev S1048576x4 : Shape := ⟨2, ![1048576, 4]⟩
abbrev S4096x12 : Shape := ⟨2, ![4096, 12]⟩
abbrev S4096x8 : Shape := ⟨2, ![4096, 8]⟩
abbrev S4096x4 : Shape := ⟨2, ![4096, 4]⟩
abbrev S4096x41 : Shape := ⟨2, ![4096, 41]⟩
abbrev S4096x2 : Shape := ⟨2, ![4096, 2]⟩
abbrev S4096x3 : Shape := ⟨2, ![4096, 3]⟩
abbrev S4096x256 : Shape := ⟨2, ![4096, 256]⟩
abbrev S1x256 : Shape := ⟨2, ![1, 256]⟩
abbrev S1x4 : Shape := ⟨2, ![1, 4]⟩

abbrev nBuf : Space → Nat
  | .hbm => 292
  | .vmem => 13
  | .smem => 0
  | _ => 0

abbrev hbmTy0_0 (i : Nat) : BufTy := match i % 128 with
  | 0 => ⟨S1048576x8, .f32⟩
  | 1 => ⟨S160x160x160x12, .f32⟩
  | 2 => ⟨S12x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S41x128, .f32⟩
  | 9 => ⟨S128, .f32⟩
  | 10 => ⟨S128x128, .f32⟩
  | 11 => ⟨S128, .f32⟩
  | 12 => ⟨S128x3, .f32⟩
  | 13 => ⟨S3, .f32⟩
  | 14 => ⟨S1048576x3, .f32⟩
  | 15 => ⟨S_, .f32⟩
  | 16 => ⟨S_, .f32⟩
  | 17 => ⟨S_, .f32⟩
  | 18 => ⟨S1048576x3, .f32⟩
  | 19 => ⟨S1048576x3, .f32⟩
  | 20 => ⟨S_, .f32⟩
  | 21 => ⟨S1048576x3, .f32⟩
  | 22 => ⟨S1048576x3, .f32⟩
  | 23 => ⟨S_, .f32⟩
  | 24 => ⟨S1048576x3, .f32⟩
  | 25 => ⟨S1048576x3, .f32⟩
  | 26 => ⟨S1048576x3, .f32⟩
  | 27 => ⟨S_, .i32⟩
  | 28 => ⟨S_, .i32⟩
  | 29 => ⟨S_, .f32⟩
  | 30 => ⟨S1048576x3, .f32⟩
  | 31 => ⟨S1048576x3, .f32⟩
  | 32 => ⟨S_, .f32⟩
  | 33 => ⟨S1048576x3, .f32⟩
  | 34 => ⟨S1048576x3, .f32⟩
  | 35 => ⟨S1048576x3, .i32⟩
  | 36 => ⟨S1048576x3, .f32⟩
  | 37 => ⟨S1048576x3, .f32⟩
  | 38 => ⟨S4096000x12, .f32⟩
  | 39 => ⟨S1048576x1, .i32⟩
  | 40 => ⟨S1048576, .i32⟩
  | 41 => ⟨S1048576x1, .i32⟩
  | 42 => ⟨S1048576, .i32⟩
  | 43 => ⟨S1048576x1, .i32⟩
  | 44 => ⟨S1048576, .i32⟩
  | 45 => ⟨S_, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S_, .i32⟩
  | 52 => ⟨S1048576, .i32⟩
  | 53 => ⟨S1048576, .i32⟩
  | 54 => ⟨S1048576x1, .f32⟩
  | 55 => ⟨S1048576x1, .f32⟩
  | 56 => ⟨S1048576x1, .f32⟩
  | 57 => ⟨S_, .i32⟩
  | 58 => ⟨S1048576, .i32⟩
  | 59 => ⟨S1048576, .i32⟩
  | 60 => ⟨S1048576, .i32⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S1048576x1, .i32⟩
  | 73 => ⟨S1048576x12, .f32⟩
  | 74 => ⟨S_, .f32⟩
  | 75 => ⟨S1048576x1, .f32⟩
  | 76 => ⟨S1048576x1, .f32⟩
  | 77 => ⟨S1048576x12, .f32⟩
  | 78 => ⟨S1048576x12, .f32⟩
  | 79 => ⟨S_, .i32⟩
  | 80 => ⟨S1048576, .i32⟩
  | 81 => ⟨S1048576, .i32⟩
  | 82 => ⟨S1048576, .i32⟩
  | 83 => ⟨S_, .i32⟩
  | 84 => ⟨S1048576, .i32⟩
  | 85 => ⟨S1048576, .i32⟩
  | 86 => ⟨S1048576, .i32⟩
  | 87 => ⟨S_, .i32⟩
  | 88 => ⟨S1048576, .i32⟩
  | 89 => ⟨S1048576, .i1⟩
  | 90 => ⟨S_, .i32⟩
  | 91 => ⟨S1048576, .i32⟩
  | 92 => ⟨S1048576, .i32⟩
  | 93 => ⟨S1048576, .i32⟩
  | 94 => ⟨S1048576x1, .i32⟩
  | 95 => ⟨S1048576x12, .f32⟩
  | 96 => ⟨S1048576x12, .f32⟩
  | 97 => ⟨S1048576x12, .f32⟩
  | 98 => ⟨S1048576x12, .f32⟩
  | 99 => ⟨S_, .f32⟩
  | 100 => ⟨S1048576x1, .f32⟩
  | 101 => ⟨S1048576x1, .f32⟩
  | 102 => ⟨S1048576x12, .f32⟩
  | 103 => ⟨S1048576x12, .f32⟩
  | 104 => ⟨S_, .i32⟩
  | 105 => ⟨S1048576, .i32⟩
  | 106 => ⟨S1048576, .i32⟩
  | 107 => ⟨S1048576, .i32⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x12, .f32⟩
  | 121 => ⟨S_, .f32⟩
  | 122 => ⟨S1048576x1, .f32⟩
  | 123 => ⟨S1048576x1, .f32⟩
  | 124 => ⟨S1048576x12, .f32⟩
  | 125 => ⟨S1048576x12, .f32⟩
  | 126 => ⟨S_, .i32⟩
  | 127 => ⟨S1048576, .i32⟩
  | _ => ⟨S1048576x8, .f32⟩

abbrev hbmTy0_1 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i32⟩
  | 5 => ⟨S1048576, .i32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S1048576x12, .f32⟩
  | 15 => ⟨S1048576x12, .f32⟩
  | 16 => ⟨S1048576x12, .f32⟩
  | 17 => ⟨S1048576x12, .f32⟩
  | 18 => ⟨S1048576x12, .f32⟩
  | 19 => ⟨S1048576x12, .f32⟩
  | 20 => ⟨S1048576x12, .f32⟩
  | 21 => ⟨S_, .f32⟩
  | 22 => ⟨S1048576x1, .f32⟩
  | 23 => ⟨S1048576x1, .f32⟩
  | 24 => ⟨S1048576x12, .f32⟩
  | 25 => ⟨S1048576x12, .f32⟩
  | 26 => ⟨S_, .i32⟩
  | 27 => ⟨S1048576, .i32⟩
  | 28 => ⟨S1048576, .i32⟩
  | 29 => ⟨S1048576, .i32⟩
  | 30 => ⟨S_, .i32⟩
  | 31 => ⟨S1048576, .i32⟩
  | 32 => ⟨S1048576, .i32⟩
  | 33 => ⟨S1048576, .i32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S1048576x1, .i32⟩
  | 42 => ⟨S1048576x12, .f32⟩
  | 43 => ⟨S_, .f32⟩
  | 44 => ⟨S1048576x1, .f32⟩
  | 45 => ⟨S1048576x1, .f32⟩
  | 46 => ⟨S1048576x12, .f32⟩
  | 47 => ⟨S1048576x12, .f32⟩
  | 48 => ⟨S_, .i32⟩
  | 49 => ⟨S1048576, .i32⟩
  | 50 => ⟨S1048576, .i32⟩
  | 51 => ⟨S1048576, .i32⟩
  | 52 => ⟨S_, .i32⟩
  | 53 => ⟨S1048576, .i32⟩
  | 54 => ⟨S1048576, .i32⟩
  | 55 => ⟨S1048576, .i32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x12, .f32⟩
  | 65 => ⟨S1048576x12, .f32⟩
  | 66 => ⟨S1048576x12, .f32⟩
  | 67 => ⟨S1048576x12, .f32⟩
  | 68 => ⟨S_, .f32⟩
  | 69 => ⟨S1048576x1, .f32⟩
  | 70 => ⟨S1048576x1, .f32⟩
  | 71 => ⟨S1048576x12, .f32⟩
  | 72 => ⟨S1048576x12, .f32⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i32⟩
  | 80 => ⟨S1048576, .i32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S1048576x1, .i32⟩
  | 89 => ⟨S1048576x12, .f32⟩
  | 90 => ⟨S_, .f32⟩
  | 91 => ⟨S1048576x1, .f32⟩
  | 92 => ⟨S1048576x1, .f32⟩
  | 93 => ⟨S1048576x12, .f32⟩
  | 94 => ⟨S1048576x12, .f32⟩
  | 95 => ⟨S_, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i32⟩
  | 102 => ⟨S1048576, .i32⟩
  | 103 => ⟨S_, .i32⟩
  | 104 => ⟨S1048576, .i32⟩
  | 105 => ⟨S1048576, .i1⟩
  | 106 => ⟨S_, .i32⟩
  | 107 => ⟨S1048576, .i32⟩
  | 108 => ⟨S1048576, .i32⟩
  | 109 => ⟨S1048576, .i32⟩
  | 110 => ⟨S1048576x1, .i32⟩
  | 111 => ⟨S1048576x12, .f32⟩
  | 112 => ⟨S1048576x12, .f32⟩
  | 113 => ⟨S1048576x12, .f32⟩
  | 114 => ⟨S1048576x12, .f32⟩
  | 115 => ⟨S1048576x12, .f32⟩
  | 116 => ⟨S1048576x12, .f32⟩
  | 117 => ⟨S1048576x12, .f32⟩
  | 118 => ⟨S1048576x12, .f32⟩
  | 119 => ⟨S1048576x12, .f32⟩
  | 120 => ⟨S1048576x12, .f32⟩
  | 121 => ⟨S_, .f32⟩
  | 122 => ⟨S41x256, .f32⟩
  | 123 => ⟨S_, .i32⟩
  | 124 => ⟨S1, .i32⟩
  | 125 => ⟨S41x256, .f32⟩
  | 126 => ⟨S_, .i32⟩
  | 127 => ⟨S1, .i32⟩
  | _ => ⟨S1048576x8, .f32⟩

abbrev hbmTy0_2 (i : Nat) : BufTy := match i % 128 with
  | 0 => ⟨S_, .i32⟩
  | 1 => ⟨S1, .i32⟩
  | 2 => ⟨S2, .i32⟩
  | 3 => ⟨S41x256, .f32⟩
  | 4 => ⟨S256, .f32⟩
  | 5 => ⟨S_, .f32⟩
  | 6 => ⟨S256x256, .f32⟩
  | 7 => ⟨S_, .i32⟩
  | 8 => ⟨S1, .i32⟩
  | 9 => ⟨S_, .i32⟩
  | 10 => ⟨S1, .i32⟩
  | 11 => ⟨S2, .i32⟩
  | 12 => ⟨S256x256, .f32⟩
  | 13 => ⟨S_, .i32⟩
  | 14 => ⟨S1, .i32⟩
  | 15 => ⟨S_, .i32⟩
  | 16 => ⟨S1, .i32⟩
  | 17 => ⟨S2, .i32⟩
  | 18 => ⟨S256x256, .f32⟩
  | 19 => ⟨S256, .f32⟩
  | 20 => ⟨S_, .f32⟩
  | 21 => ⟨S256x4, .f32⟩
  | 22 => ⟨S_, .i32⟩
  | 23 => ⟨S1, .i32⟩
  | 24 => ⟨S_, .i32⟩
  | 25 => ⟨S1, .i32⟩
  | 26 => ⟨S2, .i32⟩
  | 27 => ⟨S256x4, .f32⟩
  | 28 => ⟨S_, .i32⟩
  | 29 => ⟨S1, .i32⟩
  | 30 => ⟨S_, .i32⟩
  | 31 => ⟨S1, .i32⟩
  | 32 => ⟨S2, .i32⟩
  | 33 => ⟨S256x4, .f32⟩
  | 34 => ⟨S4, .f32⟩
  | 35 => ⟨S1048576x4, .f32⟩
  | _ => ⟨S1048576x8, .f32⟩

abbrev hbmTy (i : Nat) : BufTy := match i / 128 with
  | 0 => hbmTy0_0 i
  | 1 => hbmTy0_1 i
  | 2 => hbmTy0_2 i
  | _ => ⟨S1048576x8, .f32⟩

abbrev bufTy : (tb : Table) → Fin (tcTables nBuf tb) → BufTy
  | .hbm, ⟨i, _⟩ => hbmTy i
  | .local _ .vmem, ⟨0, _⟩ => ⟨S4096x12, .f32⟩
  | .local _ .vmem, ⟨1, _⟩ => ⟨S4096x12, .f32⟩
  | .local _ .vmem, ⟨2, _⟩ => ⟨S4096x8, .f32⟩
  | .local _ .vmem, ⟨3, _⟩ => ⟨S4096x8, .f32⟩
  | .local _ .vmem, ⟨4, _⟩ => ⟨S41x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x4, .f32⟩
  | .local _ .vmem, ⟨9, _⟩ => ⟨S4, .f32⟩
  | .local _ .vmem, ⟨10, _⟩ => ⟨S4096x4, .f32⟩
  | .local _ .vmem, ⟨11, _⟩ => ⟨S4096x4, .f32⟩
  | .local _ .vmem, ⟨12, _⟩ => ⟨S4096x41, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v1 : Ref sig .tc := ⟨.hbm, 22, rfl⟩
abbrev main_cst_1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_7 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_8 : Ref sig .tc := ⟨.hbm, 65, rfl⟩
abbrev main_v31 : Ref sig .tc := ⟨.hbm, 66, rfl⟩
abbrev main_v32 : Ref sig .tc := ⟨.hbm, 67, rfl⟩
abbrev main_c_9 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_10 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_12 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_13 : Ref sig .tc := ⟨.hbm, 87, rfl⟩
abbrev main_v48 : Ref sig .tc := ⟨.hbm, 88, rfl⟩
abbrev main_v49 : Ref sig .tc := ⟨.hbm, 89, rfl⟩
abbrev main_c_14 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_15 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_16 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_17 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_18 : Ref sig .tc := ⟨.hbm, 112, rfl⟩
abbrev main_v68 : Ref sig .tc := ⟨.hbm, 113, rfl⟩
abbrev main_v69 : Ref sig .tc := ⟨.hbm, 114, rfl⟩
abbrev main_c_19 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_20 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_21 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_c_22 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_23 : Ref sig .tc := ⟨.hbm, 134, rfl⟩
abbrev main_v85 : Ref sig .tc := ⟨.hbm, 135, rfl⟩
abbrev main_v86 : Ref sig .tc := ⟨.hbm, 136, rfl⟩
abbrev main_c_24 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_25 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_26 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_c_27 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_28 : Ref sig .tc := ⟨.hbm, 162, rfl⟩
abbrev main_v108 : Ref sig .tc := ⟨.hbm, 163, rfl⟩
abbrev main_v109 : Ref sig .tc := ⟨.hbm, 164, rfl⟩
abbrev main_c_29 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_30 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_c_31 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_c_32 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_33 : Ref sig .tc := ⟨.hbm, 184, rfl⟩
abbrev main_v125 : Ref sig .tc := ⟨.hbm, 185, rfl⟩
abbrev main_v126 : Ref sig .tc := ⟨.hbm, 186, rfl⟩
abbrev main_c_34 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_35 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_c_36 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_c_37 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_c_38 : Ref sig .tc := ⟨.hbm, 209, rfl⟩
abbrev main_v145 : Ref sig .tc := ⟨.hbm, 210, rfl⟩
abbrev main_v146 : Ref sig .tc := ⟨.hbm, 211, rfl⟩
abbrev main_c_39 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_cst_40 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_41 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_c_42 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_c_43 : Ref sig .tc := ⟨.hbm, 231, rfl⟩
abbrev main_v162 : Ref sig .tc := ⟨.hbm, 232, rfl⟩
abbrev main_v163 : Ref sig .tc := ⟨.hbm, 233, rfl⟩
abbrev main_c_44 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_cst_45 : Ref sig .tc := ⟨.hbm, 249, rfl⟩
abbrev main_v178 : Ref sig .tc := ⟨.hbm, 250, rfl⟩
abbrev main_c_46 : Ref sig .tc := ⟨.hbm, 251, rfl⟩
abbrev main_v179 : Ref sig .tc := ⟨.hbm, 252, rfl⟩
abbrev main_v180 : Ref sig .tc := ⟨.hbm, 253, rfl⟩
abbrev main_c_47 : Ref sig .tc := ⟨.hbm, 254, rfl⟩
abbrev main_v181 : Ref sig .tc := ⟨.hbm, 255, rfl⟩
abbrev main_c_48 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_49 : Ref sig .tc := ⟨.hbm, 261, rfl⟩
abbrev main_v186 : Ref sig .tc := ⟨.hbm, 262, rfl⟩
abbrev main_c_50 : Ref sig .tc := ⟨.hbm, 263, rfl⟩
abbrev main_v187 : Ref sig .tc := ⟨.hbm, 264, rfl⟩
abbrev main_c_51 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_c_52 : Ref sig .tc := ⟨.hbm, 269, rfl⟩
abbrev main_v191 : Ref sig .tc := ⟨.hbm, 270, rfl⟩
abbrev main_c_53 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_cst_54 : Ref sig .tc := ⟨.hbm, 276, rfl⟩
abbrev main_v196 : Ref sig .tc := ⟨.hbm, 277, rfl⟩
abbrev main_c_55 : Ref sig .tc := ⟨.hbm, 278, rfl⟩
abbrev main_v197 : Ref sig .tc := ⟨.hbm, 279, rfl⟩
abbrev main_c_56 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_c_57 : Ref sig .tc := ⟨.hbm, 284, rfl⟩
abbrev main_v201 : Ref sig .tc := ⟨.hbm, 285, rfl⟩
abbrev main_c_58 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S41x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1048576x8_S1048576x3_0_0 : S1048576x8.Slices ![0, 0] S1048576x3
  bcast_S_S1048576x3 : S_.BroadcastsInDim S1048576x3 (![] : Fin 0 → Fin S1048576x3.rank)
  shapeCasts_S160x160x160x12_S4096000x12 : S160x160x160x12.ShapeCasts S4096000x12
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x12_0_1 : S1048576x1.BroadcastsInDim S1048576x12 (![0, 1] : Fin 2 → Fin S1048576x12.rank)
  bcast_S_S41x256 : S_.BroadcastsInDim S41x256 (![] : Fin 0 → Fin S41x256.rank)
  bcast_S_S1 : S_.BroadcastsInDim S1 (![] : Fin 0 → Fin S1.rank)
  concatenates_S1_S1_S2_d0 : Shape.Concatenates [S1, S1] S2 0
  concatenates_S128_S128_S256_d0 : Shape.Concatenates [S128, S128] S256 0
  bcast_S_S256x256 : S_.BroadcastsInDim S256x256 (![] : Fin 0 → Fin S256x256.rank)
  bcast_S_S256x4 : S_.BroadcastsInDim S256x4 (![] : Fin 0 → Fin S256x4.rank)
  concatenates_S3_S1_S4_d0 : Shape.Concatenates [S3, S1] S4 0
  inb_S4096x12_S4096x12_0_0 : ∀ a, (![0, 0] : Fin 2 → Nat) a + S4096x12.size a ≤ S4096x12.size a
  h_S4096x12 : 0 < S4096x12.numel
  shapeCasts_S4096x12_S4096x12 : S4096x12.ShapeCasts S4096x12
  inb_S4096x8_S4096x8_0_0 : ∀ a, (![0, 0] : Fin 2 → Nat) a + S4096x8.size a ≤ S4096x8.size a
  h_S4096x8 : 0 < S4096x8.numel
  slices_S4096x8_o0_3_S4096x2 : S4096x8.Slices ![0, 3] S4096x2
  slices_S4096x8_o0_5_S4096x3 : S4096x8.Slices ![0, 5] S4096x3
  inb_S4096x41_S4096x12_0_0 : ∀ a, (![0, 0] : Fin 2 → Nat) a + S4096x12.size a ≤ S4096x41.size a
  inb_S4096x41_S4096x3_0_12 : ∀ a, (![0, 12] : Fin 2 → Nat) a + S4096x3.size a ≤ S4096x41.size a
  h_S4096x3 : 0 < S4096x3.numel
  shapeCasts_S4096x3_S4096x3 : S4096x3.ShapeCasts S4096x3
  inb_S4096x41_S4096x3_0_15 : ∀ a, (![0, 15] : Fin 2 → Nat) a + S4096x3.size a ≤ S4096x41.size a
  inb_S4096x41_S4096x3_0_18 : ∀ a, (![0, 18] : Fin 2 → Nat) a + S4096x3.size a ≤ S4096x41.size a
  inb_S4096x41_S4096x3_0_21 : ∀ a, (![0, 21] : Fin 2 → Nat) a + S4096x3.size a ≤ S4096x41.size a
  inb_S4096x41_S4096x3_0_24 : ∀ a, (![0, 24] : Fin 2 → Nat) a + S4096x3.size a ≤ S4096x41.size a
  inb_S4096x41_S4096x3_0_27 : ∀ a, (![0, 27] : Fin 2 → Nat) a + S4096x3.size a ≤ S4096x41.size a
  inb_S4096x41_S4096x3_0_30 : ∀ a, (![0, 30] : Fin 2 → Nat) a + S4096x3.size a ≤ S4096x41.size a
  inb_S4096x41_S4096x3_0_33 : ∀ a, (![0, 33] : Fin 2 → Nat) a + S4096x3.size a ≤ S4096x41.size a
  inb_S4096x41_S4096x3_0_36 : ∀ a, (![0, 36] : Fin 2 → Nat) a + S4096x3.size a ≤ S4096x41.size a
  inb_S4096x41_S4096x2_0_39 : ∀ a, (![0, 39] : Fin 2 → Nat) a + S4096x2.size a ≤ S4096x41.size a
  h_S4096x2 : 0 < S4096x2.numel
  shapeCasts_S4096x2_S4096x2 : S4096x2.ShapeCasts S4096x2
  inb_S4096x41_S4096x41_0_0 : ∀ a, (![0, 0] : Fin 2 → Nat) a + S4096x41.size a ≤ S4096x41.size a
  h_S4096x41 : 0 < S4096x41.numel
  bitsLt_bf16_f32 : FTy.bits .bf16 < FTy.bits .f32
  inb_S41x256_S41x256_0_0 : ∀ a, (![0, 0] : Fin 2 → Nat) a + S41x256.size a ≤ S41x256.size a
  h_S41x256 : 0 < S41x256.numel
  shapeCasts_S41x256_S41x256 : S41x256.ShapeCasts S41x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S4096x4 : S1x4.Broadcasts S4096x4
  inb_S4096x4_S4096x4_0_0 : ∀ a, (![0, 0] : Fin 2 → Nat) a + S4096x4.size a ≤ S4096x4.size a
  h_S4096x4 : 0 < S4096x4.numel
  gather_S4096000x12_S1048576x1_S1048576x12_1_0_n_n_0_1_112_wf : GatherDims.WF S4096000x12 S1048576x1 S1048576x12 [1] [0] [] [0] [] 1 ![1, 12]
  scatter_S41x256_S1_S41x128_01_n_1_0_wf : ScatterDims.WF S41x256 S1 S41x128 [0, 1] [] [1] 0
  scatter_S41x256_S2_S12x128_01_n_01_0_wf : ScatterDims.WF S41x256 S2 S12x128 [0, 1] [] [0, 1] 0
  scatter_S256x256_S2_S128x128_01_n_01_0_wf : ScatterDims.WF S256x256 S2 S128x128 [0, 1] [] [0, 1] 0
  scatter_S256x4_S2_S128x3_01_n_01_0_wf : ScatterDims.WF S256x4 S2 S128x3 [0, 1] [] [0, 1] 0
  scatter_S256x4_S2_S128x1_01_n_01_0_wf : ScatterDims.WF S256x4 S2 S128x1 [0, 1] [] [0, 1] 0
  dot_S4096x41_S41x256_S4096x256_1_0_0_1_n_n_wf : DotDims.WF S4096x41 S41x256 S4096x256 [1] [0] [0] [1] [] []
  dot_S4096x256_S256x256_S4096x256_1_0_0_1_n_n_wf : DotDims.WF S4096x256 S256x256 S4096x256 [1] [0] [0] [1] [] []
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x12.size a ≤ S1048576x12.size a
  hwx0_0 : ∀ i : grid0.Coords, EltTy.bits .f32 = 32 ∨ (Rect.block (s := S1048576x12) S4096x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S1048576x8.size a
  hwx0_1 : ∀ i : grid0.Coords, EltTy.bits .f32 = 32 ∨ (Rect.block (s := S1048576x8) S4096x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S41x256.size a ≤ S41x256.size a
  hwx0_2 : ∀ i : grid0.Coords, EltTy.bits .f32 = 32 ∨ (Rect.block (s := S41x256) S41x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x4.size a ≤ S256x4.size a
  hwx0_6 : ∀ i : grid0.Coords, EltTy.bits .f32 = 32 ∨ (Rect.block (s := S256x4) S256x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4.size a ≤ S4.size a
  hwx0_7 : ∀ i : grid0.Coords, EltTy.bits .f32 = 32 ∨ (Rect.block (s := S4) S4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x4.size a ≤ S1048576x4.size a
  hwx0_8 : ∀ i : grid0.Coords, EltTy.bits .f32 = 32 ∨ (Rect.block (s := S1048576x4) S4096x4.size (cc0_transform_8 i) (hinb0_8 i)).WholeWords (EltTy.packing .f32)

variable [Facts₀]

def gather_S4096000x12_S1048576x1_S1048576x12_1_0_n_n_0_1_112 : GatherDims S4096000x12 S1048576x1 S1048576x12 where
  offsetDims := [1]
  collapsedSliceDims := [0]
  operandBatchingDims := []
  startIndicesBatchingDims := []
  startIndexMap := [0]
  indexVectorDim := 1
  sliceSizes := ![1, 12]
  wf := gather_S4096000x12_S1048576x1_S1048576x12_1_0_n_n_0_1_112_wf
def scatter_S41x256_S1_S41x128_01_n_1_0 : ScatterDims S41x256 S1 S41x128 where
  updateWindowDims := [0, 1]
  insertedWindowDims := []
  scatterDimsToOperandDims := [1]
  indexVectorDim := 0
  wf := scatter_S41x256_S1_S41x128_01_n_1_0_wf
def scatter_S41x256_S2_S12x128_01_n_01_0 : ScatterDims S41x256 S2 S12x128 where
  updateWindowDims := [0, 1]
  insertedWindowDims := []
  scatterDimsToOperandDims := [0, 1]
  indexVectorDim := 0
  wf := scatter_S41x256_S2_S12x128_01_n_01_0_wf
def scatter_S256x256_S2_S128x128_01_n_01_0 : ScatterDims S256x256 S2 S128x128 where
  updateWindowDims := [0, 1]
  insertedWindowDims := []
  scatterDimsToOperandDims := [0, 1]
  indexVectorDim := 0
  wf := scatter_S256x256_S2_S128x128_01_n_01_0_wf
def scatter_S256x4_S2_S128x3_01_n_01_0 : ScatterDims S256x4 S2 S128x3 where
  updateWindowDims := [0, 1]
  insertedWindowDims := []
  scatterDimsToOperandDims := [0, 1]
  indexVectorDim := 0
  wf := scatter_S256x4_S2_S128x3_01_n_01_0_wf
def scatter_S256x4_S2_S128x1_01_n_01_0 : ScatterDims S256x4 S2 S128x1 where
  updateWindowDims := [0, 1]
  insertedWindowDims := []
  scatterDimsToOperandDims := [0, 1]
  indexVectorDim := 0
  wf := scatter_S256x4_S2_S128x1_01_n_01_0_wf
def dot_S4096x41_S41x256_S4096x256_1_0_0_1_n_n : DotDims S4096x41 S41x256 S4096x256 where
  lhsContracting := [1]
  rhsContracting := [0]
  lhsNonContracting := [0]
  rhsNonContracting := [1]
  lhsBatch := []
  rhsBatch := []
  wf := dot_S4096x41_S41x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_v177) S4096x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v184) S41x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v185) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v194) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v195) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v204) S256x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v205) S4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v206) S4096x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S160x160x160x12 : Shape := ⟨4, ![160, 160, 160, 12]⟩
abbrev S12x128 : Shape := ⟨2, ![12, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S41x128 : Shape := ⟨2, ![41, 128]⟩
abbrev S128x3 : Shape := ⟨2, ![128, 3]⟩
abbrev S3 : Shape := ⟨1, ![3]⟩
abbrev S1048576x3 : Shape := ⟨2, ![1048576, 3]⟩
abbrev S1048576x2 : Shape := ⟨2, ![1048576, 2]⟩
abbrev S1x3 : Shape := ⟨2, ![1, 3]⟩
abbrev S_ : Shape := ⟨0, ![]⟩
abbrev S4096000x12 : Shape := ⟨2, ![4096000, 12]⟩
abbrev S1048576x1 : Shape := ⟨2, ![1048576, 1]⟩
abbrev S1048576 : Shape := ⟨1, ![1048576]⟩
abbrev S1048576x12 : Shape := ⟨2, ![1048576, 12]⟩
abbrev S1048576x128 : Shape := ⟨2, ![1048576, 128]⟩
abbrev S1x128 : Shape := ⟨2, ![1, 128]⟩
abbrev S1x1 : Shape := ⟨2, ![1, 1]⟩
abbrev S1048576x27 : Shape := ⟨2, ![1048576, 27]⟩
abbrev S1048576x41 : Shape := ⟨2, ![1048576, 41]⟩
abbrev S1048576x4 : Shape := ⟨2, ![1048576, 4]⟩

abbrev nBuf : Space → Nat
  | .hbm => 330
  | .vmem => 0
  | .smem => 0
  | _ => 0

abbrev hbmTy0_0 (i : Nat) : BufTy := match i % 128 with
  | 0 => ⟨S1048576x8, .f32⟩
  | 1 => ⟨S160x160x160x12, .f32⟩
  | 2 => ⟨S12x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S41x128, .f32⟩
  | 9 => ⟨S128, .f32⟩
  | 10 => ⟨S128x128, .f32⟩
  | 11 => ⟨S128, .f32⟩
  | 12 => ⟨S128x3, .f32⟩
  | 13 => ⟨S3, .f32⟩
  | 14 => ⟨S3, .f32⟩
  | 15 => ⟨S3, .f32⟩
  | 16 => ⟨S1048576x3, .f32⟩
  | 17 => ⟨S1048576x2, .f32⟩
  | 18 => ⟨S1048576x3, .f32⟩
  | 19 => ⟨S1x3, .f32⟩
  | 20 => ⟨S1048576x3, .f32⟩
  | 21 => ⟨S1048576x3, .f32⟩
  | 22 => ⟨S1x3, .f32⟩
  | 23 => ⟨S1048576x3, .f32⟩
  | 24 => ⟨S1048576x3, .f32⟩
  | 25 => ⟨S_, .f32⟩
  | 26 => ⟨S_, .f32⟩
  | 27 => ⟨S_, .f32⟩
  | 28 => ⟨S1048576x3, .f32⟩
  | 29 => ⟨S1048576x3, .f32⟩
  | 30 => ⟨S_, .f32⟩
  | 31 => ⟨S1048576x3, .f32⟩
  | 32 => ⟨S1048576x3, .f32⟩
  | 33 => ⟨S_, .f32⟩
  | 34 => ⟨S1048576x3, .f32⟩
  | 35 => ⟨S1048576x3, .f32⟩
  | 36 => ⟨S1048576x3, .f32⟩
  | 37 => ⟨S_, .i32⟩
  | 38 => ⟨S_, .i32⟩
  | 39 => ⟨S_, .f32⟩
  | 40 => ⟨S1048576x3, .f32⟩
  | 41 => ⟨S1048576x3, .f32⟩
  | 42 => ⟨S_, .f32⟩
  | 43 => ⟨S1048576x3, .f32⟩
  | 44 => ⟨S1048576x3, .f32⟩
  | 45 => ⟨S1048576x3, .i32⟩
  | 46 => ⟨S1048576x3, .f32⟩
  | 47 => ⟨S1048576x3, .f32⟩
  | 48 => ⟨S4096000x12, .f32⟩
  | 49 => ⟨S1048576x1, .i32⟩
  | 50 => ⟨S1048576, .i32⟩
  | 51 => ⟨S1048576x1, .i32⟩
  | 52 => ⟨S1048576, .i32⟩
  | 53 => ⟨S1048576x1, .i32⟩
  | 54 => ⟨S1048576, .i32⟩
  | 55 => ⟨S_, .i32⟩
  | 56 => ⟨S1048576, .i32⟩
  | 57 => ⟨S1048576, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i32⟩
  | 64 => ⟨S1048576x1, .f32⟩
  | 65 => ⟨S1048576x1, .f32⟩
  | 66 => ⟨S1048576x1, .f32⟩
  | 67 => ⟨S_, .i32⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S1048576x12, .f32⟩
  | 84 => ⟨S_, .f32⟩
  | 85 => ⟨S1048576x1, .f32⟩
  | 86 => ⟨S1048576x1, .f32⟩
  | 87 => ⟨S1048576x12, .f32⟩
  | 88 => ⟨S1048576x12, .f32⟩
  | 89 => ⟨S_, .i32⟩
  | 90 => ⟨S1048576, .i32⟩
  | 91 => ⟨S1048576, .i32⟩
  | 92 => ⟨S1048576, .i32⟩
  | 93 => ⟨S_, .i32⟩
  | 94 => ⟨S1048576, .i32⟩
  | 95 => ⟨S1048576, .i32⟩
  | 96 => ⟨S1048576, .i32⟩
  | 97 => ⟨S_, .i32⟩
  | 98 => ⟨S1048576, .i32⟩
  | 99 => ⟨S1048576, .i1⟩
  | 100 => ⟨S_, .i32⟩
  | 101 => ⟨S1048576, .i32⟩
  | 102 => ⟨S1048576, .i32⟩
  | 103 => ⟨S1048576, .i32⟩
  | 104 => ⟨S1048576x1, .i32⟩
  | 105 => ⟨S1048576x12, .f32⟩
  | 106 => ⟨S1048576x12, .f32⟩
  | 107 => ⟨S1048576x12, .f32⟩
  | 108 => ⟨S1048576x12, .f32⟩
  | 109 => ⟨S_, .f32⟩
  | 110 => ⟨S1048576x1, .f32⟩
  | 111 => ⟨S1048576x1, .f32⟩
  | 112 => ⟨S1048576x12, .f32⟩
  | 113 => ⟨S1048576x12, .f32⟩
  | 114 => ⟨S_, .i32⟩
  | 115 => ⟨S1048576, .i32⟩
  | 116 => ⟨S1048576, .i32⟩
  | 117 => ⟨S1048576, .i32⟩
  | 118 => ⟨S_, .i32⟩
  | 119 => ⟨S1048576, .i32⟩
  | 120 => ⟨S1048576, .i32⟩
  | 121 => ⟨S1048576, .i32⟩
  | 122 => ⟨S_, .i32⟩
  | 123 => ⟨S1048576, .i32⟩
  | 124 => ⟨S1048576, .i1⟩
  | 125 => ⟨S_, .i32⟩
  | 126 => ⟨S1048576, .i32⟩
  | 127 => ⟨S1048576, .i32⟩
  | _ => ⟨S1048576x8, .f32⟩

abbrev hbmTy0_1 (i : Nat) : BufTy := match i % 128 with
  | 0 => ⟨S1048576, .i32⟩
  | 1 => ⟨S1048576x1, .i32⟩
  | 2 => ⟨S1048576x12, .f32⟩
  | 3 => ⟨S_, .f32⟩
  | 4 => ⟨S1048576x1, .f32⟩
  | 5 => ⟨S1048576x1, .f32⟩
  | 6 => ⟨S1048576x12, .f32⟩
  | 7 => ⟨S1048576x12, .f32⟩
  | 8 => ⟨S_, .i32⟩
  | 9 => ⟨S1048576, .i32⟩
  | 10 => ⟨S1048576, .i32⟩
  | 11 => ⟨S1048576, .i32⟩
  | 12 => ⟨S_, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i1⟩
  | 19 => ⟨S_, .i32⟩
  | 20 => ⟨S1048576, .i32⟩
  | 21 => ⟨S1048576, .i32⟩
  | 22 => ⟨S1048576, .i32⟩
  | 23 => ⟨S1048576x1, .i32⟩
  | 24 => ⟨S1048576x12, .f32⟩
  | 25 => ⟨S1048576x12, .f32⟩
  | 26 => ⟨S1048576x12, .f32⟩
  | 27 => ⟨S1048576x12, .f32⟩
  | 28 => ⟨S1048576x12, .f32⟩
  | 29 => ⟨S1048576x12, .f32⟩
  | 30 => ⟨S1048576x12, .f32⟩
  | 31 => ⟨S_, .f32⟩
  | 32 => ⟨S1048576x1, .f32⟩
  | 33 => ⟨S1048576x1, .f32⟩
  | 34 => ⟨S1048576x12, .f32⟩
  | 35 => ⟨S1048576x12, .f32⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x12, .f32⟩
  | 53 => ⟨S_, .f32⟩
  | 54 => ⟨S1048576x1, .f32⟩
  | 55 => ⟨S1048576x1, .f32⟩
  | 56 => ⟨S1048576x12, .f32⟩
  | 57 => ⟨S1048576x12, .f32⟩
  | 58 => ⟨S_, .i32⟩
  | 59 => ⟨S1048576, .i32⟩
  | 60 => ⟨S1048576, .i32⟩
  | 61 => ⟨S1048576, .i32⟩
  | 62 => ⟨S_, .i32⟩
  | 63 => ⟨S1048576, .i32⟩
  | 64 => ⟨S1048576, .i32⟩
  | 65 => ⟨S1048576, .i32⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i32⟩
  | 72 => ⟨S1048576, .i32⟩
  | 73 => ⟨S1048576x1, .i32⟩
  | 74 => ⟨S1048576x12, .f32⟩
  | 75 => ⟨S1048576x12, .f32⟩
  | 76 => ⟨S1048576x12, .f32⟩
  | 77 => ⟨S1048576x12, .f32⟩
  | 78 => ⟨S_, .f32⟩
  | 79 => ⟨S1048576x1, .f32⟩
  | 80 => ⟨S1048576x1, .f32⟩
  | 81 => ⟨S1048576x12, .f32⟩
  | 82 => ⟨S1048576x12, .f32⟩
  | 83 => ⟨S_, .i32⟩
  | 84 => ⟨S1048576, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S1048576x1, .i32⟩
  | 99 => ⟨S1048576x12, .f32⟩
  | 100 => ⟨S_, .f32⟩
  | 101 => ⟨S1048576x1, .f32⟩
  | 102 => ⟨S1048576x1, .f32⟩
  | 103 => ⟨S1048576x12, .f32⟩
  | 104 => ⟨S1048576x12, .f32⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576x12, .f32⟩
  | 122 => ⟨S1048576x12, .f32⟩
  | 123 => ⟨S1048576x12, .f32⟩
  | 124 => ⟨S1048576x12, .f32⟩
  | 125 => ⟨S1048576x12, .f32⟩
  | 126 => ⟨S1048576x12, .f32⟩
  | 127 => ⟨S1048576x12, .f32⟩
  | _ => ⟨S1048576x8, .f32⟩

abbrev hbmTy0_2 (i : Nat) : BufTy := match i % 128 with
  | 0 => ⟨S1048576x12, .f32⟩
  | 1 => ⟨S1048576x12, .f32⟩
  | 2 => ⟨S1048576x12, .f32⟩
  | 3 => ⟨S1048576x128, .f32⟩
  | 4 => ⟨S1x128, .f32⟩
  | 5 => ⟨S1048576x128, .f32⟩
  | 6 => ⟨S1048576x128, .f32⟩
  | 7 => ⟨S_, .f32⟩
  | 8 => ⟨S1048576x128, .f32⟩
  | 9 => ⟨S1048576x128, .f32⟩
  | 10 => ⟨S1048576x128, .f32⟩
  | 11 => ⟨S1x128, .f32⟩
  | 12 => ⟨S1048576x128, .f32⟩
  | 13 => ⟨S1048576x128, .f32⟩
  | 14 => ⟨S_, .f32⟩
  | 15 => ⟨S1048576x128, .f32⟩
  | 16 => ⟨S1048576x128, .f32⟩
  | 17 => ⟨S1048576x1, .f32⟩
  | 18 => ⟨S1x1, .f32⟩
  | 19 => ⟨S1048576x1, .f32⟩
  | 20 => ⟨S1048576x1, .f32⟩
  | 21 => ⟨S_, .f32⟩
  | 22 => ⟨S1048576x3, .f32⟩
  | 23 => ⟨S1048576x3, .f32⟩
  | 24 => ⟨S1048576x3, .f32⟩
  | 25 => ⟨S_, .f32⟩
  | 26 => ⟨S1048576x3, .f32⟩
  | 27 => ⟨S1048576x3, .f32⟩
  | 28 => ⟨S1048576x3, .f32⟩
  | 29 => ⟨S_, .f32⟩
  | 30 => ⟨S1048576x3, .f32⟩
  | 31 => ⟨S1048576x3, .f32⟩
  | 32 => ⟨S1048576x3, .f32⟩
  | 33 => ⟨S_, .f32⟩
  | 34 => ⟨S1048576x3, .f32⟩
  | 35 => ⟨S1048576x3, .f32⟩
  | 36 => ⟨S1048576x3, .f32⟩
  | 37 => ⟨S_, .f32⟩
  | 38 => ⟨S1048576x3, .f32⟩
  | 39 => ⟨S1048576x3, .f32⟩
  | 40 => ⟨S1048576x3, .f32⟩
  | 41 => ⟨S_, .f32⟩
  | 42 => ⟨S1048576x3, .f32⟩
  | 43 => ⟨S1048576x3, .f32⟩
  | 44 => ⟨S1048576x3, .f32⟩
  | 45 => ⟨S_, .f32⟩
  | 46 => ⟨S1048576x3, .f32⟩
  | 47 => ⟨S1048576x3, .f32⟩
  | 48 => ⟨S1048576x3, .f32⟩
  | 49 => ⟨S_, .f32⟩
  | 50 => ⟨S1048576x3, .f32⟩
  | 51 => ⟨S1048576x3, .f32⟩
  | 52 => ⟨S1048576x3, .f32⟩
  | 53 => ⟨S1048576x27, .f32⟩
  | 54 => ⟨S1048576x41, .f32⟩
  | 55 => ⟨S1048576x128, .f32⟩
  | 56 => ⟨S1x128, .f32⟩
  | 57 => ⟨S1048576x128, .f32⟩
  | 58 => ⟨S1048576x128, .f32⟩
  | 59 => ⟨S_, .f32⟩
  | 60 => ⟨S1048576x128, .f32⟩
  | 61 => ⟨S1048576x128, .f32⟩
  | 62 => ⟨S1048576x128, .f32⟩
  | 63 => ⟨S1x128, .f32⟩
  | 64 => ⟨S1048576x128, .f32⟩
  | 65 => ⟨S1048576x128, .f32⟩
  | 66 => ⟨S_, .f32⟩
  | 67 => ⟨S1048576x128, .f32⟩
  | 68 => ⟨S1048576x128, .f32⟩
  | 69 => ⟨S1048576x3, .f32⟩
  | 70 => ⟨S1x3, .f32⟩
  | 71 => ⟨S1048576x3, .f32⟩
  | 72 => ⟨S1048576x3, .f32⟩
  | 73 => ⟨S1048576x4, .f32⟩
  | _ => ⟨S1048576x8, .f32⟩

abbrev hbmTy (i : Nat) : BufTy := match i / 128 with
  | 0 => hbmTy0_0 i
  | 1 => hbmTy0_1 i
  | 2 => hbmTy0_2 i
  | _ => ⟨S1048576x8, .f32⟩

abbrev bufTy : (tb : Table) → Fin (tcTables nBuf tb) → BufTy
  | .hbm, ⟨i, _⟩ => hbmTy i
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_c_7 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_9 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_10 : Ref sig .tc := ⟨.hbm, 75, rfl⟩
abbrev main_v39 : Ref sig .tc := ⟨.hbm, 76, rfl⟩
abbrev main_v40 : Ref sig .tc := ⟨.hbm, 77, rfl⟩
abbrev main_c_11 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_12 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_13 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_14 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_15 : Ref sig .tc := ⟨.hbm, 97, rfl⟩
abbrev main_v56 : Ref sig .tc := ⟨.hbm, 98, rfl⟩
abbrev main_v57 : Ref sig .tc := ⟨.hbm, 99, rfl⟩
abbrev main_c_16 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_17 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_18 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_19 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_c_20 : Ref sig .tc := ⟨.hbm, 122, rfl⟩
abbrev main_v76 : Ref sig .tc := ⟨.hbm, 123, rfl⟩
abbrev main_v77 : Ref sig .tc := ⟨.hbm, 124, rfl⟩
abbrev main_c_21 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_22 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_23 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_24 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_25 : Ref sig .tc := ⟨.hbm, 144, rfl⟩
abbrev main_v93 : Ref sig .tc := ⟨.hbm, 145, rfl⟩
abbrev main_v94 : Ref sig .tc := ⟨.hbm, 146, rfl⟩
abbrev main_c_26 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_27 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_28 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_c_29 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_c_30 : Ref sig .tc := ⟨.hbm, 172, rfl⟩
abbrev main_v116 : Ref sig .tc := ⟨.hbm, 173, rfl⟩
abbrev main_v117 : Ref sig .tc := ⟨.hbm, 174, rfl⟩
abbrev main_c_31 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_32 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_33 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_c_34 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_c_35 : Ref sig .tc := ⟨.hbm, 194, rfl⟩
abbrev main_v133 : Ref sig .tc := ⟨.hbm, 195, rfl⟩
abbrev main_v134 : Ref sig .tc := ⟨.hbm, 196, rfl⟩
abbrev main_c_36 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_37 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_c_38 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_c_39 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_40 : Ref sig .tc := ⟨.hbm, 219, rfl⟩
abbrev main_v153 : Ref sig .tc := ⟨.hbm, 220, rfl⟩
abbrev main_v154 : Ref sig .tc := ⟨.hbm, 221, rfl⟩
abbrev main_c_41 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_cst_42 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_c_43 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_c_44 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_c_45 : Ref sig .tc := ⟨.hbm, 241, rfl⟩
abbrev main_v170 : Ref sig .tc := ⟨.hbm, 242, rfl⟩
abbrev main_v171 : Ref sig .tc := ⟨.hbm, 243, rfl⟩
abbrev main_c_46 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_call2_cst : Ref sig .tc := ⟨.hbm, 263, rfl⟩
abbrev main_call2_v0 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_call3_cst : Ref sig .tc := ⟨.hbm, 270, rfl⟩
abbrev main_call3_v0 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_cst_47 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_cst_48 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_cst_49 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_cst_50 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_cst_51 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_cst_52 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_cst_53 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_cst_54 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_call4_cst : Ref sig .tc := ⟨.hbm, 315, rfl⟩
abbrev main_call4_v0 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_call5_cst : Ref sig .tc := ⟨.hbm, 322, rfl⟩
abbrev main_call5_v0 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩

abbrev nD : Nat := 1
abbrev τ : Topo := Topo.v7x

variable {F : FTy → Type} [FloatOps F]

class Facts₀ : Prop where
  slices_S1048576x8_S1048576x3_0_0 : S1048576x8.Slices ![0, 0] S1048576x3
  slices_S1048576x8_S1048576x2_0_3 : S1048576x8.Slices ![0, 3] S1048576x2
  slices_S1048576x8_S1048576x3_0_5 : S1048576x8.Slices ![0, 5] S1048576x3
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S_S1048576x3 : S_.BroadcastsInDim S1048576x3 (![] : Fin 0 → Fin S1048576x3.rank)
  shapeCasts_S160x160x160x12_S4096000x12 : S160x160x160x12.ShapeCasts S4096000x12
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x12_0_1 : S1048576x1.BroadcastsInDim S1048576x12 (![0, 1] : Fin 2 → Fin S1048576x12.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  concatenates_S1048576x3_S1048576x3_S1048576x3_S1048576x3_S1048576x3_S1048576x3_S1048576x3_S1048576x3_S1048576x3_S1048576x27_d1 : Shape.Concatenates [S1048576x3, S1048576x3, S1048576x3, S1048576x3, S1048576x3, S1048576x3, S1048576x3, S1048576x3, S1048576x3] S1048576x27 1
  concatenates_S1048576x12_S1048576x27_S1048576x2_S1048576x41_d1 : Shape.Concatenates [S1048576x12, S1048576x27, S1048576x2] S1048576x41 1
  concatenates_S1048576x3_S1048576x1_S1048576x4_d1 : Shape.Concatenates [S1048576x3, S1048576x1] S1048576x4 1
  gather_S4096000x12_S1048576x1_S1048576x12_1_0_n_n_0_1_112_wf : GatherDims.WF S4096000x12 S1048576x1 S1048576x12 [1] [0] [] [0] [] 1 ![1, 12]
  dot_S1048576x12_S12x128_S1048576x128_1_0_0_1_n_n_wf : DotDims.WF S1048576x12 S12x128 S1048576x128 [1] [0] [0] [1] [] []
  dot_S1048576x128_S128x128_S1048576x128_1_0_0_1_n_n_wf : DotDims.WF S1048576x128 S128x128 S1048576x128 [1] [0] [0] [1] [] []
  dot_S1048576x128_S128x1_S1048576x1_1_0_0_1_n_n_wf : DotDims.WF S1048576x128 S128x1 S1048576x1 [1] [0] [0] [1] [] []
  dot_S1048576x41_S41x128_S1048576x128_1_0_0_1_n_n_wf : DotDims.WF S1048576x41 S41x128 S1048576x128 [1] [0] [0] [1] [] []
  dot_S1048576x128_S128x3_S1048576x3_1_0_0_1_n_n_wf : DotDims.WF S1048576x128 S128x3 S1048576x3 [1] [0] [0] [1] [] []

variable [Facts₀]

def gather_S4096000x12_S1048576x1_S1048576x12_1_0_n_n_0_1_112 : GatherDims S4096000x12 S1048576x1 S1048576x12 where
  offsetDims := [1]
  collapsedSliceDims := [0]
  operandBatchingDims := []
  startIndicesBatchingDims := []
  startIndexMap := [0]
  indexVectorDim := 1
  sliceSizes := ![1, 12]
  wf := gather_S4096000x12_S1048576x1_S1048576x12_1_0_n_n_0_1_112_wf
def dot_S1048576x12_S12x128_S1048576x128_1_0_0_1_n_n : DotDims S1048576x12 S12x128 S1048576x128 where
  lhsContracting := [1]
  rhsContracting := [0]
  lhsNonContracting := [0]
  rhsNonContracting := [1]
  lhsBatch := []
  rhsBatch := []
  wf := dot_S1048576x12_S12x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x1_S1048576x1_1_0_0_1_n_n : DotDims S1048576x128 S128x1 S1048576x1 where
  lhsContracting := [1]
  rhsContracting := [0]
  lhsNonContracting := [0]
  rhsNonContracting := [1]
  lhsBatch := []
  rhsBatch := []
  wf := dot_S1048576x128_S128x1_S1048576x1_1_0_0_1_n_n_wf
def dot_S1048576x41_S41x128_S1048576x128_1_0_0_1_n_n : DotDims S1048576x41 S41x128 S1048576x128 where
  lhsContracting := [1]
  rhsContracting := [0]
  lhsNonContracting := [0]
  rhsNonContracting := [1]
  lhsBatch := []
  rhsBatch := []
  wf := dot_S1048576x41_S41x128_S1048576x128_1_0_0_1_n_n_wf
def dot_S1048576x128_S128x3_S1048576x3_1_0_0_1_n_n : DotDims S1048576x128 S128x3 S1048576x3 where
  lhsContracting := [1]
  rhsContracting := [0]
  lhsNonContracting := [0]
  rhsNonContracting := [1]
  lhsBatch := []
  rhsBatch := []
  wf := dot_S1048576x128_S128x3_S1048576x3_1_0_0_1_n_n_wf

class Facts : Prop extends Facts₀ where

variable [Facts]
-- ==== Proof.Spec.lean ====
/-
  What both programs compute, for one query point, on the extended reals.

  A point carries a feature row `feat` (12 numbers, interpolated from the voxel grid), two frame
  features `ff` and a view direction `vd` (3 numbers). Its embedded row has 41 columns:
  the 12 features, the direction, then sin and cos of the direction scaled by 1, 2, 4, 8
  (in that order: sin·1, cos·1, sin·2, cos·2, sin·4, cos·4, sin·8, cos·8), then the two frame features.

  The reference evaluates two perceptrons of width 128: the colour tower on the embedded row
  (41 → 128 → 128 → 3) and the distance tower on the features alone (12 → 128 → 128 → 1), and
  returns the three colours followed by the distance.

  The kernel evaluates ONE perceptron of width 256 on the embedded row (41 → 256 → 256 → 4) whose
  weights are the two towers' weights laid out block-diagonally, zeros elsewhere. A product
  with a zero weight is zero on the extended reals (also of an infinity), and a sum does not
  change when zero terms are added, so the wide perceptron's four outputs are the towers'
  (`merged_eq_towers`). No finiteness is needed.
-/
import Idealize.ShloMosaic.PureOps.Ideal
import Idealize.ShloMosaic.Lib.ValueIdx

noncomputable section

namespace Cert.Spec

open Idealize.ShloMosaic

/-- The rectifier's zero, as the word both programs print. -/
abbrev z0 : EReal := Ideal.ofBits .f32 0x00000000#32

/-- One affine layer: `∑ k, v k * W k j + b j`. -/
def dense {K J : Nat} (v : Fin K → EReal) (W : Fin K → Fin J → EReal) (b : Fin J → EReal) (j : Fin J) : EReal :=
  (∑ k : Fin K, v k * W k j) + b j

/-- An affine layer followed by the rectifier `max · 0`. -/
def layer {K J : Nat} (v : Fin K → EReal) (W : Fin K → Fin J → EReal) (b : Fin J → EReal) (j : Fin J) : EReal :=
  max (dense v W b j) z0

/-- The 41 columns of a point's embedded row. -/
def embed (feat : Fin 12 → EReal) (ff : Fin 2 → EReal) (vd : Fin 3 → EReal) (k : Fin 41) : EReal :=
  if h0 : k.val < 12 then feat ⟨k.val, h0⟩
  else if h1 : k.val < 15 then vd ⟨k.val - 12, by omega⟩
  else if h2 : k.val < 18 then Ideal.sin (vd ⟨k.val - 15, by omega⟩ * Ideal.ofBits .f32 0x3F800000#32)
  else if h3 : k.val < 21 then Ideal.cos (vd ⟨k.val - 18, by omega⟩ * Ideal.ofBits .f32 0x3F800000#32)
  else if h4 : k.val < 24 then Ideal.sin (vd ⟨k.val - 21, by omega⟩ * Ideal.ofBits .f32 0x40000000#32)
  else if h5 : k.val < 27 then Ideal.cos (vd ⟨k.val - 24, by omega⟩ * Ideal.ofBits .f32 0x40000000#32)
  else if h6 : k.val < 30 then Ideal.sin (vd ⟨k.val - 27, by omega⟩ * Ideal.ofBits .f32 0x40800000#32)
  else if h7 : k.val < 33 then Ideal.cos (vd ⟨k.val - 30, by omega⟩ * Ideal.ofBits .f32 0x40800000#32)
  else if h8 : k.val < 36 then Ideal.sin (vd ⟨k.val - 33, by omega⟩ * Ideal.ofBits .f32 0x41000000#32)
  else if h9 : k.val < 39 then Ideal.cos (vd ⟨k.val - 36, by omega⟩ * Ideal.ofBits .f32 0x41000000#32)
  else ff ⟨k.val - 39, by omega⟩

/-- The reference's two towers: three colours, then the distance. -/
def towers (feat : Fin 12 → EReal) (ff : Fin 2 → EReal) (vd : Fin 3 → EReal)
    (dW1 : Fin 12 → Fin 128 → EReal) (db1 : Fin 128 → EReal) (dW2 : Fin 128 → Fin 128 → EReal) (db2 : Fin 128 → EReal)
    (dW3 : Fin 128 → Fin 1 → EReal) (db3 : Fin 1 → EReal)
    (rW1 : Fin 41 → Fin 128 → EReal) (rb1 : Fin 128 → EReal) (rW2 : Fin 128 → Fin 128 → EReal) (rb2 : Fin 128 → EReal)
    (rW3 : Fin 128 → Fin 3 → EReal) (rb3 : Fin 3 → EReal) (q : Fin 4) : EReal :=
  if h : q.val < 3 then dense (layer (layer (embed feat ff vd) rW1 rb1) rW2 rb2) rW3 rb3 ⟨q.val, h⟩
  else dense (layer (layer feat dW1 db1) dW2 db2) dW3 db3 0

/-- The kernel's one wide perceptron on the embedded row. -/
def merged (e : Fin 41 → EReal)
    (W1 : Fin 41 → Fin 256 → EReal) (b1 : Fin 256 → EReal) (W2 : Fin 256 → Fin 256 → EReal) (b2 : Fin 256 → EReal)
    (W3 : Fin 256 → Fin 4 → EReal) (b3 : Fin 4 → EReal) (q : Fin 4) : EReal :=
  dense (layer (layer e W1 b1) W2 b2) W3 b3 q

/-- The block-diagonal layout of the two towers' weights (the colour tower first, zeros off the blocks). -/
def W1c (dW1 : Fin 12 → Fin 128 → EReal) (rW1 : Fin 41 → Fin 128 → EReal) (k : Fin 41) (j : Fin 256) : EReal :=
  if hj : j.val < 128 then rW1 k ⟨j.val, hj⟩
  else if hk : k.val < 12 then dW1 ⟨k.val, hk⟩ ⟨j.val - 128, by omega⟩ else z0
def W2c (dW2 rW2 : Fin 128 → Fin 128 → EReal) (k j : Fin 256) : EReal :=
  if hk : k.val < 128 then (if hj : j.val < 128 then rW2 ⟨k.val, hk⟩ ⟨j.val, hj⟩ else z0)
  else (if hj : j.val < 128 then z0 else dW2 ⟨k.val - 128, by omega⟩ ⟨j.val - 128, by omega⟩)
def W3c (dW3 : Fin 128 → Fin 1 → EReal) (rW3 : Fin 128 → Fin 3 → EReal) (k : Fin 256) (q : Fin 4) : EReal :=
  if hk : k.val < 128 then (if hq : q.val < 3 then rW3 ⟨k.val, hk⟩ ⟨q.val, hq⟩ else z0)
  else (if hq : q.val < 3 then z0 else dW3 ⟨k.val - 128, by omega⟩ 0)
/-- Two bias vectors one after the other. -/
def cat {A B : Nat} (u : Fin A → EReal) (v : Fin B → EReal) (j : Fin (A + B)) : EReal :=
  if h : j.val < A then u ⟨j.val, h⟩ else v ⟨j.val - A, by omega⟩

/-- Columns 3, 4 of a point's input row: the frame features. -/
def ffOf (row : Fin 8 → EReal) (a : Fin 2) : EReal := row ⟨a.val + 3, by have := a.isLt; omega⟩
/-- Columns 5, 6, 7 of a point's input row: the view direction. -/
def vdOf (row : Fin 8 → EReal) (a : Fin 3) : EReal := row ⟨a.val + 5, by have := a.isLt; omega⟩

/-- A point's four outputs from its feature row and its input row, by the reference's two towers. -/
def point (feat : Fin 12 → EReal) (row : Fin 8 → EReal)
    (dW1 : Fin 12 → Fin 128 → EReal) (db1 : Fin 128 → EReal) (dW2 : Fin 128 → Fin 128 → EReal) (db2 : Fin 128 → EReal)
    (dW3 : Fin 128 → Fin 1 → EReal) (db3 : Fin 1 → EReal)
    (rW1 : Fin 41 → Fin 128 → EReal) (rb1 : Fin 128 → EReal) (rW2 : Fin 128 → Fin 128 → EReal) (rb2 : Fin 128 → EReal)
    (rW3 : Fin 128 → Fin 3 → EReal) (rb3 : Fin 3 → EReal) (q : Fin 4) : EReal :=
  towers feat (ffOf row) (vdOf row) dW1 db1 dW2 db2 dW3 db3 rW1 rb1 rW2 rb2 rW3 rb3 q

end Cert.Spec

end
-- ==== Proof.KBody.lean ====
/-
  What the kernel body leaves in its output block, in terms of its input blocks.

  The body fills a scratch block of 41 columns slab by slab (the 12 features; the view direction; sin and
  cos of the direction scaled by 1, 2, 4, 8; the two frame features), reads the scratch back whole, and
  stores the wide perceptron of it. Here: the scratch as ONE function `scr` of the feature block and the
  input block (`scr_col…`: its value in each slab), each stored slab as `scr` at the slab's place
  (`slab…`), and the output block as the perceptron's payloads on `scr` (`out_eq`): the eleven slabs
  tile the scratch, so the read-back is `scr` at every index.

  On the extended reals a slab's payload at a point is a column of the point's embedded row: a cast to
  the same shape is the identity, a slice reads the shifted column, sine, cosine and the product act
  element by element (`pay…_at`); so the scratch row of a point is its embedded row (`scr_apply`).
-/
import proofs.«161056_j33775622815975_2_alg».proof.Proof.Gen.KernelIdeal.Frame
import proofs.«161056_j33775622815975_2_alg».proof.Proof.Spec
import Idealize.ShloMosaic.Lib.ValueIdx
import Idealize.ShloMosaic.Lib.Pipeline.Value
set_option maxRecDepth 16384
noncomputable section
namespace Cert.KBody
open Idealize.ShloMosaic Idealize.ShloMosaic.TcCoe Idealize.ShloMosaic.Tactic Idealize.SL.Sem Cert.KernelIdeal Cert.KernelIdeal.Gen
variable {F : FTy → Type} [FloatOps F]

/-- The scratch row block as one function of the feature block and the input block: column by column,
    the eleven slabs the body stores (features; direction; sin and cos of the direction scaled by
    1, 2, 4, 8; frame features). -/
def scr (x0 : Vec F S4096x12 .f32) (x1 : Vec F S4096x8 .f32) : Vec F S4096x41 .f32 := fun j =>
  if h0 : (j 1).val < 12 then k0_pay4 x0 (ValueIdx.ix2 (j 0) ⟨(j 1).val, h0⟩)
  else if h1 : (j 1).val < 15 then k0_pay5 x1 (ValueIdx.ix2 (j 0) ⟨(j 1).val - 12, by omega⟩)
  else if h2 : (j 1).val < 18 then k0_pay6 x1 (ValueIdx.ix2 (j 0) ⟨(j 1).val - 15, by omega⟩)
  else if h3 : (j 1).val < 21 then k0_pay7 x1 (ValueIdx.ix2 (j 0) ⟨(j 1).val - 18, by omega⟩)
  else if h4 : (j 1).val < 24 then k0_pay8 x1 (ValueIdx.ix2 (j 0) ⟨(j 1).val - 21, by omega⟩)
  else if h5 : (j 1).val < 27 then k0_pay10 (k0_pay9 x1) (ValueIdx.ix2 (j 0) ⟨(j 1).val - 24, by omega⟩)
  else if h6 : (j 1).val < 30 then k0_pay11 (k0_pay3 x1) (ValueIdx.ix2 (j 0) ⟨(j 1).val - 27, by omega⟩)
  else if h7 : (j 1).val < 33 then k0_pay12 (k0_pay3 x1) (ValueIdx.ix2 (j 0) ⟨(j 1).val - 30, by omega⟩)
  else if h8 : (j 1).val < 36 then k0_pay13 (k0_pay3 x1) (ValueIdx.ix2 (j 0) ⟨(j 1).val - 33, by omega⟩)
  else if h9 : (j 1).val < 39 then k0_pay14 (k0_pay3 x1) (ValueIdx.ix2 (j 0) ⟨(j 1).val - 36, by omega⟩)
  else k0_pay15 (k0_pay2 x1) (ValueIdx.ix2 (j 0) ⟨(j 1).val - 39, by have : (j 1).val < 41 := (j 1).isLt; omega⟩)

/-! The scratch at an index whose column lies in a given slab is that slab's payload at the column's place in it. -/

theorem scr_col0 (x0 : Vec F S4096x12 .f32) (x1 : Vec F S4096x8 .f32) (y : S4096x41.Idx) (lo : 0 ≤ (y 1).val) (hi : (y 1).val < 12) :
    scr x0 x1 y = k0_pay4 x0 (ValueIdx.ix2 (y 0) ⟨(y 1).val, hi⟩) := by
  unfold scr
  rw [dif_pos (by omega)]

theorem scr_col12 (x0 : Vec F S4096x12 .f32) (x1 : Vec F S4096x8 .f32) (y : S4096x41.Idx) (lo : 12 ≤ (y 1).val) (hi : (y 1).val < 15) :
    scr x0 x1 y = k0_pay5 x1 (ValueIdx.ix2 (y 0) ⟨(y 1).val - 12, by omega⟩) := by
  unfold scr
  rw [dif_neg (by omega), dif_pos (by omega)]

theorem scr_col15 (x0 : Vec F S4096x12 .f32) (x1 : Vec F S4096x8 .f32) (y : S4096x41.Idx) (lo : 15 ≤ (y 1).val) (hi : (y 1).val < 18) :
    scr x0 x1 y = k0_pay6 x1 (ValueIdx.ix2 (y 0) ⟨(y 1).val - 15, by omega⟩) := by
  unfold scr
  rw [dif_neg (by omega), dif_neg (by omega), dif_pos (by omega)]

theorem scr_col18 (x0 : Vec F S4096x12 .f32) (x1 : Vec F S4096x8 .f32) (y : S4096x41.Idx) (lo : 18 ≤ (y 1).val) (hi : (y 1).val < 21) :
    scr x0 x1 y = k0_pay7 x1 (ValueIdx.ix2 (y 0) ⟨(y 1).val - 18, by omega⟩) := by
  unfold scr
  rw [dif_neg (by omega), dif_neg (by omega), dif_neg (by omega), dif_pos (by omega)]

theorem scr_col21 (x0 : Vec F S4096x12 .f32) (x1 : Vec F S4096x8 .f32) (y : S4096x41.Idx) (lo : 21 ≤ (y 1).val) (hi : (y 1).val < 24) :
    scr x0 x1 y = k0_pay8 x1 (ValueIdx.ix2 (y 0) ⟨(y 1).val - 21, by omega⟩) := by
  unfold scr
  rw [dif_neg (by omega), dif_neg (by omega), dif_neg (by omega), dif_neg (by omega), dif_pos (by omega)]

theorem scr_col24 (x0 : Vec F S4096x12 .f32) (x1 : Vec F S4096x8 .f32) (y : S4096x41.Idx) (lo : 24 ≤ (y 1).val) (hi : (y 1).val < 27) :
    scr x0 x1 y = k0_pay10 (k0_pay9 x1) (ValueIdx.ix2 (y 0) ⟨(y 1).val - 24, by omega⟩) := by
  unfold scr
  rw [dif_neg (by omega), dif_neg (by omega), dif_neg (by omega), dif_neg (by omega), dif_neg (by omega), dif_pos (by omega)]

theorem scr_col27 (x0 : Vec F S4096x12 .f32) (x1 : Vec F S4096x8 .f32) (y : S4096x41.Idx) (lo : 27 ≤ (y 1).val) (hi : (y 1).val < 30) :
    scr x0 x1 y = k0_pay11 (k0_pay3 x1) (ValueIdx.ix2 (y 0) ⟨(y 1).val - 27, by omega⟩) := by
  unfold scr
  rw [dif_neg (by omega), dif_neg (by omega), dif_neg (by omega), dif_neg (by omega), dif_neg (by omega), dif_neg (by omega), dif_pos (by omega)]

theorem scr_col30 (x0 : Vec F S4096x12 .f32) (x1 : Vec F S4096x8 .f32) (y : S4096x41.Idx) (lo : 30 ≤ (y 1).val) (hi : (y 1).val < 33) :
    scr x0 x1 y = k0_pay12 (k0_pay3 x1) (ValueIdx.ix2 (y 0) ⟨(y 1).val - 30, by omega⟩) := by
  unfold scr
  rw [dif_neg (by omega), dif_neg (by omega), dif_neg (by omega), dif_neg (by omega), dif_neg (by omega), dif_neg (by omega), dif_neg (by omega), dif_pos (by omega)]

theorem scr_col33 (x0 : Vec F S4096x12 .f32) (x1 : Vec F S4096x8 .f32) (y : S4096x41.Idx) (lo : 33 ≤ (y 1).val) (hi : (y 1).val < 36) :
    scr x0 x1 y = k0_pay13 (k0_pay3 x1) (ValueIdx.ix2 (y 0) ⟨(y 1).val - 33, by omega⟩) := by
  unfold scr
  rw [dif_neg (by omega), dif_neg (by omega), dif_neg (by omega), dif_neg (by omega), dif_neg (by omega), dif_neg (by omega), dif_neg (by omega), dif_neg (by omega), dif_pos (by omega)]

theorem scr_col36 (x0 : Vec F S4096x12 .f32) (x1 : Vec F S4096x8 .f32) (y : S4096x41.Idx) (lo : 36 ≤ (y 1).val) (hi : (y 1).val < 39) :
    scr x0 x1 y = k0_pay14 (k0_pay3 x1) (ValueIdx.ix2 (y 0) ⟨(y 1).val - 36, by omega⟩) := by
  unfold scr
  rw [dif_neg (by omega), dif_neg (by omega), dif_neg (by omega), dif_neg (by omega), dif_neg (by omega), dif_neg (by omega), dif_neg (by omega), dif_neg (by omega), dif_neg (by omega), dif_pos (by omega)]

theorem scr_col39 (x0 : Vec F S4096x12 .f32) (x1 : Vec F S4096x8 .f32) (y : S4096x41.Idx) (lo : 39 ≤ (y 1).val) (hi : (y 1).val < 41) :
    scr x0 x1 y = k0_pay15 (k0_pay2 x1) (ValueIdx.ix2 (y 0) ⟨(y 1).val - 39, by omega⟩) := by
  unfold scr
  rw [dif_neg (by omega), dif_neg (by omega), dif_neg (by omega), dif_neg (by omega), dif_neg (by omega), dif_neg (by omega), dif_neg (by omega), dif_neg (by omega), dif_neg (by omega), dif_neg (by omega)]

/-- The whole-shape rectangle at zero offsets (however the zeros are spelt) places an index at itself. -/
theorem idx_unit_zero {S : Shape} {off : Fin S.rank → Nat} (h : off = fun _ => 0) (inb : ∀ a, off a + S.size a ≤ S.size a) (j : S.Idx) :
    (Rect.unit off S.size inb).toLoadRect.idx j = j := by
  subst h; exact Rect.emb_whole_apply S j

/-! Each slab's payload is the scratch function at the slab's place. -/

theorem slab0 (x0 : Vec F S4096x12 .f32) (x1 : Vec F S4096x8 .f32) (x : S4096x12.Idx) :
    k0_pay4 x0 x = scr x0 x1 ((Rect.unit (s := S4096x41) ![0, 0] S4096x12.size inb_S4096x41_S4096x12_0_0).emb x) := by
  have hx : (x 1).val < 12 := (x 1).isLt
  rw [scr_col0 x0 x1 _ (by show 0 ≤ 0 + 1 * (x 1).val; omega) (by show 0 + 1 * (x 1).val < 12; omega)]
  refine congrArg (k0_pay4 x0) ?_
  funext a
  match a with
  | ⟨0, _⟩ => exact Fin.ext (by show (x 0).val = 0 + 1 * (x 0).val; omega)
  | ⟨1, _⟩ => exact Fin.ext (by show (x 1).val = 0 + 1 * (x 1).val; omega)

theorem slab12 (x0 : Vec F S4096x12 .f32) (x1 : Vec F S4096x8 .f32) (x : S4096x3.Idx) :
    k0_pay5 x1 x = scr x0 x1 ((Rect.unit (s := S4096x41) ![0, 12] S4096x3.size inb_S4096x41_S4096x3_0_12).emb x) := by
  have hx : (x 1).val < 3 := (x 1).isLt
  rw [scr_col12 x0 x1 _ (by show 12 ≤ 12 + 1 * (x 1).val; omega) (by show 12 + 1 * (x 1).val < 15; omega)]
  refine congrArg (k0_pay5 x1) ?_
  funext a
  match a with
  | ⟨0, _⟩ => exact Fin.ext (by show (x 0).val = 0 + 1 * (x 0).val; omega)
  | ⟨1, _⟩ => exact Fin.ext (by show (x 1).val = 12 + 1 * (x 1).val - 12; omega)

theorem slab15 (x0 : Vec F S4096x12 .f32) (x1 : Vec F S4096x8 .f32) (x : S4096x3.Idx) :
    k0_pay6 x1 x = scr x0 x1 ((Rect.unit (s := S4096x41) ![0, 15] S4096x3.size inb_S4096x41_S4096x3_0_15).emb x) := by
  have hx : (x 1).val < 3 := (x 1).isLt
  rw [scr_col15 x0 x1 _ (by show 15 ≤ 15 + 1 * (x 1).val; omega) (by show 15 + 1 * (x 1).val < 18; omega)]
  refine congrArg (k0_pay6 x1) ?_
  funext a
  match a with
  | ⟨0, _⟩ => exact Fin.ext (by show (x 0).val = 0 + 1 * (x 0).val; omega)
  | ⟨1, _⟩ => exact Fin.ext (by show (x 1).val = 15 + 1 * (x 1).val - 15; omega)

theorem slab18 (x0 : Vec F S4096x12 .f32) (x1 : Vec F S4096x8 .f32) (x : S4096x3.Idx) :
    k0_pay7 x1 x = scr x0 x1 ((Rect.unit (s := S4096x41) ![0, 18] S4096x3.size inb_S4096x41_S4096x3_0_18).emb x) := by
  have hx : (x 1).val < 3 := (x 1).isLt
  rw [scr_col18 x0 x1 _ (by show 18 ≤ 18 + 1 * (x 1).val; omega) (by show 18 + 1 * (x 1).val < 21; omega)]
  refine congrArg (k0_pay7 x1) ?_
  funext a
  match a with
  | ⟨0, _⟩ => exact Fin.ext (by show (x 0).val = 0 + 1 * (x 0).val; omega)
  | ⟨1, _⟩ => exact Fin.ext (by show (x 1).val = 18 + 1 * (x 1).val - 18; omega)

theorem slab21 (x0 : Vec F S4096x12 .f32) (x1 : Vec F S4096x8 .f32) (x : S4096x3.Idx) :
    k0_pay8 x1 x = scr x0 x1 ((Rect.unit (s := S4096x41) ![0, 21] S4096x3.size inb_S4096x41_S4096x3_0_21).emb x) := by
  have hx : (x 1).val < 3 := (x 1).isLt
  rw [scr_col21 x0 x1 _ (by show 21 ≤ 21 + 1 * (x 1).val; omega) (by show 21 + 1 * (x 1).val < 24; omega)]
  refine congrArg (k0_pay8 x1) ?_
  funext a
  match a with
  | ⟨0, _⟩ => exact Fin.ext (by show (x 0).val = 0 + 1 * (x 0).val; omega)
  | ⟨1, _⟩ => exact Fin.ext (by show (x 1).val = 21 + 1 * (x 1).val - 21; omega)

theorem slab24 (x0 : Vec F S4096x12 .f32) (x1 : Vec F S4096x8 .f32) (x : S4096x3.Idx) :
    k0_pay10 (k0_pay9 x1) x = scr x0 x1 ((Rect.unit (s := S4096x41) ![0, 24] S4096x3.size inb_S4096x41_S4096x3_0_24).emb x) := by
  have hx : (x 1).val < 3 := (x 1).isLt
  rw [scr_col24 x0 x1 _ (by show 24 ≤ 24 + 1 * (x 1).val; omega) (by show 24 + 1 * (x 1).val < 27; omega)]
  refine congrArg (k0_pay10 (k0_pay9 x1)) ?_
  funext a
  match a with
  | ⟨0, _⟩ => exact Fin.ext (by show (x 0).val = 0 + 1 * (x 0).val; omega)
  | ⟨1, _⟩ => exact Fin.ext (by show (x 1).val = 24 + 1 * (x 1).val - 24; omega)

theorem slab27 (x0 : Vec F S4096x12 .f32) (x1 : Vec F S4096x8 .f32) (x : S4096x3.Idx) :
    k0_pay11 (k0_pay3 x1) x = scr x0 x1 ((Rect.unit (s := S4096x41) ![0, 27] S4096x3.size inb_S4096x41_S4096x3_0_27).emb x) := by
  have hx : (x 1).val < 3 := (x 1).isLt
  rw [scr_col27 x0 x1 _ (by show 27 ≤ 27 + 1 * (x 1).val; omega) (by show 27 + 1 * (x 1).val < 30; omega)]
  refine congrArg (k0_pay11 (k0_pay3 x1)) ?_
  funext a
  match a with
  | ⟨0, _⟩ => exact Fin.ext (by show (x 0).val = 0 + 1 * (x 0).val; omega)
  | ⟨1, _⟩ => exact Fin.ext (by show (x 1).val = 27 + 1 * (x 1).val - 27; omega)

theorem slab30 (x0 : Vec F S4096x12 .f32) (x1 : Vec F S4096x8 .f32) (x : S4096x3.Idx) :
    k0_pay12 (k0_pay3 x1) x = scr x0 x1 ((Rect.unit (s := S4096x41) ![0, 30] S4096x3.size inb_S4096x41_S4096x3_0_30).emb x) := by
  have hx : (x 1).val < 3 := (x 1).isLt
  rw [scr_col30 x0 x1 _ (by show 30 ≤ 30 + 1 * (x 1).val; omega) (by show 30 + 1 * (x 1).val < 33; omega)]
  refine congrArg (k0_pay12 (k0_pay3 x1)) ?_
  funext a
  match a with
  | ⟨0, _⟩ => exact Fin.ext (by show (x 0).val = 0 + 1 * (x 0).val; omega)
  | ⟨1, _⟩ => exact Fin.ext (by show (x 1).val = 30 + 1 * (x 1).val - 30; omega)

theorem slab33 (x0 : Vec F S4096x12 .f32) (x1 : Vec F S4096x8 .f32) (x : S4096x3.Idx) :
    k0_pay13 (k0_pay3 x1) x = scr x0 x1 ((Rect.unit (s := S4096x41) ![0, 33] S4096x3.size inb_S4096x41_S4096x3_0_33).emb x) := by
  have hx : (x 1).val < 3 := (x 1).isLt
  rw [scr_col33 x0 x1 _ (by show 33 ≤ 33 + 1 * (x 1).val; omega) (by show 33 + 1 * (x 1).val < 36; omega)]
  refine congrArg (k0_pay13 (k0_pay3 x1)) ?_
  funext a
  match a with
  | ⟨0, _⟩ => exact Fin.ext (by show (x 0).val = 0 + 1 * (x 0).val; omega)
  | ⟨1, _⟩ => exact Fin.ext (by show (x 1).val = 33 + 1 * (x 1).val - 33; omega)

theorem slab36 (x0 : Vec F S4096x12 .f32) (x1 : Vec F S4096x8 .f32) (x : S4096x3.Idx) :
    k0_pay14 (k0_pay3 x1) x = scr x0 x1 ((Rect.unit (s := S4096x41) ![0, 36] S4096x3.size inb_S4096x41_S4096x3_0_36).emb x) := by
  have hx : (x 1).val < 3 := (x 1).isLt
  rw [scr_col36 x0 x1 _ (by show 36 ≤ 36 + 1 * (x 1).val; omega) (by show 36 + 1 * (x 1).val < 39; omega)]
  refine congrArg (k0_pay14 (k0_pay3 x1)) ?_
  funext a
  match a with
  | ⟨0, _⟩ => exact Fin.ext (by show (x 0).val = 0 + 1 * (x 0).val; omega)
  | ⟨1, _⟩ => exact Fin.ext (by show (x 1).val = 36 + 1 * (x 1).val - 36; omega)

theorem slab39 (x0 : Vec F S4096x12 .f32) (x1 : Vec F S4096x8 .f32) (x : S4096x2.Idx) :
    k0_pay15 (k0_pay2 x1) x = scr x0 x1 ((Rect.unit (s := S4096x41) ![0, 39] S4096x2.size inb_S4096x41_S4096x2_0_39).emb x) := by
  have hx : (x 1).val < 2 := (x 1).isLt
  rw [scr_col39 x0 x1 _ (by show 39 ≤ 39 + 1 * (x 1).val; omega) (by show 39 + 1 * (x 1).val < 41; omega)]
  refine congrArg (k0_pay15 (k0_pay2 x1)) ?_
  funext a
  match a with
  | ⟨0, _⟩ => exact Fin.ext (by show (x 0).val = 0 + 1 * (x 0).val; omega)
  | ⟨1, _⟩ => exact Fin.ext (by show (x 1).val = 39 + 1 * (x 1).val - 39; omega)

/-- What the body leaves in its output block: the wide perceptron's payloads on the scratch function. -/
theorem out_eq (c : Dev nD) (i : grid0.Coords) (arg1 : Memref sig .tc .vmem S4096x12 .f32) (harg1 : arg1.IsWhole) (arg2 : Memref sig .tc .vmem S4096x8 .f32) (harg2 : arg2.IsWhole) (arg3 : Memref sig .tc .vmem S41x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x4 .f32) (harg7 : arg7.IsWhole) (arg8 : Memref sig .tc .vmem S4 .f32) (harg8 : arg8.IsWhole) (arg9 : Memref sig .tc .vmem S4096x4 .f32) (harg9 : arg9.IsWhole) (arg10 : Memref sig .tc .vmem S4096x41 .f32) (harg10 : arg10.IsWhole)
    (x0 : Vec F S4096x12 .f32) (x1 : Vec F S4096x8 .f32) (x2 : Vec F S41x256 .f32) (x3 : Vec F S256 .f32) (x4 : Vec F S256x256 .f32) (x5 : Vec F S256 .f32) (x6 : Vec F S256x4 .f32) (x7 : Vec F S4 .f32) :
    out0_A_8 c i arg1 harg1 arg2 harg2 arg3 harg3 arg4 harg4 arg5 harg5 arg6 harg6 arg7 harg7 arg8 harg8 arg9 harg9 arg10 harg10 x0 x1 x2 x3 x4 x5 x6 x7 = k0_pay1 (k0_pay16 (scr x0 x1) x2) x3 x4 x5 x6 x7 := by
  have hz : (![0, 0] : Fin 2 → Nat) = fun _ => 0 := by funext a; match a with | ⟨0, _⟩ => rfl | ⟨1, _⟩ => rfl
  have hz1 : (![0] : Fin 1 → Nat) = fun _ => 0 := by funext a; match a with | ⟨0, _⟩ => rfl
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_run_names
  refine (View.canon_unit_zero (S := S4096x4) hz _ _).trans ?_
  simp only [View.readAt_eq_ld, harg1.read_unread, harg2.read_unread, harg3.read_unread, harg4.read_unread, harg5.read_unread, harg6.read_unread, harg7.read_unread, harg8.read_unread,
    View.ld_unit_zero (S := S4096x12) hz, View.ld_unit_zero (S := S4096x8) hz, View.ld_unit_zero (S := S41x256) hz, View.ld_unit_zero (S := S256) hz1,
    View.ld_unit_zero (S := S256x256) hz, View.ld_unit_zero (S := S256x4) hz, View.ld_unit_zero (S := S4) hz1]
  refine congrArg (fun s => k0_pay1 (k0_pay16 s x2) x3 x4 x5 x6 x7) ?_
  rw [View.readCov_eq_canon']
  funext j
  rw [idx_unit_zero (S := S4096x41) hz]
  refine View.canon_apply_of_pieces (scr x0 x1) _ ?_ j (View.cover_of_tiledBy _ ![4096, 1] (by sl_kernel_rfl) j)
  intro p hp
  simp only [List.mem_cons, List.not_mem_nil, or_false] at hp
  rcases hp with rfl | rfl | rfl | rfl | rfl | rfl | rfl | rfl | rfl | rfl | rfl
  · exact fun x => slab39 x0 x1 x
  · exact fun x => slab36 x0 x1 x
  · exact fun x => slab33 x0 x1 x
  · exact fun x => slab30 x0 x1 x
  · exact fun x => slab27 x0 x1 x
  · exact fun x => slab24 x0 x1 x
  · exact fun x => slab21 x0 x1 x
  · exact fun x => slab18 x0 x1 x
  · exact fun x => slab15 x0 x1 x
  · exact fun x => slab12 x0 x1 x
  · exact fun x => slab0 x0 x1 x

/-! ## On the extended reals: the scratch row of a point is its embedded row -/

section AtIdeal

/-- The direction slice at a point: columns 5, 6, 7 of its input row. -/
theorem pay3_at (x1 : Vec Ideal S4096x8 .f32) (r : Fin 4096) (a : Fin 3) :
    k0_pay3 (F := Ideal) x1 (ValueIdx.ix2 r a) = Cert.Spec.vdOf (fun b => x1 (ValueIdx.ix2 r b)) a :=
  extractStridedSlice_apply ![0, 5] x1 slices_S4096x8_o0_5_S4096x3 (ValueIdx.ix2 r a)
    (ValueIdx.ix2 r ⟨a.val + 5, by have := a.isLt; omega⟩)
    (Fin.forall_fin_two.mpr ⟨by show r.val = 0 + r.val; omega, by show a.val + 5 = 5 + a.val; omega⟩)

/-- The frame-feature slice at a point: columns 3, 4 of its input row. -/
theorem pay2_at (x1 : Vec Ideal S4096x8 .f32) (r : Fin 4096) (a : Fin 2) :
    k0_pay2 (F := Ideal) x1 (ValueIdx.ix2 r a) = Cert.Spec.ffOf (fun b => x1 (ValueIdx.ix2 r b)) a :=
  extractStridedSlice_apply ![0, 3] x1 slices_S4096x8_o0_3_S4096x2 (ValueIdx.ix2 r a)
    (ValueIdx.ix2 r ⟨a.val + 3, by have := a.isLt; omega⟩)
    (Fin.forall_fin_two.mpr ⟨by show r.val = 0 + r.val; omega, by show a.val + 3 = 3 + a.val; omega⟩)

/-- A sine slab: a cast to the same shape of the sine of the slice times a broadcast word. -/
theorem sinSlab (v : FVec Ideal S4096x3 .f32) (w : BitVec 32) (h : S4096x3.ShapeCasts S4096x3) (j : S4096x3.Idx) :
    shapeCast S4096x3 (sin (mulf v (broadcast S4096x3 (Scalar.ofBits (F := Ideal) .f32 w)))) h j
      = Ideal.sin (v j * Ideal.ofBits .f32 w) :=
  congrFun (shapeCast_self _ h) j

/-- A cosine slab likewise. -/
theorem cosSlab (v : FVec Ideal S4096x3 .f32) (w : BitVec 32) (h : S4096x3.ShapeCasts S4096x3) (j : S4096x3.Idx) :
    shapeCast S4096x3 (cos (mulf v (broadcast S4096x3 (Scalar.ofBits (F := Ideal) .f32 w)))) h j
      = Ideal.cos (v j * Ideal.ofBits .f32 w) :=
  congrFun (shapeCast_self _ h) j

theorem pay4_at (x0 : Vec Ideal S4096x12 .f32) (j : S4096x12.Idx) : k0_pay4 (F := Ideal) x0 j = x0 j := by
  unfold k0_pay4
  rw [shapeCast_self, shapeCast_self]

theorem pay5_at (x1 : Vec Ideal S4096x8 .f32) (r : Fin 4096) (a : Fin 3) :
    k0_pay5 (F := Ideal) x1 (ValueIdx.ix2 r a) = Cert.Spec.vdOf (fun b => x1 (ValueIdx.ix2 r b)) a := by
  unfold k0_pay5
  rw [shapeCast_self]
  exact pay3_at x1 r a

theorem pay15_at (x1 : Vec Ideal S4096x8 .f32) (r : Fin 4096) (a : Fin 2) :
    k0_pay15 (F := Ideal) (k0_pay2 x1) (ValueIdx.ix2 r a) = Cert.Spec.ffOf (fun b => x1 (ValueIdx.ix2 r b)) a := by
  unfold k0_pay15
  rw [shapeCast_self]
  exact pay2_at x1 r a

theorem pay6_at (x1 : Vec Ideal S4096x8 .f32) (r : Fin 4096) (a : Fin 3) :
    k0_pay6 (F := Ideal) x1 (ValueIdx.ix2 r a) = Ideal.sin (Cert.Spec.vdOf (fun b => x1 (ValueIdx.ix2 r b)) a * Ideal.ofBits .f32 0x3F800000#32) :=
  (sinSlab (k0_pay3 x1) 0x3F800000#32 shapeCasts_S4096x3_S4096x3 (ValueIdx.ix2 r a)).trans (by rw [pay3_at])

theorem pay7_at (x1 : Vec Ideal S4096x8 .f32) (r : Fin 4096) (a : Fin 3) :
    k0_pay7 (F := Ideal) x1 (ValueIdx.ix2 r a) = Ideal.cos (Cert.Spec.vdOf (fun b => x1 (ValueIdx.ix2 r b)) a * Ideal.ofBits .f32 0x3F800000#32) :=
  (cosSlab (k0_pay3 x1) 0x3F800000#32 shapeCasts_S4096x3_S4096x3 (ValueIdx.ix2 r a)).trans (by rw [pay3_at])

theorem pay8_at (x1 : Vec Ideal S4096x8 .f32) (r : Fin 4096) (a : Fin 3) :
    k0_pay8 (F := Ideal) x1 (ValueIdx.ix2 r a) = Ideal.sin (Cert.Spec.vdOf (fun b => x1 (ValueIdx.ix2 r b)) a * Ideal.ofBits .f32 0x40000000#32) :=
  (sinSlab (k0_pay3 x1) 0x40000000#32 shapeCasts_S4096x3_S4096x3 (ValueIdx.ix2 r a)).trans (by rw [pay3_at])

theorem pay10_at (x1 : Vec Ideal S4096x8 .f32) (r : Fin 4096) (a : Fin 3) :
    k0_pay10 (F := Ideal) (k0_pay9 x1) (ValueIdx.ix2 r a) = Ideal.cos (Cert.Spec.vdOf (fun b => x1 (ValueIdx.ix2 r b)) a * Ideal.ofBits .f32 0x40000000#32) :=
  (cosSlab (k0_pay3 x1) 0x40000000#32 shapeCasts_S4096x3_S4096x3 (ValueIdx.ix2 r a)).trans (by rw [pay3_at])

theorem pay11_at (x1 : Vec Ideal S4096x8 .f32) (r : Fin 4096) (a : Fin 3) :
    k0_pay11 (F := Ideal) (k0_pay3 x1) (ValueIdx.ix2 r a) = Ideal.sin (Cert.Spec.vdOf (fun b => x1 (ValueIdx.ix2 r b)) a * Ideal.ofBits .f32 0x40800000#32) :=
  (sinSlab (k0_pay3 x1) 0x40800000#32 shapeCasts_S4096x3_S4096x3 (ValueIdx.ix2 r a)).trans (by rw [pay3_at])

theorem pay12_at (x1 : Vec Ideal S4096x8 .f32) (r : Fin 4096) (a : Fin 3) :
    k0_pay12 (F := Ideal) (k0_pay3 x1) (ValueIdx.ix2 r a) = Ideal.cos (Cert.Spec.vdOf (fun b => x1 (ValueIdx.ix2 r b)) a * Ideal.ofBits .f32 0x40800000#32) :=
  (cosSlab (k0_pay3 x1) 0x40800000#32 shapeCasts_S4096x3_S4096x3 (ValueIdx.ix2 r a)).trans (by rw [pay3_at])

theorem pay13_at (x1 : Vec Ideal S4096x8 .f32) (r : Fin 4096) (a : Fin 3) :
    k0_pay13 (F := Ideal) (k0_pay3 x1) (ValueIdx.ix2 r a) = Ideal.sin (Cert.Spec.vdOf (fun b => x1 (ValueIdx.ix2 r b)) a * Ideal.ofBits .f32 0x41000000#32) :=
  (sinSlab (k0_pay3 x1) 0x41000000#32 shapeCasts_S4096x3_S4096x3 (ValueIdx.ix2 r a)).trans (by rw [pay3_at])

theorem pay14_at (x1 : Vec Ideal S4096x8 .f32) (r : Fin 4096) (a : Fin 3) :
    k0_pay14 (F := Ideal) (k0_pay3 x1) (ValueIdx.ix2 r a) = Ideal.cos (Cert.Spec.vdOf (fun b => x1 (ValueIdx.ix2 r b)) a * Ideal.ofBits .f32 0x41000000#32) :=
  (cosSlab (k0_pay3 x1) 0x41000000#32 shapeCasts_S4096x3_S4096x3 (ValueIdx.ix2 r a)).trans (by rw [pay3_at])

/-- The scratch row of point `r` is the embedded row of its features, frame features and direction. -/
theorem scr_apply (x0 : Vec Ideal S4096x12 .f32) (x1 : Vec Ideal S4096x8 .f32) (r : Fin 4096) (k : Fin 41) :
    scr (F := Ideal) x0 x1 (ValueIdx.ix2 r k)
      = Cert.Spec.embed (fun a => x0 (ValueIdx.ix2 r a)) (Cert.Spec.ffOf fun a => x1 (ValueIdx.ix2 r a)) (Cert.Spec.vdOf fun a => x1 (ValueIdx.ix2 r a)) k := by
  have hk : k.val < 41 := k.isLt
  unfold Cert.Spec.embed
  by_cases h0 : k.val < 12
  · rw [dif_pos h0, scr_col0 x0 x1 (ValueIdx.ix2 r k) (by show 0 ≤ k.val; omega) (by show k.val < 12; omega)]
    exact pay4_at x0 _
  rw [dif_neg h0]
  by_cases h1 : k.val < 15
  · rw [dif_pos h1, scr_col12 x0 x1 (ValueIdx.ix2 r k) (by show 12 ≤ k.val; omega) (by show k.val < 15; omega)]
    exact pay5_at x1 r _
  rw [dif_neg h1]
  by_cases h2 : k.val < 18
  · rw [dif_pos h2, scr_col15 x0 x1 (ValueIdx.ix2 r k) (by show 15 ≤ k.val; omega) (by show k.val < 18; omega)]
    exact pay6_at x1 r _
  rw [dif_neg h2]
  by_cases h3 : k.val < 21
  · rw [dif_pos h3, scr_col18 x0 x1 (ValueIdx.ix2 r k) (by show 18 ≤ k.val; omega) (by show k.val < 21; omega)]
    exact pay7_at x1 r _
  rw [dif_neg h3]
  by_cases h4 : k.val < 24
  · rw [dif_pos h4, scr_col21 x0 x1 (ValueIdx.ix2 r k) (by show 21 ≤ k.val; omega) (by show k.val < 24; omega)]
    exact pay8_at x1 r _
  rw [dif_neg h4]
  by_cases h5 : k.val < 27
  · rw [dif_pos h5, scr_col24 x0 x1 (ValueIdx.ix2 r k) (by show 24 ≤ k.val; omega) (by show k.val < 27; omega)]
    exact pay10_at x1 r _
  rw [dif_neg h5]
  by_cases h6 : k.val < 30
  · rw [dif_pos h6, scr_col27 x0 x1 (ValueIdx.ix2 r k) (by show 27 ≤ k.val; omega) (by show k.val < 30; omega)]
    exact pay11_at x1 r _
  rw [dif_neg h6]
  by_cases h7 : k.val < 33
  · rw [dif_pos h7, scr_col30 x0 x1 (ValueIdx.ix2 r k) (by show 30 ≤ k.val; omega) (by show k.val < 33; omega)]
    exact pay12_at x1 r _
  rw [dif_neg h7]
  by_cases h8 : k.val < 36
  · rw [dif_pos h8, scr_col33 x0 x1 (ValueIdx.ix2 r k) (by show 33 ≤ k.val; omega) (by show k.val < 36; omega)]
    exact pay13_at x1 r _
  rw [dif_neg h8]
  by_cases h9 : k.val < 39
  · rw [dif_pos h9, scr_col36 x0 x1 (ValueIdx.ix2 r k) (by show 36 ≤ k.val; omega) (by show k.val < 39; omega)]
    exact pay14_at x1 r _
  rw [dif_neg h9]
  rw [scr_col39 x0 x1 (ValueIdx.ix2 r k) (by show 39 ≤ k.val; omega) (by show k.val < 41; omega)]
  exact pay15_at x1 r _

end AtIdeal

end Cert.KBody
end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.KPay.lean ====
/-
  The kernel body's arithmetic read at an element, on the extended reals.

  The body is three matrix products into zero accumulators, each followed by the addition of a bias row
  (a vector cast to one row and broadcast over the rows); the first two are followed by a maximum
  with the zero word. The narrowing casts are the identity on the extended reals. Read at the
  element (r, q) this is the wide perceptron of the specification on row r.
-/
import proofs.«161056_j33775622815975_2_alg».proof.Proof.Gen.KernelIdeal.Skeleton
import proofs.«161056_j33775622815975_2_alg».proof.Proof.Spec
import proofs.«161056_j33775622815975_2_alg».proof.Proof.LibMatmulAt
import Idealize.ShloMosaic.Lib.ValueIdx
import Idealize.ShloMosaic.Lib.ValueLayout
import Idealize.ShloMosaic.Lib.Pipeline.Value

noncomputable section

namespace Cert.KPay

open Idealize.ShloMosaic Idealize.ShloMosaic.ValueIdx Cert.KernelIdeal Cert.KernelIdeal.Gen

/-- A bias vector cast to one row and broadcast over the rows, read at (r, j): the vector at j. -/
theorem biasRow_apply {R C : ℕ} (b : (⟨1, ![C]⟩ : Shape).Idx → EReal)
    (h0 : (⟨1, ![C]⟩ : Shape).ShapeCasts ⟨1, ![C]⟩) (h1 : (⟨1, ![C]⟩ : Shape).ShapeCasts ⟨2, ![1, C]⟩)
    (h2 : (⟨2, ![1, C]⟩ : Shape).Broadcasts ⟨2, ![R, C]⟩) (r : Fin R) (j : Fin C) :
    broadcastTo ⟨2, ![R, C]⟩ (shapeCast ⟨2, ![1, C]⟩ (shapeCast ⟨1, ![C]⟩ b h0) h1) h2 (ix2 r j) = b (ix1 j) := by
  rw [broadcastTo_1b_ab_apply, shapeCast_a_1a_apply, shapeCast_self]

theorem pay16_apply (S : Vec Ideal S4096x41 .f32) (W1 : Vec Ideal S41x256 .f32) (r : Fin 4096) (j : Fin 256) :
    k0_pay16 (F := Ideal) S W1 (ix2 r j) = ∑ k : Fin 41, S (ix2 r k) * W1 (ix2 k j) := by
  unfold k0_pay16
  refine (Cert.LibMatmulAt.matmul_zero_apply _ rfl rfl rfl rfl rfl rfl none _ _ r j).trans ?_
  refine Finset.sum_congr rfl fun k _ => ?_
  rw [truncf_apply, truncf_apply, shapeCast_self]

/-- A hidden layer's tail: the bias row added, then the maximum with the zero word. -/
theorem relu_bias_apply (A : FVec Ideal S4096x256 .f32) (b : Vec Ideal S256 .f32) (r : Fin 4096) (j : Fin 256) :
    maximumf (addf A (broadcastTo S4096x256 (shapeCast S1x256 (shapeCast S256 b shapeCasts_S256_S256) shapeCasts_S256_S1x256)
        broadcasts_S1x256_S4096x256))
      (broadcast S4096x256 (Scalar.ofBits (F := Ideal) .f32 0x00000000#32)) (ix2 r j)
      = max ((A (ix2 r j) : EReal) + (b (ix1 j) : EReal)) Cert.Spec.z0 := by
  rw [maximumf_apply, addf_apply, biasRow_apply, broadcast_apply]
  rfl

/-- The first hidden layer at (r, j). -/
theorem hidden1_apply (S : Vec Ideal S4096x41 .f32) (W1 : Vec Ideal S41x256 .f32) (b1 : Vec Ideal S256 .f32)
    (r : Fin 4096) (j : Fin 256) :
    maximumf (addf (k0_pay16 (F := Ideal) S W1)
        (broadcastTo S4096x256 (shapeCast S1x256 (shapeCast S256 b1 shapeCasts_S256_S256) shapeCasts_S256_S1x256)
          broadcasts_S1x256_S4096x256))
      (broadcast S4096x256 (Scalar.ofBits (F := Ideal) .f32 0x00000000#32)) (ix2 r j)
      = Cert.Spec.layer (fun k => S (ix2 r k)) (fun k j => W1 (ix2 k j)) (fun j => b1 (ix1 j)) j := by
  rw [relu_bias_apply, pay16_apply]
  rfl

/-- The second hidden layer at (r, j), over any input block. -/
theorem hidden2_apply (X : FVec Ideal S4096x256 .f32) (W2 : Vec Ideal S256x256 .f32) (b2 : Vec Ideal S256 .f32)
    (r : Fin 4096) (j : Fin 256) :
    maximumf (addf
        (matmul dot_S4096x256_S256x256_S4096x256_1_0_0_1_n_n none (truncf .bf16 X bitsLt_bf16_f32)
          (truncf .bf16 (shapeCast S256x256 W2 shapeCasts_S256x256_S256x256) bitsLt_bf16_f32)
          (constant (F := Ideal) S4096x256 .f32 0x00000000#32))
        (broadcastTo S4096x256 (shapeCast S1x256 (shapeCast S256 b2 shapeCasts_S256_S256) shapeCasts_S256_S1x256)
          broadcasts_S1x256_S4096x256))
      (broadcast S4096x256 (Scalar.ofBits (F := Ideal) .f32 0x00000000#32)) (ix2 r j)
      = Cert.Spec.layer (fun k => X (ix2 r k)) (fun k j => W2 (ix2 k j)) (fun j => b2 (ix1 j)) j := by
  rw [relu_bias_apply]
  unfold Cert.Spec.layer Cert.Spec.dense
  congr 2
  refine (Cert.LibMatmulAt.matmul_zero_apply _ rfl rfl rfl rfl rfl rfl none _ _ r j).trans ?_
  refine Finset.sum_congr rfl fun k _ => ?_
  rw [truncf_apply, truncf_apply, shapeCast_self]

/-- The output layer at (r, q), over any input block. -/
theorem out3_apply (X : FVec Ideal S4096x256 .f32) (W3 : Vec Ideal S256x4 .f32) (b3 : Vec Ideal S4 .f32)
    (r : Fin 4096) (q : Fin 4) :
    addf
        (matmul dot_S4096x256_S256x4_S4096x4_1_0_0_1_n_n none (truncf .bf16 X bitsLt_bf16_f32)
          (truncf .bf16 (shapeCast S256x4 W3 shapeCasts_S256x4_S256x4) bitsLt_bf16_f32)
          (constant (F := Ideal) S4096x4 .f32 0x00000000#32))
        (broadcastTo S4096x4 (shapeCast S1x4 (shapeCast S4 b3 shapeCasts_S4_S4) shapeCasts_S4_S1x4)
          broadcasts_S1x4_S4096x4) (ix2 r q)
      = Cert.Spec.dense (fun k => X (ix2 r k)) (fun k j => W3 (ix2 k j)) (fun j => b3 (ix1 j)) q := by
  rw [addf_apply, biasRow_apply]
  unfold Cert.Spec.dense
  congr 1
  refine (Cert.LibMatmulAt.matmul_zero_apply _ rfl rfl rfl rfl rfl rfl none _ _ r q).trans ?_
  refine Finset.sum_congr rfl fun k _ => ?_
  rw [truncf_apply, truncf_apply, shapeCast_self]

/-- The kernel body's arithmetic at (r, q) is the wide perceptron on row r. -/
theorem pay_apply (S : Vec Ideal S4096x41 .f32) (W1 : Vec Ideal S41x256 .f32) (b1 : Vec Ideal S256 .f32)
    (W2 : Vec Ideal S256x256 .f32) (b2 : Vec Ideal S256 .f32) (W3 : Vec Ideal S256x4 .f32) (b3 : Vec Ideal S4 .f32)
    (r : Fin 4096) (q : Fin 4) :
    k0_pay1 (F := Ideal) (k0_pay16 (F := Ideal) S W1) b1 W2 b2 W3 b3 (ix2 r q)
      = Cert.Spec.merged (fun k => S (ix2 r k)) (fun k j => W1 (ix2 k j)) (fun j => b1 (ix1 j))
          (fun k j => W2 (ix2 k j)) (fun j => b2 (ix1 j)) (fun k j => W3 (ix2 k j)) (fun j => b3 (ix1 j)) q := by
  unfold k0_pay1
  refine (out3_apply _ W3 b3 r q).trans ?_
  unfold Cert.Spec.merged
  refine congrArg (fun v => Cert.Spec.dense v _ _ q) (funext fun k => ?_)
  refine (hidden2_apply _ W2 b2 r k).trans ?_
  refine congrArg (fun v => Cert.Spec.layer v _ _ k) (funext fun k' => ?_)
  exact hidden1_apply S W1 b1 r k'

end Cert.KPay

end
-- ==== Proof.KArray.lean ====
/-
  The kernel's result array, from blocks to the whole array.

  The grid has 256 points; point `t` reads rows 4096·t … 4096·t + 4095 of the feature array and of the
  input array, reads the six packed weight arrays whole, and writes rows 4096·t … 4096·t + 4095 of the
  result. Row `r` of the block a point writes back is the wide perceptron of that row's embedded
  features; so the whole result, index by index, is ONE function `Gk` of the arrays the region finds:
  the blocks are restrictions of it and they tile the array.
-/
import proofs.«161056_j33775622815975_2_alg».proof.Proof.Gen.KernelIdeal.Value
import proofs.«161056_j33775622815975_2_alg».proof.Proof.KBody
import proofs.«161056_j33775622815975_2_alg».proof.Proof.KPay
import proofs.«161056_j33775622815975_2_alg».proof.Proof.Spec

set_option maxRecDepth 16384

noncomputable section

namespace Cert.KArray

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (c : Dev nD)

/-- The result at row `n`, column `q`: the wide perceptron on row `n`'s embedded features, with the packed weights. -/
def Gk : S1048576x4.Idx → EReal := fun i =>
  Cert.Spec.merged
    (Cert.Spec.embed (fun k => (V m c main_v177 : S1048576x12.Idx → EReal) (ix2 (i 0) k))
      (Cert.Spec.ffOf fun a => (V m c main_arg0 : S1048576x8.Idx → EReal) (ix2 (i 0) a))
      (Cert.Spec.vdOf fun a => (V m c main_arg0 : S1048576x8.Idx → EReal) (ix2 (i 0) a)))
    (fun k j => (V m c main_v184 : S41x256.Idx → EReal) (ix2 k j)) (fun j => (V m c main_v185 : S256.Idx → EReal) (ix1 j))
    (fun k j => (V m c main_v194 : S256x256.Idx → EReal) (ix2 k j)) (fun j => (V m c main_v195 : S256.Idx → EReal) (ix1 j))
    (fun k j => (V m c main_v204 : S256x4.Idx → EReal) (ix2 k j)) (fun j => (V m c main_v205 : S4.Idx → EReal) (ix1 j))
    (i 1)

/-- The printed index maps over the grid: the two row-blocked inputs and the output move with the point
    along the rows; the packed weights are read whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem row_lt (t : Fin cfg0.N) (r : Fin 4096) : t.val * 4096 + r.val < 1048576 := by
  have ht : t.val < 256 := lt_of_lt_of_eq t.isLt N_0
  have hr := r.isLt
  omega

/-- The global row of row `r` of point `t`'s blocks. -/
def row (t : Fin cfg0.N) (r : Fin 4096) : Fin 1048576 := ⟨t.val * 4096 + r.val, row_lt t r⟩

/-! ### The inputs' blocks, read where the output's rectangle says -/

theorem blk_feat (t : Fin cfg0.N) (r : Fin 4096) (a : Fin 12) :
    iblk m c 0 t (ix2 r a) = (V m c main_v177 : S1048576x12.Idx → EReal) (ix2 (row t r) a) := by
  show V m c main_v177 (((cfg0.win 0).blk t).view.emb (ix2 r a)) = V m c main_v177 (ix2 (row t r) a)
  obtain ⟨e0, e1, -⟩ := idx_facts t
  refine congrArg (V m c main_v177) ?_
  funext d; apply Fin.ext
  match d with
  | ⟨0, _⟩ => show win0_0.index t (0 : Fin 2) * 4096 + 1 * r.val = t.val * 4096 + r.val; omega
  | ⟨1, _⟩ => show win0_0.index t (1 : Fin 2) * 12 + 1 * a.val = a.val; omega

theorem blk_x (t : Fin cfg0.N) (r : Fin 4096) (a : Fin 8) :
    iblk m c 1 t (ix2 r a) = (V m c main_arg0 : S1048576x8.Idx → EReal) (ix2 (row t r) a) := by
  show V m c main_arg0 (((cfg0.win 1).blk t).view.emb (ix2 r a)) = V m c main_arg0 (ix2 (row t r) a)
  obtain ⟨-, -, e0, e1, -⟩ := idx_facts t
  refine congrArg (V m c main_arg0) ?_
  funext d; apply Fin.ext
  match d with
  | ⟨0, _⟩ => show win0_1.index t (0 : Fin 2) * 4096 + 1 * r.val = t.val * 4096 + r.val; omega
  | ⟨1, _⟩ => show win0_1.index t (1 : Fin 2) * 8 + 1 * a.val = a.val; omega

theorem blk_W1 (t : Fin cfg0.N) (k : Fin 41) (j : Fin 256) :
    iblk m c 2 t (ix2 k j) = (V m c main_v184 : S41x256.Idx → EReal) (ix2 k j) := by
  show V m c main_v184 (((cfg0.win 2).blk t).view.emb (ix2 k j)) = V m c main_v184 (ix2 k j)
  obtain ⟨-, -, -, -, e0, e1, -⟩ := idx_facts t
  refine congrArg (V m c main_v184) ?_
  funext d; apply Fin.ext
  match d with
  | ⟨0, _⟩ => show win0_2.index t (0 : Fin 2) * 41 + 1 * k.val = k.val; omega
  | ⟨1, _⟩ => show win0_2.index t (1 : Fin 2) * 256 + 1 * j.val = j.val; omega

theorem blk_b1 (t : Fin cfg0.N) (j : Fin 256) :
    iblk m c 3 t (ix1 j) = (V m c main_v185 : S256.Idx → EReal) (ix1 j) := by
  show V m c main_v185 (((cfg0.win 3).blk t).view.emb (ix1 j)) = V m c main_v185 (ix1 j)
  obtain ⟨-, -, -, -, -, -, e0, -⟩ := idx_facts t
  refine congrArg (V m c main_v185) ?_
  funext d; apply Fin.ext
  match d with
  | ⟨0, _⟩ => show win0_3.index t (0 : Fin 1) * 256 + 1 * j.val = j.val; omega

theorem blk_W2 (t : Fin cfg0.N) (k j : Fin 256) :
    iblk m c 4 t (ix2 k j) = (V m c main_v194 : S256x256.Idx → EReal) (ix2 k j) := by
  show V m c main_v194 (((cfg0.win 4).blk t).view.emb (ix2 k j)) = V m c main_v194 (ix2 k j)
  obtain ⟨-, -, -, -, -, -, -, e0, e1, -⟩ := idx_facts t
  refine congrArg (V m c main_v194) ?_
  funext d; apply Fin.ext
  match d with
  | ⟨0, _⟩ => show win0_4.index t (0 : Fin 2) * 256 + 1 * k.val = k.val; omega
  | ⟨1, _⟩ => show win0_4.index t (1 : Fin 2) * 256 + 1 * j.val = j.val; omega

theorem blk_b2 (t : Fin cfg0.N) (j : Fin 256) :
    iblk m c 5 t (ix1 j) = (V m c main_v195 : S256.Idx → EReal) (ix1 j) := by
  show V m c main_v195 (((cfg0.win 5).blk t).view.emb (ix1 j)) = V m c main_v195 (ix1 j)
  obtain ⟨-, -, -, -, -, -, -, -, -, e0, -⟩ := idx_facts t
  refine congrArg (V m c main_v195) ?_
  funext d; apply Fin.ext
  match d with
  | ⟨0, _⟩ => show win0_5.index t (0 : Fin 1) * 256 + 1 * j.val = j.val; omega

theorem blk_W3 (t : Fin cfg0.N) (k : Fin 256) (q : Fin 4) :
    iblk m c 6 t (ix2 k q) = (V m c main_v204 : S256x4.Idx → EReal) (ix2 k q) := by
  show V m c main_v204 (((cfg0.win 6).blk t).view.emb (ix2 k q)) = V m c main_v204 (ix2 k q)
  obtain ⟨-, -, -, -, -, -, -, -, -, -, e0, e1, -⟩ := idx_facts t
  refine congrArg (V m c main_v204) ?_
  funext d; apply Fin.ext
  match d with
  | ⟨0, _⟩ => show win0_6.index t (0 : Fin 2) * 256 + 1 * k.val = k.val; omega
  | ⟨1, _⟩ => show win0_6.index t (1 : Fin 2) * 4 + 1 * q.val = q.val; omega

theorem blk_b3 (t : Fin cfg0.N) (q : Fin 4) :
    iblk m c 7 t (ix1 q) = (V m c main_v205 : S4.Idx → EReal) (ix1 q) := by
  show V m c main_v205 (((cfg0.win 7).blk t).view.emb (ix1 q)) = V m c main_v205 (ix1 q)
  obtain ⟨-, -, -, -, -, -, -, -, -, -, -, -, e0, -⟩ := idx_facts t
  refine congrArg (V m c main_v205) ?_
  funext d; apply Fin.ext
  match d with
  | ⟨0, _⟩ => show win0_7.index t (0 : Fin 1) * 4 + 1 * q.val = q.val; omega

/-! ### What a point writes back -/

theorem emb_out (t : Fin cfg0.N) (r : Fin 4096) (q : Fin 4) :
    ((cfg0.win 8).blk t).view.emb (ix2 r q) = (ix2 (row t r) q : S1048576x4.Idx) := by
  obtain ⟨-, -, -, -, -, -, -, -, -, -, -, -, -, e0, e1⟩ := idx_facts t
  funext d; apply Fin.ext
  match d with
  | ⟨0, _⟩ => show win0_8.index t (0 : Fin 2) * 4096 + 1 * r.val = t.val * 4096 + r.val; omega
  | ⟨1, _⟩ => show win0_8.index t (1 : Fin 2) * 4 + 1 * q.val = q.val; omega

/-- Row `r` of the block point `t` writes back is `Gk` at the global row. -/
theorem flushed_eq (t : Fin cfg0.N) :
    (dats m 0 c).flushed 8 t = ((cfg0.win 8).blk t).view.read (Elt Ideal) (Gk m c) := by
  rw [Cert.KernelIdeal.Value.flushed8_A, Cert.KBody.out_eq]
  funext j
  obtain ⟨r, q, rfl⟩ : ∃ (r : Fin 4096) (q : Fin 4), j = ix2 r q := ⟨j 0, j 1, eq_ix2 j⟩
  show k0_pay1 (F := Ideal) (k0_pay16 (F := Ideal) (Cert.KBody.scr (iblk m c 0 t) (iblk m c 1 t)) (iblk m c 2 t)) (iblk m c 3 t)
      (iblk m c 4 t) (iblk m c 5 t) (iblk m c 6 t) (iblk m c 7 t) (ix2 r q)
    = Gk m c (((cfg0.win 8).blk t).view.emb (ix2 r q))
  rw [emb_out, Cert.KPay.pay_apply]
  unfold Gk
  simp only [Cert.KBody.scr_apply, blk_feat, blk_x, blk_W1, blk_b1, blk_W2, blk_b2, blk_W3, blk_b3]

/-! ### The blocks tile the array -/

theorem mem_blk (t : Fin cfg0.N) (i : S1048576x4.Idx) :
    i ∈ ((cfg0.win 8).blk t).view.set ↔ ∀ a : Fin 2, win0_8.index t a * S4096x4.size a ≤ (i a).val
      ∧ (i a).val < win0_8.index t a * S4096x4.size a + S4096x4.size a := by
  show i ∈ ((View.whole main_v206).slice (win0_8.rect t)).set ↔ _
  rw [View.set_slice_whole, Rect.mem_set_unit]
  exact Iff.rfl

/-- Row `n` lies in the block of point `n / 4096`. -/
theorem cover (i : S1048576x4.Idx) :
    ∃ t : Fin cfg0.N, (cfg0.win 8).flush t = true ∧ i ∈ ((cfg0.win 8).blk t).view.set := by
  have hi0 : (i 0).val < 1048576 := (i 0).isLt
  have hi1 : (i 1).val < 4 := (i 1).isLt
  have hN : cfg0.N = 256 := N_0
  refine ⟨⟨(i 0).val / 4096, by rw [hN]; omega⟩, flush0_8 _, ?_⟩
  rw [mem_blk]
  obtain ⟨-, -, -, -, -, -, -, -, -, -, -, -, -, e0, e1⟩ := idx_facts ⟨(i 0).val / 4096, by rw [hN]; omega⟩
  intro a
  match a with
  | ⟨0, _⟩ =>
    show win0_8.index _ (0 : Fin 2) * 4096 ≤ (i 0).val ∧ (i 0).val < win0_8.index _ (0 : Fin 2) * 4096 + 4096
    rw [e0]; show (i 0).val / 4096 * 4096 ≤ (i 0).val ∧ (i 0).val < (i 0).val / 4096 * 4096 + 4096; omega
  | ⟨1, _⟩ =>
    show win0_8.index _ (1 : Fin 2) * 4 ≤ (i 1).val ∧ (i 1).val < win0_8.index _ (1 : Fin 2) * 4 + 4
    rw [e1]; omega

/-- The result array after the run is `Gk`. -/
theorem final : (dats m 0 c).arrAt 8 cfg0.N = Gk m c :=
  (dats m 0 c).arrAt_eq_of_cover 8 (Gk m c) (fun t _ => flushed_eq m c t) cover

end Cert.KArray

end
-- ==== Proof.LibWindowScatter.lean ====
/-
  A whole two-dimensional update written into a larger array at a constant corner.

  The host's scatter with a "set" body (the body returns the update's element) runs over the update's indices in
  row-major order, each one replacing the element it lands on. When distinct update indices land on distinct
  elements the order is immaterial: an element some update index lands on holds that update's element, every
  other element is the operand's. For the dimension numbers of a window scatter — both axes of the update are
  window axes, one index vector `(r0, c0)` names the corner — update index `(p, q)` lands on `(r0 + p, c0 + q)`,
  so the result is the update on the rectangle `[r0, r0 + a) × [c0, c0 + b)` and the operand outside it.
-/
import Idealize.ShloMosaic.PureOps.ShapeOps
import Idealize.ShloMosaic.PureOps.Dims
import Idealize.ShloMosaic.Lib.ValueIdx

noncomputable section

namespace Cert.LibWindowScatter

open Idealize.ShloMosaic Idealize.ShloMosaic.ValueIdx

/-! ## A fold of "set" steps, read at one element -/

section Fold
variable {ι κ α : Type} (g : ι → Option κ) (v : ι → α) (stp : (κ → α) → ι → (κ → α)) (i : κ)
  (H1 : ∀ r n, g n = some i → stp r n i = v n) (H2 : ∀ r n, g n ≠ some i → stp r n i = r i)
include H1 H2

/-- If the element starts at `c` and every step landing on it writes `c`, it ends at `c`. -/
theorem foldl_const (c : α) (hv : ∀ n, g n = some i → v n = c) (l : List ι) :
    ∀ x : κ → α, x i = c → l.foldl stp x i = c := by
  induction l with
  | nil => intro x hx; exact hx
  | cons n t ih =>
    intro x hx
    rw [List.foldl_cons]
    apply ih
    by_cases h : g n = some i
    · rw [H1 x n h]; exact hv n h
    · rw [H2 x n h]; exact hx

/-- If step `n0` of the list lands on the element and every step landing on it writes what `n0` writes, the
    element ends at what `n0` writes. -/
theorem foldl_hit (n0 : ι) (h0 : g n0 = some i) (hv : ∀ n, g n = some i → v n = v n0) (l : List ι) (hm : n0 ∈ l) :
    ∀ x : κ → α, l.foldl stp x i = v n0 := by
  induction l with
  | nil => exact absurd hm List.not_mem_nil
  | cons n t ih =>
    intro x
    rw [List.foldl_cons]
    rcases List.mem_cons.mp hm with rfl | hm'
    · exact foldl_const g v stp i H1 H2 (v n0) hv t _ (H1 x n0 h0)
    · exact ih hm' _
end Fold

/-! ## The host's "set" scatter, read at one element -/

section Scatter
variable {s si u : Shape} {α : Type} {w : Nat} (d : ScatterDims s si u) (x : s.Idx → α) (idx : IVec si w) (upd : u.Idx → α)

/-- One step of the fold at an element it lands on: the update's element. -/
private theorem step_hit (r : s.Idx → α) (n : Fin u.numel) (i : s.Idx) (o : Option s.Idx) (h : o = some i) :
    (match (motive := Option s.Idx → s.Idx → α) o with
      | some i => fun i' => if i' = i then (fun _ b => b) (r i) (upd (u.rowMajor.symm n)) else r i'
      | none => r) i = upd (u.rowMajor.symm n) := by
  subst h
  exact if_pos rfl

/-- One step of the fold at an element it does not land on: unchanged. -/
private theorem step_miss (r : s.Idx → α) (n : Fin u.numel) (i : s.Idx) (o : Option s.Idx) (h : o ≠ some i) :
    (match (motive := Option s.Idx → s.Idx → α) o with
      | some i => fun i' => if i' = i then (fun _ b => b) (r i) (upd (u.rowMajor.symm n)) else r i'
      | none => r) i = r i := by
  cases o with
  | none => rfl
  | some k => exact if_neg (fun e => h (by rw [e]))

/-- An element no update index lands on keeps the operand's value. -/
theorem scatter_set_miss (i : s.Idx) (hmiss : ∀ j : u.Idx, d.resultIdx? j idx ≠ some i) :
    Host.scatter d (fun _ b => b) x idx upd i = x i := by
  unfold Host.scatter
  exact foldl_const (fun n : Fin u.numel => d.resultIdx? (u.rowMajor.symm n) idx) (fun n => upd (u.rowMajor.symm n)) _ i
    (fun r n h => step_hit upd r n i _ h) (fun r n h => step_miss upd r n i _ h)
    (x i) (fun n h => absurd h (hmiss _)) _ x rfl

/-- An element exactly one update index lands on holds that update's element. -/
theorem scatter_set_hit (i : s.Idx) (j0 : u.Idx) (h0 : d.resultIdx? j0 idx = some i)
    (huniq : ∀ j : u.Idx, d.resultIdx? j idx = some i → j = j0) :
    Host.scatter d (fun _ b => b) x idx upd i = upd j0 := by
  unfold Host.scatter
  refine (foldl_hit (fun n : Fin u.numel => d.resultIdx? (u.rowMajor.symm n) idx) (fun n => upd (u.rowMajor.symm n)) _ i
    (fun r n h => step_hit upd r n i _ h) (fun r n h => step_miss upd r n i _ h)
    (u.rowMajor j0) ?_ ?_ (List.finRange u.numel) (List.mem_finRange _) x).trans ?_
  · show d.resultIdx? (u.rowMajor.symm (u.rowMajor j0)) idx = some i
    rw [Equiv.symm_apply_apply]; exact h0
  · intro n h
    show upd (u.rowMajor.symm n) = upd (u.rowMajor.symm (u.rowMajor j0))
    rw [huniq _ h, Equiv.symm_apply_apply]
  · show upd (u.rowMajor.symm (u.rowMajor j0)) = upd j0
    rw [Equiv.symm_apply_apply]
end Scatter

/-! ## The window scatter's dimension numbers -/

/-- The dimension numbers of a scatter of a whole `[a, b]` update into an `[A, B]` operand at one index vector:
    both update axes are window axes, the index vector's two components start operand axes 0 and 1. The side
    condition is a parameter: any record with the same lists is one of these by unfolding. -/
abbrev windowScatter (A B a b : Nat)
    (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

/-- A coordinate inside a window of extent `a` placed at `R0` with `R0 + a ≤ A` is inside the operand. -/
theorem lt_of (R0 a A : ℕ) (hA : R0 + a ≤ A) (p : Fin a) : R0 + p.val < A := by have := p.isLt; omega

section Window
variable {A B a b w : Nat} (wf : ScatterDims.WF ⟨2, ![A, B]⟩ ⟨1, ![2]⟩ ⟨2, ![a, b]⟩ [0, 1] [] [0, 1] 0)
  (idx : IVec ⟨1, ![2]⟩ w)

/-- Component 0 of the index vector starts operand axis 0. -/
theorem start_zero (j : (⟨2, ![a, b]⟩ : Shape).Idx) :
    (windowScatter A B a b wf).start j idx 0 = (idx (ix1 0)).toInt := by
  unfold ScatterDims.start
  rw [dif_pos (show (0 : Fin 2) ∈ (windowScatter A B a b wf).scatterDimsToOperandDims from by simp)]
  refine congrArg (fun t => (idx t).toInt) ?_
  funext b0
  match b0 with
  | ⟨0, _⟩ =>
    unfold ScatterDims.siIdx
    rw [dif_pos rfl]
    exact Fin.ext rfl

/-- Component 1 of the index vector starts operand axis 1. -/
theorem start_one (j : (⟨2, ![a, b]⟩ : Shape).Idx) :
    (windowScatter A B a b wf).start j idx 1 = (idx (ix1 1)).toInt := by
  unfold ScatterDims.start
  rw [dif_pos (show (1 : Fin 2) ∈ (windowScatter A B a b wf).scatterDimsToOperandDims from by simp)]
  refine congrArg (fun t => (idx t).toInt) ?_
  funext b0
  match b0 with
  | ⟨0, _⟩ =>
    unfold ScatterDims.siIdx
    rw [dif_pos rfl]
    exact Fin.ext rfl

/-- The window coordinate on operand axis 0 is the update index's coordinate 0. -/
theorem window_zero (j : (⟨2, ![a, b]⟩ : Shape).Idx) :
    (windowScatter A B a b wf).window j 0 = (j 0).val := by
  unfold ScatterDims.window
  rw [dif_pos (by simp [ScatterDims.sKept, Shape.kept, List.finRange])]
  rfl

/-- The window coordinate on operand axis 1 is the update index's coordinate 1. -/
theorem window_one (j : (⟨2, ![a, b]⟩ : Shape).Idx) :
    (windowScatter A B a b wf).window j 1 = (j 1).val := by
  unfold ScatterDims.window
  rw [dif_pos (by simp [ScatterDims.sKept, Shape.kept, List.finRange])]
  rfl

variable (R0 C0 : ℕ) (h0 : (idx (ix1 0)).toInt = (R0 : ℤ)) (h1 : (idx (ix1 1)).toInt = (C0 : ℤ))
  (hA : R0 + a ≤ A) (hB : C0 + b ≤ B)
include h0 h1 hA hB

/-- WHERE AN UPDATE INDEX LANDS: with the corner `(R0, C0)` and the rectangle inside the operand, update index
    `(p, q)` lands on `(R0 + p, C0 + q)`. -/
theorem resultIdx_eq (p : Fin a) (q : Fin b) :
    (windowScatter A B a b wf).resultIdx? (ix2 p q) idx
      = some (ix2 ⟨R0 + p.val, lt_of R0 a A hA p⟩ ⟨C0 + q.val, lt_of C0 b B hB q⟩) := by
  have hs0 := start_zero wf idx (ix2 p q)
  have hs1 := start_one wf idx (ix2 p q)
  have hw0 : (windowScatter A B a b wf).window (ix2 p q) 0 = p.val := window_zero wf (ix2 p q)
  have hw1 : (windowScatter A B a b wf).window (ix2 p q) 1 = q.val := window_one wf (ix2 p q)
  unfold ScatterDims.resultIdx?
  rw [dif_pos (fun c => by
    match c with
    | ⟨0, _⟩ =>
      show 0 ≤ (windowScatter A B a b wf).start (ix2 p q) idx 0 + ((windowScatter A B a b wf).window (ix2 p q) 0 : ℤ) ∧
        (windowScatter A B a b wf).start (ix2 p q) idx 0 + ((windowScatter A B a b wf).window (ix2 p q) 0 : ℤ) < (A : ℤ)
      rw [hs0, hw0, h0]; have := p.isLt; omega
    | ⟨1, _⟩ =>
      show 0 ≤ (windowScatter A B a b wf).start (ix2 p q) idx 1 + ((windowScatter A B a b wf).window (ix2 p q) 1 : ℤ) ∧
        (windowScatter A B a b wf).start (ix2 p q) idx 1 + ((windowScatter A B a b wf).window (ix2 p q) 1 : ℤ) < (B : ℤ)
      rw [hs1, hw1, h1]; have := q.isLt; omega)]
  refine congrArg some (funext fun c => Fin.ext ?_)
  match c with
  | ⟨0, _⟩ =>
    show ((windowScatter A B a b wf).start (ix2 p q) idx 0 + ((windowScatter A B a b wf).window (ix2 p q) 0 : ℤ)).toNat = R0 + p.val
    rw [hs0, hw0, h0]; omega
  | ⟨1, _⟩ =>
    show ((windowScatter A B a b wf).start (ix2 p q) idx 1 + ((windowScatter A B a b wf).window (ix2 p q) 1 : ℤ)).toNat = C0 + q.val
    rw [hs1, hw1, h1]; omega

variable {α : Type} (x : (⟨2, ![A, B]⟩ : Shape).Idx → α) (upd : (⟨2, ![a, b]⟩ : Shape).Idx → α)

/-- INSIDE THE RECTANGLE the result is the update: at `(R0 + p, C0 + q)` it is the update at `(p, q)`. -/
theorem windowScatter_inside (p : Fin a) (q : Fin b) (i : Fin A) (k : Fin B) (hi : i.val = R0 + p.val) (hk : k.val = C0 + q.val) :
    Host.scatter (windowScatter A B a b wf) (fun _ b => b) x idx upd (ix2 i k) = upd (ix2 p q) := by
  obtain rfl : i = ⟨R0 + p.val, lt_of R0 a A hA p⟩ := Fin.ext hi
  obtain rfl : k = ⟨C0 + q.val, lt_of C0 b B hB q⟩ := Fin.ext hk
  refine scatter_set_hit _ x idx upd _ (ix2 p q) (resultIdx_eq wf idx R0 C0 h0 h1 hA hB p q) ?_
  intro j hj
  obtain ⟨p', q', rfl⟩ : ∃ (p' : Fin a) (q' : Fin b), j = ix2 p' q' := ⟨j 0, j 1, eq_ix2 j⟩
  rw [resultIdx_eq wf idx R0 C0 h0 h1 hA hB p' q'] at hj
  have e := Option.some.inj hj
  have e0 : R0 + p'.val = R0 + p.val := congrArg Fin.val (congrFun e 0)
  have e1 : C0 + q'.val = C0 + q.val := congrArg Fin.val (congrFun e 1)
  rw [show p' = p from Fin.ext (by omega), show q' = q from Fin.ext (by omega)]

/-- OUTSIDE THE RECTANGLE the result is the operand. -/
theorem windowScatter_outside (i : Fin A) (k : Fin B)
    (hout : ¬(R0 ≤ i.val ∧ i.val < R0 + a ∧ C0 ≤ k.val ∧ k.val < C0 + b)) :
    Host.scatter (windowScatter A B a b wf) (fun _ b => b) x idx upd (ix2 i k) = x (ix2 i k) := by
  refine scatter_set_miss _ x idx upd _ ?_
  intro j hj
  obtain ⟨p', q', rfl⟩ : ∃ (p' : Fin a) (q' : Fin b), j = ix2 p' q' := ⟨j 0, j 1, eq_ix2 j⟩
  rw [resultIdx_eq wf idx R0 C0 h0 h1 hA hB p' q'] at hj
  have e := Option.some.inj hj
  have e0 : R0 + p'.val = i.val := congrArg Fin.val (congrFun e 0)
  have e1 : C0 + q'.val = k.val := congrArg Fin.val (congrFun e 1)
  have := p'.isLt; have := q'.isLt
  exact hout ⟨by omega, by omega, by omega, by omega⟩
end Window

end Cert.LibWindowScatter

end
-- ==== Proof.KHostTerms.lean ====
/-
  The six packed weight and bias arrays, as terms of the program's arguments.

  Before the kernel is launched the host lays the two towers' parameters out as one wide perceptron's: each
  weight matrix is an array of zeros into which the colour tower's matrix and then the distance tower's matrix
  are written as whole windows (a "set" scatter at a constant corner), each bias vector is the two towers' bias
  vectors one after the other. Here each of the six arrays, as the region finds it, is equated with that term
  over the launch contents of the arguments; the terms are read at an index elsewhere.
-/
import proofs.«161056_j33775622815975_2_alg».proof.Proof.Gen.KernelIdeal.Frame.Runs
import Idealize.ShloMosaic.Lib.ValueIdx

set_option maxRecDepth 16384

noncomputable section

namespace Cert.KHost

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The corner `(r0, c0)` of a window, as the host builds it: two one-element integer arrays laid end to end. -/
abbrev startPair (r0 c0 : BitVec 32) : IVec S2 32 :=
  concatenate S2 0 [⟨S1, broadcastInDim S1 ![] bcast_S_S1 (constantI S_ 32 r0)⟩, ⟨S1, broadcastInDim S1 ![] bcast_S_S1 (constantI S_ 32 c0)⟩] concatenates_S1_S1_S2_d0

/-- The first layer's weights: zeros, the colour tower's `[41, 128]` matrix written at column 0 (all rows), then
    the distance tower's `[12, 128]` matrix written at corner `(0, 128)`. -/
abbrev W1cTerm (dW1 : S12x128.Idx → EReal) (rW1 : S41x128.Idx → EReal) : S41x256.Idx → EReal :=
  Host.scatter scatter_S41x256_S2_S12x128_01_n_01_0 (fun _ b => b)
    (Host.scatter scatter_S41x256_S1_S41x128_01_n_1_0 (fun _ b => b)
      (broadcastInDim S41x256 ![] bcast_S_S41x256 (constant (F := Ideal) S_ .f32 0x00000000#32))
      (broadcastInDim S1 ![] bcast_S_S1 (constantI S_ 32 0#32))
      rW1)
    (startPair 0#32 128#32)
    dW1

/-- The second layer's weights: zeros, the colour tower's matrix at corner `(0, 0)`, the distance tower's at `(128, 128)`. -/
abbrev W2cTerm (dW2 rW2 : S128x128.Idx → EReal) : S256x256.Idx → EReal :=
  Host.scatter scatter_S256x256_S2_S128x128_01_n_01_0 (fun _ b => b)
    (Host.scatter scatter_S256x256_S2_S128x128_01_n_01_0 (fun _ b => b)
      (broadcastInDim S256x256 ![] bcast_S_S256x256 (constant (F := Ideal) S_ .f32 0x00000000#32))
      (startPair 0#32 0#32)
      rW2)
    (startPair 128#32 128#32)
    dW2

/-- The third layer's weights: zeros, the colour tower's `[128, 3]` matrix at corner `(0, 0)`, the distance tower's
    `[128, 1]` matrix at `(128, 3)`. -/
abbrev W3cTerm (dW3 : S128x1.Idx → EReal) (rW3 : S128x3.Idx → EReal) : S256x4.Idx → EReal :=
  Host.scatter scatter_S256x4_S2_S128x1_01_n_01_0 (fun _ b => b)
    (Host.scatter scatter_S256x4_S2_S128x3_01_n_01_0 (fun _ b => b)
      (broadcastInDim S256x4 ![] bcast_S_S256x4 (constant (F := Ideal) S_ .f32 0x00000000#32))
      (startPair 0#32 0#32)
      rW3)
    (startPair 128#32 3#32)
    dW3

set_option maxHeartbeats 4000000 in
theorem b1c_term : (V (F := Ideal) m c main_v185 : S256.Idx → EReal) =
    concatenate S256 0 [⟨S128, m ((c : Thread nD τ).loc main_arg9)⟩, ⟨S128, m ((c : Thread nD τ).loc main_arg3)⟩] concatenates_S128_S128_S256_d0 := by
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
theorem b2c_term : (V (F := Ideal) m c main_v195 : S256.Idx → EReal) =
    concatenate S256 0 [⟨S128, m ((c : Thread nD τ).loc main_arg11)⟩, ⟨S128, m ((c : Thread nD τ).loc main_arg5)⟩] concatenates_S128_S128_S256_d0 := by
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
theorem b3c_term : (V (F := Ideal) m c main_v205 : S4.Idx → EReal) =
    concatenate S4 0 [⟨S3, m ((c : Thread nD τ).loc main_arg13)⟩, ⟨S1, m ((c : Thread nD τ).loc main_arg7)⟩] concatenates_S3_S1_S4_d0 := by
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
theorem W1c_term : (V (F := Ideal) m c main_v184 : S41x256.Idx → EReal) =
    W1cTerm (m ((c : Thread nD τ).loc main_arg2)) (m ((c : Thread nD τ).loc main_arg8)) := by
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
theorem W2c_term : (V (F := Ideal) m c main_v194 : S256x256.Idx → EReal) =
    W2cTerm (m ((c : Thread nD τ).loc main_arg4)) (m ((c : Thread nD τ).loc main_arg10)) := by
  dsimp only [V]
  simp only [hostOps0, hostOps0_1, hostOps0_2, hostOps0_3, hostOps0_4, List.flatten_cons, List.flatten_nil, List.append_nil, List.cons_append, List.nil_append]
  after_results_simp
  rfl

set_option maxHeartbeats 4000000 in
theorem W3c_term : (V (F := Ideal) m c main_v204 : S256x4.Idx → EReal) =
    W3cTerm (m ((c : Thread nD τ).loc main_arg6)) (m ((c : Thread nD τ).loc main_arg12)) := by
  dsimp only [V]
  simp only [hostOps0, hostOps0_1, hostOps0_2, hostOps0_3, hostOps0_4, List.flatten_cons, List.flatten_nil, List.append_nil, List.cons_append, List.nil_append]
  after_results_simp
  rfl

end Cert.KHost

end
-- ==== Proof.KHost.lean ====
/-
  The six packed weight and bias arrays, read at an index.

  The host lays the two towers' parameters out as one wide perceptron's (the terms of the terms module): a
  bias vector is the two towers' vectors one after the other; a weight matrix is an array of zeros into which
  the colour tower's matrix and then the distance tower's matrix are written as whole windows at constant
  corners. A window written by a "set" scatter whose update indices land on distinct elements is the update on
  its rectangle and the operand elsewhere (the window-scatter library); the two rectangles of a matrix are
  disjoint, so an element is the colour tower's entry on the first rectangle, the distance tower's on the second
  and the zero word elsewhere: the block layouts of the specification.
-/
import Idealize.ShloMosaic.Lib.Pipeline.Value
import Idealize.ShloMosaic.Lib.ValueLayout
import proofs.«161056_j33775622815975_2_alg».proof.Proof.Spec
import proofs.«161056_j33775622815975_2_alg».proof.Proof.LibWindowScatter
import proofs.«161056_j33775622815975_2_alg».proof.Proof.KHostTerms

set_option maxRecDepth 16384

noncomputable section

namespace Cert.KHost

open Idealize.ShloMosaic Idealize.ShloMosaic.TcCoe Idealize.ShloMosaic.ValueIdx Idealize.SL.Sem Cert.KernelIdeal Cert.KernelIdeal.Gen
open Cert.LibWindowScatter

/-! ## Two vectors one after the other -/

/-- A concatenation of an `A`-vector and a `B`-vector, read at `j`: the first below `A`, the second from `A` on. -/
theorem cat_apply {A B N : Nat} (hN : N = A + B) (x₁ : (⟨1, ![A]⟩ : Shape).Idx → EReal) (x₂ : (⟨1, ![B]⟩ : Shape).Idx → EReal)
    (h : Shape.Concatenates [(⟨1, ![A]⟩ : Shape), ⟨1, ![B]⟩] ⟨1, ![N]⟩ 0) (j : Fin N) :
    concatenate (⟨1, ![N]⟩ : Shape) 0 [⟨⟨1, ![A]⟩, x₁⟩, ⟨⟨1, ![B]⟩, x₂⟩] h (ix1 j)
      = Cert.Spec.cat (fun a => x₁ (ix1 a)) (fun a => x₂ (ix1 a)) (j.cast hN) := by
  unfold Cert.Spec.cat
  by_cases hj : j.val < A
  · rw [dif_pos (show (j.cast hN).val < A from hj)]
    exact concatenate_pair_apply_left 0 x₁ x₂ h (ix1 j) rfl (ix1 ⟨j.val, hj⟩) (fun b => by match b with | ⟨0, _⟩ => rfl)
  · rw [dif_neg (show ¬ (j.cast hN).val < A from hj)]
    have hlt : j.val - A < B := by have := j.isLt; omega
    refine concatenate_pair_apply_right 0 x₁ x₂ h (ix1 j) rfl rfl (ix1 ⟨j.val - A, hlt⟩) (fun b hb => ?_) ?_
    · match b with | ⟨0, _⟩ => exact absurd rfl hb
    · show (j.val - A) + A = j.val
      omega

/-! ## The corner of a window -/

/-- The corner's row, as a signed integer. -/
theorem pair_zero (a b : IVec (⟨1, ![1]⟩ : Shape) 32) (h : Shape.Concatenates [(⟨1, ![1]⟩ : Shape), ⟨1, ![1]⟩] ⟨1, ![2]⟩ 0) :
    concatenate (⟨1, ![2]⟩ : Shape) 0 [⟨⟨1, ![1]⟩, a⟩, ⟨⟨1, ![1]⟩, b⟩] h (ix1 0) = a (ix1 0) :=
  concatenate_pair_apply_left 0 a b h (ix1 0) rfl (ix1 0) (fun b => by match b with | ⟨0, _⟩ => rfl)

/-- The corner's column, as a signed integer. -/
theorem pair_one (a b : IVec (⟨1, ![1]⟩ : Shape) 32) (h : Shape.Concatenates [(⟨1, ![1]⟩ : Shape), ⟨1, ![1]⟩] ⟨1, ![2]⟩ 0) :
    concatenate (⟨1, ![2]⟩ : Shape) 0 [⟨⟨1, ![1]⟩, a⟩, ⟨⟨1, ![1]⟩, b⟩] h (ix1 1) = b (ix1 0) := by
  refine concatenate_pair_apply_right 0 a b h (ix1 1) rfl rfl (ix1 0) (fun b hb => ?_) ?_
  · match b with | ⟨0, _⟩ => exact absurd rfl hb
  · rfl

/-! ## A window scatter read anywhere -/

section Window
variable {A B a b w : Nat} (wf : ScatterDims.WF ⟨2, ![A, B]⟩ ⟨1, ![2]⟩ ⟨2, ![a, b]⟩ [0, 1] [] [0, 1] 0)
  (idx : IVec ⟨1, ![2]⟩ w)
  (R0 C0 : ℕ) (h0 : (idx (ix1 0)).toInt = (R0 : ℤ)) (h1 : (idx (ix1 1)).toInt = (C0 : ℤ))
  (hA : R0 + a ≤ A) (hB : C0 + b ≤ B)
  {α : Type} (x : (⟨2, ![A, B]⟩ : Shape).Idx → α) (upd : (⟨2, ![a, b]⟩ : Shape).Idx → α)
include h0 h1 hA hB

/-- The result of writing an `[a, b]` window at corner `(R0, C0)`: the window on its rectangle, the operand elsewhere. -/
theorem window_read (i : Fin A) (k : Fin B) :
    Host.scatter (windowScatter A B a b wf) (fun _ b => b) x idx upd (ix2 i k)
      = if h : R0 ≤ i.val ∧ i.val < R0 + a ∧ C0 ≤ k.val ∧ k.val < C0 + b
        then upd (ix2 ⟨i.val - R0, by omega⟩ ⟨k.val - C0, by omega⟩) else x (ix2 i k) := by
  by_cases h : R0 ≤ i.val ∧ i.val < R0 + a ∧ C0 ≤ k.val ∧ k.val < C0 + b
  · rw [dif_pos h]
    exact windowScatter_inside wf idx R0 C0 h0 h1 hA hB x upd ⟨i.val - R0, by omega⟩ ⟨k.val - C0, by omega⟩ i k
      (by show i.val = R0 + (i.val - R0); omega) (by show k.val = C0 + (k.val - C0); omega)
  · rw [dif_neg h]
    exact windowScatter_outside wf idx R0 C0 h0 h1 hA hB x upd i k h
end Window

/-! ## A window of whole columns: only the column start is given -/

/-- The dimension numbers of a scatter of an `[a, b]` update into an `[A, B]` operand whose one index names the
    starting COLUMN (operand axis 1); the rows start at 0. -/
abbrev colScatter (A B a b : Nat)
    (wf : ScatterDims.WF ⟨2, ![A, B]⟩ ⟨1, ![1]⟩ ⟨2, ![a, b]⟩ [0, 1] [] [1] 0) :
    ScatterDims ⟨2, ![A, B]⟩ ⟨1, ![1]⟩ ⟨2, ![a, b]⟩ where
  updateWindowDims := [0, 1]
  insertedWindowDims := []
  scatterDimsToOperandDims := [1]
  indexVectorDim := 0
  wf := wf

section Col
variable {A B a b w : Nat} (wf : ScatterDims.WF ⟨2, ![A, B]⟩ ⟨1, ![1]⟩ ⟨2, ![a, b]⟩ [0, 1] [] [1] 0)
  (idx : IVec ⟨1, ![1]⟩ w)

/-- No index names operand axis 0: its windows start at row 0. -/
theorem col_start_zero (j : (⟨2, ![a, b]⟩ : Shape).Idx) :
    (colScatter A B a b wf).start j idx 0 = 0 := by
  unfold ScatterDims.start
  rw [dif_neg (show (0 : Fin 2) ∉ (colScatter A B a b wf).scatterDimsToOperandDims from by simp)]

/-- The one index starts operand axis 1. -/
theorem col_start_one (j : (⟨2, ![a, b]⟩ : Shape).Idx) :
    (colScatter A B a b wf).start j idx 1 = (idx (ix1 0)).toInt := by
  unfold ScatterDims.start
  rw [dif_pos (show (1 : Fin 2) ∈ (colScatter A B a b wf).scatterDimsToOperandDims from by simp)]
  refine congrArg (fun t => (idx t).toInt) ?_
  funext b0
  match b0 with
  | ⟨0, _⟩ =>
    unfold ScatterDims.siIdx
    rw [dif_pos rfl]
    exact Fin.ext rfl

/-- The window coordinate on operand axis 0 is the update index's coordinate 0. -/
theorem col_window_zero (j : (⟨2, ![a, b]⟩ : Shape).Idx) :
    (colScatter A B a b wf).window j 0 = (j 0).val := by
  unfold ScatterDims.window
  rw [dif_pos (by simp [ScatterDims.sKept, Shape.kept, List.finRange])]
  rfl

/-- The window coordinate on operand axis 1 is the update index's coordinate 1. -/
theorem col_window_one (j : (⟨2, ![a, b]⟩ : Shape).Idx) :
    (colScatter A B a b wf).window j 1 = (j 1).val := by
  unfold ScatterDims.window
  rw [dif_pos (by simp [ScatterDims.sKept, Shape.kept, List.finRange])]
  rfl

variable (C0 : ℕ) (h1 : (idx (ix1 0)).toInt = (C0 : ℤ)) (hA : a ≤ A) (hB : C0 + b ≤ B)
include h1 hA hB

/-- Update index `(p, q)` lands on `(p, C0 + q)`. -/
theorem col_resultIdx_eq (p : Fin a) (q : Fin b) :
    (colScatter A B a b wf).resultIdx? (ix2 p q) idx
      = some (ix2 ⟨p.val, lt_of_lt_of_le p.isLt hA⟩ ⟨C0 + q.val, lt_of C0 b B hB q⟩) := by
  have hs0 := col_start_zero wf idx (ix2 p q)
  have hs1 := col_start_one wf idx (ix2 p q)
  have hw0 : (colScatter A B a b wf).window (ix2 p q) 0 = p.val := col_window_zero wf (ix2 p q)
  have hw1 : (colScatter A B a b wf).window (ix2 p q) 1 = q.val := col_window_one wf (ix2 p q)
  unfold ScatterDims.resultIdx?
  rw [dif_pos (fun c => by
    match c with
    | ⟨0, _⟩ =>
      show 0 ≤ (colScatter A B a b wf).start (ix2 p q) idx 0 + ((colScatter A B a b wf).window (ix2 p q) 0 : ℤ) ∧
        (colScatter A B a b wf).start (ix2 p q) idx 0 + ((colScatter A B a b wf).window (ix2 p q) 0 : ℤ) < (A : ℤ)
      rw [hs0, hw0]; have := p.isLt; omega
    | ⟨1, _⟩ =>
      show 0 ≤ (colScatter A B a b wf).start (ix2 p q) idx 1 + ((colScatter A B a b wf).window (ix2 p q) 1 : ℤ) ∧
        (colScatter A B a b wf).start (ix2 p q) idx 1 + ((colScatter A B a b wf).window (ix2 p q) 1 : ℤ) < (B : ℤ)
      rw [hs1, hw1, h1]; have := q.isLt; omega)]
  refine congrArg some (funext fun c => Fin.ext ?_)
  match c with
  | ⟨0, _⟩ =>
    show ((colScatter A B a b wf).start (ix2 p q) idx 0 + ((colScatter A B a b wf).window (ix2 p q) 0 : ℤ)).toNat = p.val
    rw [hs0, hw0]; omega
  | ⟨1, _⟩ =>
    show ((colScatter A B a b wf).start (ix2 p q) idx 1 + ((colScatter A B a b wf).window (ix2 p q) 1 : ℤ)).toNat = C0 + q.val
    rw [hs1, hw1, h1]; omega

variable {α : Type} (x : (⟨2, ![A, B]⟩ : Shape).Idx → α) (upd : (⟨2, ![a, b]⟩ : Shape).Idx → α)

/-- The result of writing an `[a, b]` window at rows `0 …`, columns `C0 …`: the window on its rectangle, the operand
    elsewhere. -/
theorem col_read (i : Fin A) (k : Fin B) :
    Host.scatter (colScatter A B a b wf) (fun _ b => b) x idx upd (ix2 i k)
      = if h : i.val < a ∧ C0 ≤ k.val ∧ k.val < C0 + b
        then upd (ix2 ⟨i.val, h.1⟩ ⟨k.val - C0, by omega⟩) else x (ix2 i k) := by
  by_cases h : i.val < a ∧ C0 ≤ k.val ∧ k.val < C0 + b
  · rw [dif_pos h]
    have hq : k.val - C0 < b := by omega
    refine scatter_set_hit _ x idx upd _ (ix2 ⟨i.val, h.1⟩ ⟨k.val - C0, hq⟩) ?_ ?_
    · rw [col_resultIdx_eq wf idx C0 h1 hA hB ⟨i.val, h.1⟩ ⟨k.val - C0, hq⟩]
      refine congrArg some (funext fun c => Fin.ext ?_)
      match c with
      | ⟨0, _⟩ => rfl
      | ⟨1, _⟩ => show C0 + (k.val - C0) = k.val; omega
    · intro j hj
      obtain ⟨p', q', rfl⟩ : ∃ (p' : Fin a) (q' : Fin b), j = ix2 p' q' := ⟨j 0, j 1, eq_ix2 j⟩
      rw [col_resultIdx_eq wf idx C0 h1 hA hB p' q'] at hj
      have e := Option.some.inj hj
      have e0 : p'.val = i.val := congrArg Fin.val (congrFun e 0)
      have e1 : C0 + q'.val = k.val := congrArg Fin.val (congrFun e 1)
      rw [show p' = ⟨i.val, h.1⟩ from Fin.ext e0, show q' = ⟨k.val - C0, hq⟩ from Fin.ext (by show q'.val = k.val - C0; omega)]
  · rw [dif_neg h]
    refine scatter_set_miss _ x idx upd _ ?_
    intro j hj
    obtain ⟨p', q', rfl⟩ : ∃ (p' : Fin a) (q' : Fin b), j = ix2 p' q' := ⟨j 0, j 1, eq_ix2 j⟩
    rw [col_resultIdx_eq wf idx C0 h1 hA hB p' q'] at hj
    have e := Option.some.inj hj
    have e0 : p'.val = i.val := congrArg Fin.val (congrFun e 0)
    have e1 : C0 + q'.val = k.val := congrArg Fin.val (congrFun e 1)
    have := p'.isLt; have := q'.isLt
    exact h ⟨by omega, by omega, by omega⟩
end Col

/-! ## The corners and the zeros of this program -/

theorem startPair_zero (r0 c0 : BitVec 32) : startPair r0 c0 (ix1 0) = r0 := pair_zero _ _ _
theorem startPair_one (r0 c0 : BitVec 32) : startPair r0 c0 (ix1 1) = c0 := pair_one _ _ _

/-! ## The three bias vectors -/

variable (m : (ℓ : Loc nD τ sig) → Buf (Elt Ideal) ℓ) (c : Dev nD)

theorem b1c_apply (j : Fin 256) :
    (V (F := Ideal) m c main_v185 : S256.Idx → EReal) (ix1 j)
      = Cert.Spec.cat (fun a => (m ((c : Thread nD τ).loc main_arg9) : S128.Idx → EReal) (ix1 a))
          (fun a => (m ((c : Thread nD τ).loc main_arg3) : S128.Idx → EReal) (ix1 a)) j := by
  refine (congrFun (b1c_term m c) (ix1 j)).trans ?_
  exact cat_apply (A := 128) (B := 128) rfl _ _ concatenates_S128_S128_S256_d0 j

theorem b2c_apply (j : Fin 256) :
    (V (F := Ideal) m c main_v195 : S256.Idx → EReal) (ix1 j)
      = Cert.Spec.cat (fun a => (m ((c : Thread nD τ).loc main_arg11) : S128.Idx → EReal) (ix1 a))
          (fun a => (m ((c : Thread nD τ).loc main_arg5) : S128.Idx → EReal) (ix1 a)) j := by
  refine (congrFun (b2c_term m c) (ix1 j)).trans ?_
  exact cat_apply (A := 128) (B := 128) rfl _ _ concatenates_S128_S128_S256_d0 j

theorem b3c_apply (q : Fin 4) :
    (V (F := Ideal) m c main_v205 : S4.Idx → EReal) (ix1 q)
      = Cert.Spec.cat (fun a => (m ((c : Thread nD τ).loc main_arg13) : S3.Idx → EReal) (ix1 a))
          (fun a => (m ((c : Thread nD τ).loc main_arg7) : S1.Idx → EReal) (ix1 a)) q := by
  refine (congrFun (b3c_term m c) (ix1 q)).trans ?_
  exact cat_apply (A := 3) (B := 1) rfl _ _ concatenates_S3_S1_S4_d0 q

/-! ## The three weight matrices -/

/-- The second layer's packed weights at `(k, j)`. -/
theorem W2cTerm_apply (dW2 rW2 : S128x128.Idx → EReal) (k j : Fin 256) :
    W2cTerm dW2 rW2 (ix2 k j) = Cert.Spec.W2c (fun a b => dW2 (ix2 a b)) (fun a b => rW2 (ix2 a b)) k j := by
  have e2 := window_read (A := 256) (B := 256) (a := 128) (b := 128) Facts₀.scatter_S256x256_S2_S128x128_01_n_01_0_wf
    (startPair 128#32 128#32) 128 128 (by rw [startPair_zero]; rfl) (by rw [startPair_one]; rfl) (by omega) (by omega)
    (Host.scatter scatter_S256x256_S2_S128x128_01_n_01_0 (fun _ b => b)
      (broadcastInDim S256x256 ![] bcast_S_S256x256 (constant (F := Ideal) S_ .f32 0x00000000#32)) (startPair 0#32 0#32) rW2)
    dW2 k j
  have e1 := window_read (A := 256) (B := 256) (a := 128) (b := 128) Facts₀.scatter_S256x256_S2_S128x128_01_n_01_0_wf
    (startPair 0#32 0#32) 0 0 (by rw [startPair_zero]; rfl) (by rw [startPair_one]; rfl) (by omega) (by omega)
    (broadcastInDim S256x256 ![] bcast_S_S256x256 (constant (F := Ideal) S_ .f32 0x00000000#32)) rW2 k j
  unfold Cert.Spec.W2c
  by_cases hk : k.val < 128
  · rw [dif_pos hk]
    by_cases hj : j.val < 128
    · rw [dif_pos hj]
      exact (e2.trans (dif_neg (by omega))).trans (e1.trans (dif_pos (by omega)))
    · rw [dif_neg hj]
      exact (e2.trans (dif_neg (by omega))).trans (e1.trans (dif_neg (by omega)))
  · rw [dif_neg hk]
    by_cases hj : j.val < 128
    · rw [dif_pos hj]
      exact (e2.trans (dif_neg (by omega))).trans (e1.trans (dif_neg (by omega)))
    · rw [dif_neg hj]
      exact e2.trans (dif_pos (by omega))

/-- The third layer's packed weights at `(k, q)`. -/
theorem W3cTerm_apply (dW3 : S128x1.Idx → EReal) (rW3 : S128x3.Idx → EReal) (k : Fin 256) (q : Fin 4) :
    W3cTerm dW3 rW3 (ix2 k q) = Cert.Spec.W3c (fun a b => dW3 (ix2 a b)) (fun a b => rW3 (ix2 a b)) k q := by
  have e2 := window_read (A := 256) (B := 4) (a := 128) (b := 1) Facts₀.scatter_S256x4_S2_S128x1_01_n_01_0_wf
    (startPair 128#32 3#32) 128 3 (by rw [startPair_zero]; rfl) (by rw [startPair_one]; rfl) (by omega) (by omega)
    (Host.scatter scatter_S256x4_S2_S128x3_01_n_01_0 (fun _ b => b)
      (broadcastInDim S256x4 ![] bcast_S_S256x4 (constant (F := Ideal) S_ .f32 0x00000000#32)) (startPair 0#32 0#32) rW3)
    dW3 k q
  have e1 := window_read (A := 256) (B := 4) (a := 128) (b := 3) Facts₀.scatter_S256x4_S2_S128x3_01_n_01_0_wf
    (startPair 0#32 0#32) 0 0 (by rw [startPair_zero]; rfl) (by rw [startPair_one]; rfl) (by omega) (by omega)
    (broadcastInDim S256x4 ![] bcast_S_S256x4 (constant (F := Ideal) S_ .f32 0x00000000#32)) rW3 k q
  unfold Cert.Spec.W3c
  by_cases hk : k.val < 128
  · rw [dif_pos hk]
    by_cases hq : q.val < 3
    · rw [dif_pos hq]
      exact (e2.trans (dif_neg (by omega))).trans (e1.trans (dif_pos (by omega)))
    · rw [dif_neg hq]
      exact (e2.trans (dif_neg (by omega))).trans (e1.trans (dif_neg (by omega)))
  · rw [dif_neg hk]
    by_cases hq : q.val < 3
    · rw [dif_pos hq]
      exact (e2.trans (dif_neg (by omega))).trans (e1.trans (dif_neg (by omega)))
    · rw [dif_neg hq]
      have hq3 : q.val - 3 < 1 := by have := q.isLt; omega
      have e0 : (⟨q.val - 3, hq3⟩ : Fin 1) = 0 := Fin.ext (by show q.val - 3 = 0; omega)
      refine (e2.trans (dif_pos (by omega))).trans ?_
      exact congrArg (fun t : Fin 1 => dW3 (ix2 (⟨k.val - 128, by omega⟩ : Fin 128) t)) e0

/-- The first layer's packed weights at `(k, j)`. -/
theorem W1cTerm_apply (dW1 : S12x128.Idx → EReal) (rW1 : S41x128.Idx → EReal) (k : Fin 41) (j : Fin 256) :
    W1cTerm dW1 rW1 (ix2 k j) = Cert.Spec.W1c (fun a b => dW1 (ix2 a b)) (fun a b => rW1 (ix2 a b)) k j := by
  have e2 := window_read (A := 41) (B := 256) (a := 12) (b := 128) Facts₀.scatter_S41x256_S2_S12x128_01_n_01_0_wf
    (startPair 0#32 128#32) 0 128 (by rw [startPair_zero]; rfl) (by rw [startPair_one]; rfl) (by omega) (by omega)
    (Host.scatter scatter_S41x256_S1_S41x128_01_n_1_0 (fun _ b => b)
      (broadcastInDim S41x256 ![] bcast_S_S41x256 (constant (F := Ideal) S_ .f32 0x00000000#32))
      (broadcastInDim S1 ![] bcast_S_S1 (constantI S_ 32 0#32)) rW1)
    dW1 k j
  have e1 := col_read (A := 41) (B := 256) (a := 41) (b := 128) Facts₀.scatter_S41x256_S1_S41x128_01_n_1_0_wf
    (broadcastInDim S1 ![] bcast_S_S1 (constantI S_ 32 0#32)) 0 rfl (by omega) (by omega)
    (broadcastInDim S41x256 ![] bcast_S_S41x256 (constant (F := Ideal) S_ .f32 0x00000000#32)) rW1 k j
  unfold Cert.Spec.W1c
  by_cases hj : j.val < 128
  · rw [dif_pos hj]
    exact (e2.trans (dif_neg (by omega))).trans (e1.trans (dif_pos (by have := k.isLt; omega)))
  · rw [dif_neg hj]
    by_cases hk : k.val < 12
    · rw [dif_pos hk]
      exact e2.trans (dif_pos (by have := j.isLt; omega))
    · rw [dif_neg hk]
      exact (e2.trans (dif_neg (by omega))).trans (e1.trans (dif_neg (by omega)))

theorem W2c_apply (k j : Fin 256) :
    (V (F := Ideal) m c main_v194 : S256x256.Idx → EReal) (ix2 k j)
      = Cert.Spec.W2c (fun a b => (m ((c : Thread nD τ).loc main_arg4) : S128x128.Idx → EReal) (ix2 a b))
          (fun a b => (m ((c : Thread nD τ).loc main_arg10) : S128x128.Idx → EReal) (ix2 a b)) k j :=
  (congrFun (W2c_term m c) (ix2 k j)).trans (W2cTerm_apply _ _ k j)

theorem W3c_apply (k : Fin 256) (q : Fin 4) :
    (V (F := Ideal) m c main_v204 : S256x4.Idx → EReal) (ix2 k q)
      = Cert.Spec.W3c (fun a b => (m ((c : Thread nD τ).loc main_arg6) : S128x1.Idx → EReal) (ix2 a b))
          (fun a b => (m ((c : Thread nD τ).loc main_arg12) : S128x3.Idx → EReal) (ix2 a b)) k q :=
  (congrFun (W3c_term m c) (ix2 k q)).trans (W3cTerm_apply _ _ k q)

theorem W1c_apply (k : Fin 41) (j : Fin 256) :
    (V (F := Ideal) m c main_v184 : S41x256.Idx → EReal) (ix2 k j)
      = Cert.Spec.W1c (fun a b => (m ((c : Thread nD τ).loc main_arg2) : S12x128.Idx → EReal) (ix2 a b))
          (fun a b => (m ((c : Thread nD τ).loc main_arg8) : S41x128.Idx → EReal) (ix2 a b)) k j :=
  (congrFun (W1c_term m c) (ix2 k j)).trans (W1cTerm_apply _ _ k j)

end Cert.KHost

end
-- ==== Proof.Merge.lean ====
/-
  The wide perceptron with block-diagonal weights equals the two towers.

  On the extended reals a product with a zero weight is zero (also of an infinity) and zero
  terms do not change a sum, so a layer whose weight matrix is block-diagonal acts on the two
  halves of its input separately.
-/
import proofs.«161056_j33775622815975_2_alg».proof.Proof.Spec
import Idealize.ShloMosaic.PureOps.Ideal.Laws
import Mathlib.Algebra.BigOperators.Fin

noncomputable section

namespace Cert.Spec

open Idealize.ShloMosaic

/-- The rectifier's zero word is the number zero. -/
theorem z0_eq_zero : z0 = 0 := Ideal.ofBits_zero_f32

/-- `cat u v` on the first block is `u`. -/
theorem cat_castAdd {A B : Nat} (u : Fin A → EReal) (v : Fin B → EReal) (i : Fin A) :
    cat u v (Fin.castAdd B i) = u i := by
  unfold cat
  rw [dif_pos (show (Fin.castAdd B i).val < A from i.isLt)]
  rfl

/-- `cat u v` on the second block is `v`. -/
theorem cat_natAdd {A B : Nat} (u : Fin A → EReal) (v : Fin B → EReal) (i : Fin B) :
    cat u v (Fin.natAdd A i) = v i := by
  unfold cat
  rw [dif_neg (show ¬ (Fin.natAdd A i).val < A by simp)]
  congr 1
  apply Fin.ext
  simp

/-- A sum whose terms vanish on the second block is the sum over the first block. -/
theorem sum_first_block {a b : Nat} (f : Fin (a + b) → EReal)
    (hf : ∀ i : Fin b, f (Fin.natAdd a i) = 0) :
    ∑ k : Fin (a + b), f k = ∑ i : Fin a, f (Fin.castAdd b i) := by
  rw [Fin.sum_univ_add, Finset.sum_eq_zero (fun i _ => hf i), add_zero]

/-- A sum whose terms vanish on the first block is the sum over the second block. -/
theorem sum_second_block {a b : Nat} (f : Fin (a + b) → EReal)
    (hf : ∀ i : Fin a, f (Fin.castAdd b i) = 0) :
    ∑ k : Fin (a + b), f k = ∑ i : Fin b, f (Fin.natAdd a i) := by
  rw [Fin.sum_univ_add, Finset.sum_eq_zero (fun i _ => hf i), zero_add]

/-- An affine layer with block-diagonal weights acts on the two halves of its input separately. -/
theorem dense_block_diag {a b c d : Nat} (u : Fin a → EReal) (v : Fin b → EReal)
    (W : Fin (a + b) → Fin (c + d) → EReal) (P : Fin a → Fin c → EReal) (Q : Fin b → Fin d → EReal)
    (p : Fin c → EReal) (q : Fin d → EReal)
    (h11 : ∀ i j, W (Fin.castAdd b i) (Fin.castAdd d j) = P i j)
    (h21 : ∀ i j, W (Fin.natAdd a i) (Fin.castAdd d j) = 0)
    (h12 : ∀ i j, W (Fin.castAdd b i) (Fin.natAdd c j) = 0)
    (h22 : ∀ i j, W (Fin.natAdd a i) (Fin.natAdd c j) = Q i j) :
    dense (cat u v) W (cat p q) = cat (dense u P p) (dense v Q q) := by
  funext j
  refine Fin.addCases (fun j => ?_) (fun j => ?_) j
  · rw [cat_castAdd]
    unfold dense
    rw [cat_castAdd]
    congr 1
    refine (sum_first_block _ (fun i => by rw [h21, mul_zero])).trans ?_
    exact Finset.sum_congr rfl (fun i _ => by simp only [cat_castAdd, h11])
  · rw [cat_natAdd]
    unfold dense
    rw [cat_natAdd]
    congr 1
    refine (sum_second_block _ (fun i => by rw [h12, mul_zero])).trans ?_
    exact Finset.sum_congr rfl (fun i _ => by simp only [cat_natAdd, h22])

/-- The rectifier commutes with concatenation. -/
theorem max_cat {A B : Nat} (u : Fin A → EReal) (v : Fin B → EReal) :
    (fun j => max (cat u v j) z0) = cat (fun j => max (u j) z0) (fun j => max (v j) z0) := by
  funext j
  refine Fin.addCases (fun j => ?_) (fun j => ?_) j
  · rw [cat_castAdd, cat_castAdd]
  · rw [cat_natAdd, cat_natAdd]

/-- A rectified layer with block-diagonal weights acts on the two halves of its input separately. -/
theorem layer_block_diag {a b c d : Nat} (u : Fin a → EReal) (v : Fin b → EReal)
    (W : Fin (a + b) → Fin (c + d) → EReal) (P : Fin a → Fin c → EReal) (Q : Fin b → Fin d → EReal)
    (p : Fin c → EReal) (q : Fin d → EReal)
    (h11 : ∀ i j, W (Fin.castAdd b i) (Fin.castAdd d j) = P i j)
    (h21 : ∀ i j, W (Fin.natAdd a i) (Fin.castAdd d j) = 0)
    (h12 : ∀ i j, W (Fin.castAdd b i) (Fin.natAdd c j) = 0)
    (h22 : ∀ i j, W (Fin.natAdd a i) (Fin.natAdd c j) = Q i j) :
    layer (cat u v) W (cat p q) = cat (layer u P p) (layer v Q q) := by
  have hd := dense_block_diag u v W P Q p q h11 h21 h12 h22
  have hm := max_cat (dense u P p) (dense v Q q)
  funext j
  show max (dense (cat u v) W (cat p q) j) z0 = _
  rw [hd]
  exact congrFun hm j

/-- An affine layer whose second block of columns only reads the first block of rows:
the first block of columns is a full layer, the second a layer on the first rows alone. -/
theorem dense_first_rows {a b c d : Nat} (e : Fin (a + b) → EReal)
    (W : Fin (a + b) → Fin (c + d) → EReal) (P : Fin (a + b) → Fin c → EReal) (Q : Fin a → Fin d → EReal)
    (p : Fin c → EReal) (q : Fin d → EReal)
    (h1 : ∀ k j, W k (Fin.castAdd d j) = P k j)
    (h12 : ∀ i j, W (Fin.castAdd b i) (Fin.natAdd c j) = Q i j)
    (h22 : ∀ i j, W (Fin.natAdd a i) (Fin.natAdd c j) = 0) :
    dense e W (cat p q) = cat (dense e P p) (dense (fun i => e (Fin.castAdd b i)) Q q) := by
  funext j
  refine Fin.addCases (fun j => ?_) (fun j => ?_) j
  · rw [cat_castAdd]
    unfold dense
    rw [cat_castAdd]
    congr 1
    exact Finset.sum_congr rfl (fun k _ => by rw [h1])
  · rw [cat_natAdd]
    unfold dense
    rw [cat_natAdd]
    congr 1
    refine (sum_first_block _ (fun i => by rw [h22, mul_zero])).trans ?_
    exact Finset.sum_congr rfl (fun i _ => by simp only [h12])

/-- The rectified form of `dense_first_rows`. -/
theorem layer_first_rows {a b c d : Nat} (e : Fin (a + b) → EReal)
    (W : Fin (a + b) → Fin (c + d) → EReal) (P : Fin (a + b) → Fin c → EReal) (Q : Fin a → Fin d → EReal)
    (p : Fin c → EReal) (q : Fin d → EReal)
    (h1 : ∀ k j, W k (Fin.castAdd d j) = P k j)
    (h12 : ∀ i j, W (Fin.castAdd b i) (Fin.natAdd c j) = Q i j)
    (h22 : ∀ i j, W (Fin.natAdd a i) (Fin.natAdd c j) = 0) :
    layer e W (cat p q) = cat (layer e P p) (layer (fun i => e (Fin.castAdd b i)) Q q) := by
  have hd := dense_first_rows e W P Q p q h1 h12 h22
  have hm := max_cat (dense e P p) (dense (fun i => e (Fin.castAdd b i)) Q q)
  funext j
  show max (dense e W (cat p q) j) z0 = _
  rw [hd]
  exact congrFun hm j

/-! ### The three layers of the wide perceptron -/

section Concrete

variable (feat : Fin 12 → EReal) (ff : Fin 2 → EReal) (vd : Fin 3 → EReal)
    (dW1 : Fin 12 → Fin 128 → EReal) (db1 : Fin 128 → EReal) (dW2 : Fin 128 → Fin 128 → EReal) (db2 : Fin 128 → EReal)
    (dW3 : Fin 128 → Fin 1 → EReal) (db3 : Fin 1 → EReal)
    (rW1 : Fin 41 → Fin 128 → EReal) (rb1 : Fin 128 → EReal) (rW2 : Fin 128 → Fin 128 → EReal) (rb2 : Fin 128 → EReal)
    (rW3 : Fin 128 → Fin 3 → EReal) (rb3 : Fin 3 → EReal)

/-- The first 12 columns of the embedded row are the features. -/
theorem embed_castAdd (i : Fin 12) : embed feat ff vd (Fin.castAdd 29 i) = feat i := by
  unfold embed
  rw [dif_pos (show (Fin.castAdd 29 i).val < 12 from i.isLt)]
  rfl

theorem W1c_left (k : Fin 41) (j : Fin 128) : W1c dW1 rW1 k (Fin.castAdd 128 j) = rW1 k j := by
  unfold W1c
  rw [dif_pos (show (Fin.castAdd 128 j).val < 128 from j.isLt)]
  rfl

theorem W1c_right_top (i : Fin 12) (j : Fin 128) :
    W1c dW1 rW1 (Fin.castAdd 29 i) (Fin.natAdd 128 j) = dW1 i j := by
  unfold W1c
  rw [dif_neg (show ¬ (Fin.natAdd 128 j).val < 128 by show ¬ 128 + j.val < 128; omega),
    dif_pos (show (Fin.castAdd 29 i).val < 12 from i.isLt)]
  congr 1
  exact Fin.ext (by show 128 + j.val - 128 = j.val; omega)

theorem W1c_right_bot (i : Fin 29) (j : Fin 128) :
    W1c dW1 rW1 (Fin.natAdd 12 i) (Fin.natAdd 128 j) = 0 := by
  unfold W1c
  rw [dif_neg (show ¬ (Fin.natAdd 128 j).val < 128 by show ¬ 128 + j.val < 128; omega),
    dif_neg (show ¬ (Fin.natAdd 12 i).val < 12 by show ¬ 12 + i.val < 12; omega)]
  exact z0_eq_zero

theorem W2c_11 (i j : Fin 128) : W2c dW2 rW2 (Fin.castAdd 128 i) (Fin.castAdd 128 j) = rW2 i j := by
  unfold W2c
  rw [dif_pos (show (Fin.castAdd 128 i).val < 128 from i.isLt),
    dif_pos (show (Fin.castAdd 128 j).val < 128 from j.isLt)]
  rfl

theorem W2c_21 (i j : Fin 128) : W2c dW2 rW2 (Fin.natAdd 128 i) (Fin.castAdd 128 j) = 0 := by
  unfold W2c
  rw [dif_neg (show ¬ (Fin.natAdd 128 i).val < 128 by show ¬ 128 + i.val < 128; omega),
    dif_pos (show (Fin.castAdd 128 j).val < 128 from j.isLt)]
  exact z0_eq_zero

theorem W2c_12 (i j : Fin 128) : W2c dW2 rW2 (Fin.castAdd 128 i) (Fin.natAdd 128 j) = 0 := by
  unfold W2c
  rw [dif_pos (show (Fin.castAdd 128 i).val < 128 from i.isLt),
    dif_neg (show ¬ (Fin.natAdd 128 j).val < 128 by show ¬ 128 + j.val < 128; omega)]
  exact z0_eq_zero

theorem W2c_22 (i j : Fin 128) : W2c dW2 rW2 (Fin.natAdd 128 i) (Fin.natAdd 128 j) = dW2 i j := by
  unfold W2c
  rw [dif_neg (show ¬ (Fin.natAdd 128 i).val < 128 by show ¬ 128 + i.val < 128; omega),
    dif_neg (show ¬ (Fin.natAdd 128 j).val < 128 by show ¬ 128 + j.val < 128; omega)]
  congr 1
  · exact Fin.ext (by show 128 + i.val - 128 = i.val; omega)
  · exact Fin.ext (by show 128 + j.val - 128 = j.val; omega)

theorem W3c_11 (i : Fin 128) (j : Fin 3) : W3c dW3 rW3 (Fin.castAdd 128 i) (Fin.castAdd 1 j) = rW3 i j := by
  unfold W3c
  rw [dif_pos (show (Fin.castAdd 128 i).val < 128 from i.isLt),
    dif_pos (show (Fin.castAdd 1 j).val < 3 from j.isLt)]
  rfl

theorem W3c_21 (i : Fin 128) (j : Fin 3) : W3c dW3 rW3 (Fin.natAdd 128 i) (Fin.castAdd 1 j) = 0 := by
  unfold W3c
  rw [dif_neg (show ¬ (Fin.natAdd 128 i).val < 128 by show ¬ 128 + i.val < 128; omega),
    dif_pos (show (Fin.castAdd 1 j).val < 3 from j.isLt)]
  exact z0_eq_zero

theorem W3c_12 (i : Fin 128) (j : Fin 1) : W3c dW3 rW3 (Fin.castAdd 128 i) (Fin.natAdd 3 j) = 0 := by
  unfold W3c
  rw [dif_pos (show (Fin.castAdd 128 i).val < 128 from i.isLt),
    dif_neg (show ¬ (Fin.natAdd 3 j).val < 3 by show ¬ 3 + j.val < 3; omega)]
  exact z0_eq_zero

theorem W3c_22 (i : Fin 128) (j : Fin 1) : W3c dW3 rW3 (Fin.natAdd 128 i) (Fin.natAdd 3 j) = dW3 i j := by
  unfold W3c
  rw [dif_neg (show ¬ (Fin.natAdd 128 i).val < 128 by show ¬ 128 + i.val < 128; omega),
    dif_neg (show ¬ (Fin.natAdd 3 j).val < 3 by show ¬ 3 + j.val < 3; omega)]
  congr 1
  · exact Fin.ext (by show 128 + i.val - 128 = i.val; omega)
  · exact Subsingleton.elim _ _

/-- The towers' four outputs are the concatenation of the colour tower's three and the distance tower's one. -/
theorem towers_eq_cat (q : Fin 4) :
    towers feat ff vd dW1 db1 dW2 db2 dW3 db3 rW1 rb1 rW2 rb2 rW3 rb3 q
      = cat (dense (layer (layer (embed feat ff vd) rW1 rb1) rW2 rb2) rW3 rb3)
          (dense (layer (layer feat dW1 db1) dW2 db2) dW3 db3) q := by
  unfold towers cat
  by_cases h : q.val < 3
  · rw [dif_pos h, dif_pos h]
  · rw [dif_neg h, dif_neg h]
    congr 1
    exact Subsingleton.elim _ _

theorem layer1_eq :
    layer (embed feat ff vd) (W1c dW1 rW1) (cat rb1 db1)
      = cat (layer (embed feat ff vd) rW1 rb1) (layer feat dW1 db1) := by
  have h := layer_first_rows (a := 12) (b := 29) (c := 128) (d := 128) (embed feat ff vd) (W1c dW1 rW1)
    rW1 dW1 rb1 db1 (W1c_left dW1 rW1) (W1c_right_top dW1 rW1) (W1c_right_bot dW1 rW1)
  have he : (fun i : Fin 12 => embed feat ff vd (Fin.castAdd 29 i)) = feat :=
    funext (embed_castAdd feat ff vd)
  rw [he] at h
  exact h

theorem layer2_eq (A B : Fin 128 → EReal) :
    layer (cat A B) (W2c dW2 rW2) (cat rb2 db2) = cat (layer A rW2 rb2) (layer B dW2 db2) :=
  layer_block_diag A B (W2c dW2 rW2) rW2 dW2 rb2 db2
    (W2c_11 dW2 rW2) (W2c_21 dW2 rW2) (W2c_12 dW2 rW2) (W2c_22 dW2 rW2)

theorem dense3_eq (A B : Fin 128 → EReal) :
    dense (cat A B) (W3c dW3 rW3) (cat rb3 db3) = cat (dense A rW3 rb3) (dense B dW3 db3) :=
  dense_block_diag A B (W3c dW3 rW3) rW3 dW3 rb3 db3
    (W3c_11 dW3 rW3) (W3c_21 dW3 rW3) (W3c_12 dW3 rW3) (W3c_22 dW3 rW3)

end Concrete

/-- The wide perceptron on the block-diagonal weights computes the two towers. -/
theorem merged_eq_towers (feat : Fin 12 → EReal) (ff : Fin 2 → EReal) (vd : Fin 3 → EReal)
    (dW1 : Fin 12 → Fin 128 → EReal) (db1 : Fin 128 → EReal) (dW2 : Fin 128 → Fin 128 → EReal) (db2 : Fin 128 → EReal)
    (dW3 : Fin 128 → Fin 1 → EReal) (db3 : Fin 1 → EReal)
    (rW1 : Fin 41 → Fin 128 → EReal) (rb1 : Fin 128 → EReal) (rW2 : Fin 128 → Fin 128 → EReal) (rb2 : Fin 128 → EReal)
    (rW3 : Fin 128 → Fin 3 → EReal) (rb3 : Fin 3 → EReal) (q : Fin 4) :
    merged (embed feat ff vd) (W1c dW1 rW1) (cat rb1 db1) (W2c dW2 rW2) (cat rb2 db2) (W3c dW3 rW3) (cat rb3 db3) q
      = towers feat ff vd dW1 db1 dW2 db2 dW3 db3 rW1 rb1 rW2 rb2 rW3 rb3 q := by
  rw [towers_eq_cat]
  unfold merged
  have h1 := layer1_eq feat ff vd dW1 db1 rW1 rb1
  have h2 := layer2_eq dW2 db2 rW2 rb2 (layer (embed feat ff vd) rW1 rb1) (layer feat dW1 db1)
  have h3 := dense3_eq dW3 db3 rW3 rb3 (layer (layer (embed feat ff vd) rW1 rb1) rW2 rb2)
    (layer (layer feat dW1 db1) dW2 db2)
  exact congrFun ((congrArg (fun x => dense (layer x (W2c dW2 rW2) (cat rb2 db2)) (W3c dW3 rW3) (cat rb3 db3)) h1).trans
    ((congrArg (fun x => dense x (W3c dW3 rW3) (cat rb3 db3)) h2).trans h3)) q

end Cert.Spec

end
-- ==== Proof.Stages.lean ====
/-
  The host operations of both programs, in stages.

  Each program's host operations fold over the device's buffer contents. The fold over a concatenation
  is the folds one after the other, so each program's run is read in stages: the kernel program's four
  short stages up to the clamped voxel corner, then the rest; the reference's first stage (the same
  quantities), its interpolation, then its two perceptrons.
-/
import proofs.«161056_j33775622815975_2_alg».proof.Proof.RefOps
import proofs.«161056_j33775622815975_2_alg».proof.Proof.Gen.KernelIdeal.Frame.Runs
import proofs.«161056_j33775622815975_2_alg».proof.Proof.Spec
import Idealize.ShloMosaic.Lib.StableHlo.Run
import Idealize.ShloMosaic.Lib.Pipeline.Frame
import Idealize.ShloMosaic.Lib.ValueIdx
import Idealize.ShloMosaic.Lib.ValueLayout
import Idealize.ShloMosaic.PureOps.Ideal.Laws
import Idealize.ShloMosaic.Lib.IdealHost

noncomputable section

namespace Cert.Stages

open Idealize.ShloMosaic Idealize.ShloMosaic.TcCoe Idealize.SL.Sem Idealize.ShloMosaic.StableHlo

/-- The kernel program's buffers after its four short stages (up to the clamped voxel corner). -/
def WK (m : (ℓ : Loc Cert.KernelIdeal.nD Cert.KernelIdeal.τ Cert.KernelIdeal.sig) → Buf (Elt Ideal) ℓ)
    (c : Dev Cert.KernelIdeal.nD) : Valuation Cert.KernelIdeal.τ Cert.KernelIdeal.sig (Elt Ideal) :=
  after Cert.KernelIdeal.Gen.hostOps0_3 (after Cert.KernelIdeal.Gen.hostOps0_2
    (after Cert.KernelIdeal.Gen.hostOps0_1 (after Cert.KernelIdeal.Gen.hostOps0 (fun b => m (c, b)))))

/-- The buffers the kernel's region finds are the last stage's fold over `WK`. -/
theorem V_eq (m : (ℓ : Loc Cert.KernelIdeal.nD Cert.KernelIdeal.τ Cert.KernelIdeal.sig) → Buf (Elt Ideal) ℓ)
    (c : Dev Cert.KernelIdeal.nD) (b : Ref Cert.KernelIdeal.sig .tc) :
    Cert.KernelIdeal.Gen.V (F := Ideal) m c b
      = after Cert.KernelIdeal.Gen.hostOps0_4 (WK m c) (Proc.devRef .tc b) := by
  unfold Cert.KernelIdeal.Gen.V WK
  rw [List.flatten_cons, List.flatten_cons, List.flatten_cons, List.flatten_cons, List.flatten_cons, List.flatten_nil,
    List.append_nil, StableHlo.after_append, StableHlo.after_append, StableHlo.after_append, StableHlo.after_append]

/-- The reference's buffers after its first stage (up to the clamped voxel corner). -/
def WR1 (m' : (ℓ : Loc Cert.ReferenceIdeal.nD Cert.ReferenceIdeal.τ Cert.ReferenceIdeal.sig) → Buf (Elt Ideal) ℓ)
    (c : Dev Cert.ReferenceIdeal.nD) : Valuation Cert.ReferenceIdeal.τ Cert.ReferenceIdeal.sig (Elt Ideal) :=
  after Cert.ReferenceIdeal.Value.opsA (fun b => m' (c, b))

/-- The reference's buffers after its interpolation stage. -/
def WR2 (m' : (ℓ : Loc Cert.ReferenceIdeal.nD Cert.ReferenceIdeal.τ Cert.ReferenceIdeal.sig) → Buf (Elt Ideal) ℓ)
    (c : Dev Cert.ReferenceIdeal.nD) : Valuation Cert.ReferenceIdeal.τ Cert.ReferenceIdeal.sig (Elt Ideal) :=
  after Cert.ReferenceIdeal.Value.opsB (WR1 m' c)

/-- The reference's run: every buffer ends at the last stage's fold over `WR2`. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run Cert.ReferenceIdeal.defs (onTc (τ := Cert.ReferenceIdeal.τ) (Cert.ReferenceIdeal.main (F := Ideal)))
      ⟨m', fun _ => 0, ρ'⟩ fun r => ∀ (c : Dev Cert.ReferenceIdeal.nD) (b : Ref Cert.ReferenceIdeal.sig .tc),
        r.2.mem ((c.tc : Thread Cert.ReferenceIdeal.nD Cert.ReferenceIdeal.τ).loc b)
          = after Cert.ReferenceIdeal.Value.opsC (WR2 m' c) (Proc.devRef .tc b) := by
  have h := run_seq Cert.ReferenceIdeal.Value.scopedRefs_eq Cert.ReferenceIdeal.Value.scopedSems_eq
    Cert.ReferenceIdeal.defs (Cert.ReferenceIdeal.main (F := Ideal)) (fun _ => Cert.ReferenceIdeal.Value.ops)
    Cert.ReferenceIdeal.Value.main_eq (fun _ => Cert.ReferenceIdeal.Value.ops_sub) m' ρ'
  refine (θ_run Cert.ReferenceIdeal.defs _ _).mono (fun _ h c b => (h c b).trans ?_) h
  unfold WR2 WR1
  rw [StableHlo.after_append, StableHlo.after_append]

/-! ### Buffers a stage leaves as they were -/

set_option maxHeartbeats 4000000 in
/-- The perceptrons' stage does not write argument 0. -/
theorem opsC_arg0 (W : Valuation Cert.ReferenceIdeal.τ Cert.ReferenceIdeal.sig (Elt Ideal)) :
    after Cert.ReferenceIdeal.Value.opsC W (Proc.devRef .tc Cert.ReferenceIdeal.main_arg0) = W (Proc.devRef .tc Cert.ReferenceIdeal.main_arg0) := by
  after_results_simp <;> rfl

set_option maxHeartbeats 4000000 in
/-- The perceptrons' stage does not write argument 1. -/
theorem opsC_arg1 (W : Valuation Cert.ReferenceIdeal.τ Cert.ReferenceIdeal.sig (Elt Ideal)) :
    after Cert.ReferenceIdeal.Value.opsC W (Proc.devRef .tc Cert.ReferenceIdeal.main_arg1) = W (Proc.devRef .tc Cert.ReferenceIdeal.main_arg1) := by
  after_results_simp <;> rfl

set_option maxHeartbeats 4000000 in
/-- The perceptrons' stage does not write argument 2. -/
theorem opsC_arg2 (W : Valuation Cert.ReferenceIdeal.τ Cert.ReferenceIdeal.sig (Elt Ideal)) :
    after Cert.ReferenceIdeal.Value.opsC W (Proc.devRef .tc Cert.ReferenceIdeal.main_arg2) = W (Proc.devRef .tc Cert.ReferenceIdeal.main_arg2) := by
  after_results_simp <;> rfl

set_option maxHeartbeats 4000000 in
/-- The perceptrons' stage does not write argument 3. -/
theorem opsC_arg3 (W : Valuation Cert.ReferenceIdeal.τ Cert.ReferenceIdeal.sig (Elt Ideal)) :
    after Cert.ReferenceIdeal.Value.opsC W (Proc.devRef .tc Cert.ReferenceIdeal.main_arg3) = W (Proc.devRef .tc Cert.ReferenceIdeal.main_arg3) := by
  after_results_simp <;> rfl

set_option maxHeartbeats 4000000 in
/-- The perceptrons' stage does not write argument 4. -/
theorem opsC_arg4 (W : Valuation Cert.ReferenceIdeal.τ Cert.ReferenceIdeal.sig (Elt Ideal)) :
    after Cert.ReferenceIdeal.Value.opsC W (Proc.devRef .tc Cert.ReferenceIdeal.main_arg4) = W (Proc.devRef .tc Cert.ReferenceIdeal.main_arg4) := by
  after_results_simp <;> rfl

set_option maxHeartbeats 4000000 in
/-- The perceptrons' stage does not write argument 5. -/
theorem opsC_arg5 (W : Valuation Cert.ReferenceIdeal.τ Cert.ReferenceIdeal.sig (Elt Ideal)) :
    after Cert.ReferenceIdeal.Value.opsC W (Proc.devRef .tc Cert.ReferenceIdeal.main_arg5) = W (Proc.devRef .tc Cert.ReferenceIdeal.main_arg5) := by
  after_results_simp <;> rfl

set_option maxHeartbeats 4000000 in
/-- The perceptrons' stage does not write argument 6. -/
theorem opsC_arg6 (W : Valuation Cert.ReferenceIdeal.τ Cert.ReferenceIdeal.sig (Elt Ideal)) :
    after Cert.ReferenceIdeal.Value.opsC W (Proc.devRef .tc Cert.ReferenceIdeal.main_arg6) = W (Proc.devRef .tc Cert.ReferenceIdeal.main_arg6) := by
  after_results_simp <;> rfl

set_option maxHeartbeats 4000000 in
/-- The perceptrons' stage does not write argument 7. -/
theorem opsC_arg7 (W : Valuation Cert.ReferenceIdeal.τ Cert.ReferenceIdeal.sig (Elt Ideal)) :
    after Cert.ReferenceIdeal.Value.opsC W (Proc.devRef .tc Cert.ReferenceIdeal.main_arg7) = W (Proc.devRef .tc Cert.ReferenceIdeal.main_arg7) := by
  after_results_simp <;> rfl

set_option maxHeartbeats 4000000 in
/-- The perceptrons' stage does not write argument 8. -/
theorem opsC_arg8 (W : Valuation Cert.ReferenceIdeal.τ Cert.ReferenceIdeal.sig (Elt Ideal)) :
    after Cert.ReferenceIdeal.Value.opsC W (Proc.devRef .tc Cert.ReferenceIdeal.main_arg8) = W (Proc.devRef .tc Cert.ReferenceIdeal.main_arg8) := by
  after_results_simp <;> rfl

set_option maxHeartbeats 4000000 in
/-- The perceptrons' stage does not write argument 9. -/
theorem opsC_arg9 (W : Valuation Cert.ReferenceIdeal.τ Cert.ReferenceIdeal.sig (Elt Ideal)) :
    after Cert.ReferenceIdeal.Value.opsC W (Proc.devRef .tc Cert.ReferenceIdeal.main_arg9) = W (Proc.devRef .tc Cert.ReferenceIdeal.main_arg9) := by
  after_results_simp <;> rfl

set_option maxHeartbeats 4000000 in
/-- The perceptrons' stage does not write argument 10. -/
theorem opsC_arg10 (W : Valuation Cert.ReferenceIdeal.τ Cert.ReferenceIdeal.sig (Elt Ideal)) :
    after Cert.ReferenceIdeal.Value.opsC W (Proc.devRef .tc Cert.ReferenceIdeal.main_arg10) = W (Proc.devRef .tc Cert.ReferenceIdeal.main_arg10) := by
  after_results_simp <;> rfl

set_option maxHeartbeats 4000000 in
/-- The perceptrons' stage does not write argument 11. -/
theorem opsC_arg11 (W : Valuation Cert.ReferenceIdeal.τ Cert.ReferenceIdeal.sig (Elt Ideal)) :
    after Cert.ReferenceIdeal.Value.opsC W (Proc.devRef .tc Cert.ReferenceIdeal.main_arg11) = W (Proc.devRef .tc Cert.ReferenceIdeal.main_arg11) := by
  after_results_simp <;> rfl

set_option maxHeartbeats 4000000 in
/-- The perceptrons' stage does not write argument 12. -/
theorem opsC_arg12 (W : Valuation Cert.ReferenceIdeal.τ Cert.ReferenceIdeal.sig (Elt Ideal)) :
    after Cert.ReferenceIdeal.Value.opsC W (Proc.devRef .tc Cert.ReferenceIdeal.main_arg12) = W (Proc.devRef .tc Cert.ReferenceIdeal.main_arg12) := by
  after_results_simp <;> rfl

set_option maxHeartbeats 4000000 in
/-- The perceptrons' stage does not write argument 13. -/
theorem opsC_arg13 (W : Valuation Cert.ReferenceIdeal.τ Cert.ReferenceIdeal.sig (Elt Ideal)) :
    after Cert.ReferenceIdeal.Value.opsC W (Proc.devRef .tc Cert.ReferenceIdeal.main_arg13) = W (Proc.devRef .tc Cert.ReferenceIdeal.main_arg13) := by
  after_results_simp <;> rfl

set_option maxHeartbeats 4000000 in
/-- The first two stages do not write argument 0. -/
theorem WR2_arg0 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg0)
      = m' ((c.tc : Thread Cert.ReferenceIdeal.nD Cert.ReferenceIdeal.τ).loc Cert.ReferenceIdeal.main_arg0) := by
  unfold WR2 WR1
  after_results_simp <;> rfl

set_option maxHeartbeats 4000000 in
/-- The first two stages do not write argument 1. -/
theorem WR2_arg1 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg1)
      = m' ((c.tc : Thread Cert.ReferenceIdeal.nD Cert.ReferenceIdeal.τ).loc Cert.ReferenceIdeal.main_arg1) := by
  unfold WR2 WR1
  after_results_simp <;> rfl

set_option maxHeartbeats 4000000 in
/-- The first two stages do not write argument 2. -/
theorem WR2_arg2 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg2)
      = m' ((c.tc : Thread Cert.ReferenceIdeal.nD Cert.ReferenceIdeal.τ).loc Cert.ReferenceIdeal.main_arg2) := by
  unfold WR2 WR1
  after_results_simp <;> rfl

set_option maxHeartbeats 4000000 in
/-- The first two stages do not write argument 3. -/
theorem WR2_arg3 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg3)
      = m' ((c.tc : Thread Cert.ReferenceIdeal.nD Cert.ReferenceIdeal.τ).loc Cert.ReferenceIdeal.main_arg3) := by
  unfold WR2 WR1
  after_results_simp <;> rfl

set_option maxHeartbeats 4000000 in
/-- The first two stages do not write argument 4. -/
theorem WR2_arg4 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg4)
      = m' ((c.tc : Thread Cert.ReferenceIdeal.nD Cert.ReferenceIdeal.τ).loc Cert.ReferenceIdeal.main_arg4) := by
  unfold WR2 WR1
  after_results_simp <;> rfl

set_option maxHeartbeats 4000000 in
/-- The first two stages do not write argument 5. -/
theorem WR2_arg5 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg5)
      = m' ((c.tc : Thread Cert.ReferenceIdeal.nD Cert.ReferenceIdeal.τ).loc Cert.ReferenceIdeal.main_arg5) := by
  unfold WR2 WR1
  after_results_simp <;> rfl

set_option maxHeartbeats 4000000 in
/-- The first two stages do not write argument 6. -/
theorem WR2_arg6 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg6)
      = m' ((c.tc : Thread Cert.ReferenceIdeal.nD Cert.ReferenceIdeal.τ).loc Cert.ReferenceIdeal.main_arg6) := by
  unfold WR2 WR1
  after_results_simp <;> rfl

set_option maxHeartbeats 4000000 in
/-- The first two stages do not write argument 7. -/
theorem WR2_arg7 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg7)
      = m' ((c.tc : Thread Cert.ReferenceIdeal.nD Cert.ReferenceIdeal.τ).loc Cert.ReferenceIdeal.main_arg7) := by
  unfold WR2 WR1
  after_results_simp <;> rfl

set_option maxHeartbeats 4000000 in
/-- The first two stages do not write argument 8. -/
theorem WR2_arg8 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg8)
      = m' ((c.tc : Thread Cert.ReferenceIdeal.nD Cert.ReferenceIdeal.τ).loc Cert.ReferenceIdeal.main_arg8) := by
  unfold WR2 WR1
  after_results_simp <;> rfl

set_option maxHeartbeats 4000000 in
/-- The first two stages do not write argument 9. -/
theorem WR2_arg9 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg9)
      = m' ((c.tc : Thread Cert.ReferenceIdeal.nD Cert.ReferenceIdeal.τ).loc Cert.ReferenceIdeal.main_arg9) := by
  unfold WR2 WR1
  after_results_simp <;> rfl

set_option maxHeartbeats 4000000 in
/-- The first two stages do not write argument 10. -/
theorem WR2_arg10 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg10)
      = m' ((c.tc : Thread Cert.ReferenceIdeal.nD Cert.ReferenceIdeal.τ).loc Cert.ReferenceIdeal.main_arg10) := by
  unfold WR2 WR1
  after_results_simp <;> rfl

set_option maxHeartbeats 4000000 in
/-- The first two stages do not write argument 11. -/
theorem WR2_arg11 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg11)
      = m' ((c.tc : Thread Cert.ReferenceIdeal.nD Cert.ReferenceIdeal.τ).loc Cert.ReferenceIdeal.main_arg11) := by
  unfold WR2 WR1
  after_results_simp <;> rfl

set_option maxHeartbeats 4000000 in
/-- The first two stages do not write argument 12. -/
theorem WR2_arg12 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg12)
      = m' ((c.tc : Thread Cert.ReferenceIdeal.nD Cert.ReferenceIdeal.τ).loc Cert.ReferenceIdeal.main_arg12) := by
  unfold WR2 WR1
  after_results_simp <;> rfl

set_option maxHeartbeats 4000000 in
/-- The first two stages do not write argument 13. -/
theorem WR2_arg13 (m' : (ℓ : Loc Cert.ReferenceIdeal.nD Cert.ReferenceIdeal.τ Cert.ReferenceIdeal.sig) → Buf (Elt Ideal) ℓ) (c : Dev Cert.ReferenceIdeal.nD) :
    WR2 m' c (Proc.devRef .tc Cert.ReferenceIdeal.main_arg13)
      = m' ((c.tc : Thread Cert.ReferenceIdeal.nD Cert.ReferenceIdeal.τ).loc Cert.ReferenceIdeal.main_arg13) := by
  unfold WR2 WR1
  after_results_simp <;> rfl

set_option maxHeartbeats 4000000 in
/-- The first stage does not write argument 1 (the voxel grid). -/
theorem WR1_arg1 (m' : (ℓ : Loc Cert.ReferenceIdeal.nD Cert.ReferenceIdeal.τ Cert.ReferenceIdeal.sig) → Buf (Elt Ideal) ℓ) (c : Dev Cert.ReferenceIdeal.nD) :
    WR1 m' c (Proc.devRef .tc Cert.ReferenceIdeal.main_arg1)
      = m' ((c.tc : Thread Cert.ReferenceIdeal.nD Cert.ReferenceIdeal.τ).loc Cert.ReferenceIdeal.main_arg1) := by
  unfold WR1
  after_results_simp <;> rfl

set_option maxHeartbeats 4000000 in
/-- The kernel program's short stages do not write argument 1 (the voxel grid). -/
theorem WK_arg1 (m : (ℓ : Loc Cert.KernelIdeal.nD Cert.KernelIdeal.τ Cert.KernelIdeal.sig) → Buf (Elt Ideal) ℓ) (c : Dev Cert.KernelIdeal.nD) :
    WK m c (Proc.devRef .tc Cert.KernelIdeal.main_arg1)
      = m ((c : Thread Cert.KernelIdeal.nD Cert.KernelIdeal.τ).loc Cert.KernelIdeal.main_arg1) := by
  unfold WK
  after_results_simp <;> rfl

/-! ### The frame features and the view direction: columns of the points' rows -/

set_option maxHeartbeats 4000000 in
/-- After the first two stages the frame-feature block is columns 3, 4 of the points. -/
theorem WR2_v1_eq (m' : (ℓ : Loc Cert.ReferenceIdeal.nD Cert.ReferenceIdeal.τ Cert.ReferenceIdeal.sig) → Buf (Elt Ideal) ℓ) (c : Dev Cert.ReferenceIdeal.nD) :
    (WR2 m' c (Proc.devRef .tc Cert.ReferenceIdeal.main_v1) : (⟨Cert.ReferenceIdeal.S1048576x2, .f32⟩ : BufTy).Contents (Elt Ideal))
      = extractStridedSlice Cert.ReferenceIdeal.S1048576x2 ![0, 3]
          (m' ((c.tc : Thread Cert.ReferenceIdeal.nD Cert.ReferenceIdeal.τ).loc Cert.ReferenceIdeal.main_arg0) : (⟨Cert.ReferenceIdeal.S1048576x8, .f32⟩ : BufTy).Contents (Elt Ideal))
          Cert.ReferenceIdeal.Gen.slices_S1048576x8_S1048576x2_0_3 := by
  unfold WR2 WR1
  after_results_simp <;> rfl

set_option maxHeartbeats 4000000 in
/-- After the first two stages the view-direction block is columns 5, 6, 7 of the points. -/
theorem WR2_v2_eq (m' : (ℓ : Loc Cert.ReferenceIdeal.nD Cert.ReferenceIdeal.τ Cert.ReferenceIdeal.sig) → Buf (Elt Ideal) ℓ) (c : Dev Cert.ReferenceIdeal.nD) :
    (WR2 m' c (Proc.devRef .tc Cert.ReferenceIdeal.main_v2) : (⟨Cert.ReferenceIdeal.S1048576x3, .f32⟩ : BufTy).Contents (Elt Ideal))
      = extractStridedSlice Cert.ReferenceIdeal.S1048576x3 ![0, 5]
          (m' ((c.tc : Thread Cert.ReferenceIdeal.nD Cert.ReferenceIdeal.τ).loc Cert.ReferenceIdeal.main_arg0) : (⟨Cert.ReferenceIdeal.S1048576x8, .f32⟩ : BufTy).Contents (Elt Ideal))
          Cert.ReferenceIdeal.Gen.slices_S1048576x8_S1048576x3_0_5 := by
  unfold WR2 WR1
  after_results_simp <;> rfl

/-- A point's frame features, read off the reference's buffers. -/
theorem WR2_v1 (m' : (ℓ : Loc Cert.ReferenceIdeal.nD Cert.ReferenceIdeal.τ Cert.ReferenceIdeal.sig) → Buf (Elt Ideal) ℓ) (c : Dev Cert.ReferenceIdeal.nD) (n : Fin 1048576) (a : Fin 2) :
    (WR2 m' c (Proc.devRef .tc Cert.ReferenceIdeal.main_v1) : Cert.ReferenceIdeal.S1048576x2.Idx → EReal) (ValueIdx.ix2 n a)
      = Cert.Spec.ffOf (fun k => (m' ((c.tc : Thread Cert.ReferenceIdeal.nD Cert.ReferenceIdeal.τ).loc Cert.ReferenceIdeal.main_arg0) : Cert.ReferenceIdeal.S1048576x8.Idx → EReal) (ValueIdx.ix2 n k)) a := by
  refine (congrFun (WR2_v1_eq m' c) (ValueIdx.ix2 n a)).trans ?_
  exact ValueIdx.slice2_axis1_apply 3 _ _ n a ⟨a.val + 3, by have := a.isLt; omega⟩ (Nat.add_comm _ _)

/-- A point's view direction, read off the reference's buffers. -/
theorem WR2_v2 (m' : (ℓ : Loc Cert.ReferenceIdeal.nD Cert.ReferenceIdeal.τ Cert.ReferenceIdeal.sig) → Buf (Elt Ideal) ℓ) (c : Dev Cert.ReferenceIdeal.nD) (n : Fin 1048576) (a : Fin 3) :
    (WR2 m' c (Proc.devRef .tc Cert.ReferenceIdeal.main_v2) : Cert.ReferenceIdeal.S1048576x3.Idx → EReal) (ValueIdx.ix2 n a)
      = Cert.Spec.vdOf (fun k => (m' ((c.tc : Thread Cert.ReferenceIdeal.nD Cert.ReferenceIdeal.τ).loc Cert.ReferenceIdeal.main_arg0) : Cert.ReferenceIdeal.S1048576x8.Idx → EReal) (ValueIdx.ix2 n k)) a := by
  refine (congrFun (WR2_v2_eq m' c) (ValueIdx.ix2 n a)).trans ?_
  exact ValueIdx.slice2_axis1_apply 5 _ _ n a ⟨a.val + 5, by have := a.isLt; omega⟩ (Nat.add_comm _ _)

/-! ### The first stage: the scaled position and the clamped corner -/

/-- The scaled position of a block of points: clip to [0, 1], times 159. -/
def posOf (X : FVec Ideal Cert.ReferenceIdeal.S1048576x3 .f32) : FVec Ideal Cert.ReferenceIdeal.S1048576x3 .f32 :=
  mulf
    (minimumf
      (broadcastInDim Cert.ReferenceIdeal.S1048576x3 ![] Cert.ReferenceIdeal.Gen.bcast_S_S1048576x3
        (constant (F := Ideal) Cert.ReferenceIdeal.S_ .f32 0x3F800000#32))
      (maximumf
        (broadcastInDim Cert.ReferenceIdeal.S1048576x3 ![] Cert.ReferenceIdeal.Gen.bcast_S_S1048576x3
          (constant (F := Ideal) Cert.ReferenceIdeal.S_ .f32 0x00000000#32))
        X))
    (broadcastInDim Cert.ReferenceIdeal.S1048576x3 ![] Cert.ReferenceIdeal.Gen.bcast_S_S1048576x3
      (constant (F := Ideal) Cert.ReferenceIdeal.S_ .f32 0x431F0000#32))

/-- The clamped voxel corner of a block of scaled positions: floor, clip to [0, 158]. -/
def cornerOf (P : FVec Ideal Cert.ReferenceIdeal.S1048576x3 .f32) : FVec Ideal Cert.ReferenceIdeal.S1048576x3 .f32 :=
  minimumf
    (broadcastInDim Cert.ReferenceIdeal.S1048576x3 ![] Cert.ReferenceIdeal.Gen.bcast_S_S1048576x3
      (sitofp (F := Ideal) .f32 (constantI Cert.ReferenceIdeal.S_ 32 158#32)))
    (maximumf
      (broadcastInDim Cert.ReferenceIdeal.S1048576x3 ![] Cert.ReferenceIdeal.Gen.bcast_S_S1048576x3
        (sitofp (F := Ideal) .f32 (constantI Cert.ReferenceIdeal.S_ 32 0#32)))
      (Host.floor P))

/-- Subtracting the zero row and dividing by the row of ones changes nothing on the extended reals. -/
theorem sub_zero_div_one (X : FVec Ideal Cert.ReferenceIdeal.S1048576x3 .f32) :
    Host.divf
      (subf X (broadcastInDim Cert.ReferenceIdeal.S1048576x3 ![0, 1] Cert.ReferenceIdeal.Gen.bcast_S1x3_S1048576x3_0_1
        (broadcastInDim Cert.ReferenceIdeal.S1x3 ![1] Cert.ReferenceIdeal.Gen.bcast_S3_S1x3_1
          (constant (F := Ideal) Cert.ReferenceIdeal.S3 .f32 0x00000000#32))))
      (broadcastInDim Cert.ReferenceIdeal.S1048576x3 ![0, 1] Cert.ReferenceIdeal.Gen.bcast_S1x3_S1048576x3_0_1
        (broadcastInDim Cert.ReferenceIdeal.S1x3 ![1] Cert.ReferenceIdeal.Gen.bcast_S3_S1x3_1
          (constant (F := Ideal) Cert.ReferenceIdeal.S3 .f32 0x3F800000#32)))
      = X := by
  funext i
  show Ideal.div (X i - Ideal.ofBits .f32 0x00000000#32) (Ideal.ofBits .f32 0x3F800000#32) = X i
  rw [Ideal.ofBits_zero_f32, Ideal.ofBits_one_f32, sub_zero]
  unfold Ideal.div
  rw [if_neg one_ne_zero, inv_one, mul_one]

/-- The kernel program's scaled position is `posOf` of the points' first three columns. -/
theorem WK_v3 (m : (ℓ : Loc Cert.KernelIdeal.nD Cert.KernelIdeal.τ Cert.KernelIdeal.sig) → Buf (Elt Ideal) ℓ)
    (c : Dev Cert.KernelIdeal.nD) :
    (WK m c (Proc.devRef .tc Cert.KernelIdeal.main_v3) : (⟨Cert.ReferenceIdeal.S1048576x3, .f32⟩ : BufTy).Contents (Elt Ideal))
      = posOf (extractStridedSlice Cert.ReferenceIdeal.S1048576x3 ![0, 0]
          (m ((c : Thread Cert.KernelIdeal.nD Cert.KernelIdeal.τ).loc Cert.KernelIdeal.main_arg0)
            : (⟨Cert.ReferenceIdeal.S1048576x8, .f32⟩ : BufTy).Contents (Elt Ideal))
          Cert.ReferenceIdeal.Gen.slices_S1048576x8_S1048576x3_0_0) := by
  unfold WK
  after_results_simp <;> rfl

/-- The kernel program's clamped corner is `cornerOf` of its scaled position. -/
theorem WK_v5 (m : (ℓ : Loc Cert.KernelIdeal.nD Cert.KernelIdeal.τ Cert.KernelIdeal.sig) → Buf (Elt Ideal) ℓ)
    (c : Dev Cert.KernelIdeal.nD) :
    (WK m c (Proc.devRef .tc Cert.KernelIdeal.main_v5) : (⟨Cert.ReferenceIdeal.S1048576x3, .f32⟩ : BufTy).Contents (Elt Ideal))
      = cornerOf (posOf (extractStridedSlice Cert.ReferenceIdeal.S1048576x3 ![0, 0]
          (m ((c : Thread Cert.KernelIdeal.nD Cert.KernelIdeal.τ).loc Cert.KernelIdeal.main_arg0)
            : (⟨Cert.ReferenceIdeal.S1048576x8, .f32⟩ : BufTy).Contents (Elt Ideal))
          Cert.ReferenceIdeal.Gen.slices_S1048576x8_S1048576x3_0_0)) := by
  unfold WK
  after_results_simp <;> rfl

/-- The reference's scaled position is `posOf` of the points' first three columns. -/
theorem WR1_v11 (m' : (ℓ : Loc Cert.ReferenceIdeal.nD Cert.ReferenceIdeal.τ Cert.ReferenceIdeal.sig) → Buf (Elt Ideal) ℓ)
    (c : Dev Cert.ReferenceIdeal.nD) :
    (WR1 m' c (Proc.devRef .tc Cert.ReferenceIdeal.main_v11) : (⟨Cert.ReferenceIdeal.S1048576x3, .f32⟩ : BufTy).Contents (Elt Ideal))
      = posOf (extractStridedSlice Cert.ReferenceIdeal.S1048576x3 ![0, 0]
          (m' ((c.tc : Thread Cert.ReferenceIdeal.nD Cert.ReferenceIdeal.τ).loc Cert.ReferenceIdeal.main_arg0)
            : (⟨Cert.ReferenceIdeal.S1048576x8, .f32⟩ : BufTy).Contents (Elt Ideal))
          Cert.ReferenceIdeal.Gen.slices_S1048576x8_S1048576x3_0_0) := by
  refine Eq.trans ?_ (congrArg posOf (sub_zero_div_one _))
  unfold WR1
  after_results_simp <;> rfl

/-- The reference's clamped corner is `cornerOf` of its scaled position. -/
theorem WR1_v13 (m' : (ℓ : Loc Cert.ReferenceIdeal.nD Cert.ReferenceIdeal.τ Cert.ReferenceIdeal.sig) → Buf (Elt Ideal) ℓ)
    (c : Dev Cert.ReferenceIdeal.nD) :
    (WR1 m' c (Proc.devRef .tc Cert.ReferenceIdeal.main_v13) : (⟨Cert.ReferenceIdeal.S1048576x3, .f32⟩ : BufTy).Contents (Elt Ideal))
      = cornerOf (posOf (extractStridedSlice Cert.ReferenceIdeal.S1048576x3 ![0, 0]
          (m' ((c.tc : Thread Cert.ReferenceIdeal.nD Cert.ReferenceIdeal.τ).loc Cert.ReferenceIdeal.main_arg0)
            : (⟨Cert.ReferenceIdeal.S1048576x8, .f32⟩ : BufTy).Contents (Elt Ideal))
          Cert.ReferenceIdeal.Gen.slices_S1048576x8_S1048576x3_0_0)) := by
  refine Eq.trans ?_ (congrArg (fun X => cornerOf (posOf X)) (sub_zero_div_one _))
  unfold WR1
  after_results_simp <;> rfl

/-- Both programs compute the same scaled position from the same points. -/
theorem stageA_pos (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c : Thread Cert.KernelIdeal.nD Cert.KernelIdeal.τ).loc Cert.KernelIdeal.main_arg0)) :
    (WK m c (Proc.devRef .tc Cert.KernelIdeal.main_v3) : (⟨Cert.ReferenceIdeal.S1048576x3, .f32⟩ : BufTy).Contents (Elt Ideal))
      = WR1 m' c (Proc.devRef .tc Cert.ReferenceIdeal.main_v11) := by
  rw [WK_v3, WR1_v11, h]

/-- Both programs compute the same clamped corner from the same points. -/
theorem stageA_corner (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c : Thread Cert.KernelIdeal.nD Cert.KernelIdeal.τ).loc Cert.KernelIdeal.main_arg0)) :
    (WK m c (Proc.devRef .tc Cert.KernelIdeal.main_v5) : (⟨Cert.ReferenceIdeal.S1048576x3, .f32⟩ : BufTy).Contents (Elt Ideal))
      = WR1 m' c (Proc.devRef .tc Cert.ReferenceIdeal.main_v13) := by
  rw [WK_v5, WR1_v13, h]

end Cert.Stages

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«161056_j33775622815975_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.RefTail.lean ====
/-
  The reference's last 71 host operations, read at an index.

  On top of the interpolated feature rows, the frame features and the view directions, the reference evaluates the
  distance tower on the features, embeds each point's row (the features, the direction with its sines and cosines at
  the scales 1, 2, 4, 8, the frame features: 41 columns), evaluates the colour tower on the embedded row, and lays
  the three colours beside the distance. Read at `(n, q)`, the result is `Cert.Spec.towers` of point `n`'s rows
  and the weights, at `q`.

  A layer of the host is a product with the weights plus the bias row stretched over the points; at `(n, j)` that is
  the sum over `k` of `row n k * W k j` plus `b j`. An array laid beside others is read through the piece that holds
  the column. The operations are taken in four stretches, each read from the contents the stretch before leaves.
-/
import proofs.«161056_j33775622815975_2_alg».proof.Proof.RefOps
import proofs.«161056_j33775622815975_2_alg».proof.Proof.Spec
import proofs.«161056_j33775622815975_2_alg».proof.Proof.LibHostDot
import proofs.«161056_j33775622815975_2_alg».proof.Proof.LibColumn

noncomputable section

open scoped BigOperators

namespace Cert.RefTail

open Idealize.ShloMosaic Idealize.ShloMosaic.TcCoe Idealize.ShloMosaic.StableHlo Idealize.ShloMosaic.ValueIdx Idealize.SL.Sem Cert.ReferenceIdeal Cert.ReferenceIdeal.Value

open Cert.LibPlainDot Cert.LibHostDot Cert.LibColumn

/-! ## A perceptron layer of the host, read at an index -/

section Dense
variable {R K C : Nat} (wf : DotDims.WF ⟨2, ![R, K]⟩ ⟨2, ![K, C]⟩ ⟨2, ![R, C]⟩ [1] [0] [0] [1] [] [])
  (h1 : (⟨1, ![C]⟩ : Shape).BroadcastsInDim ⟨2, ![1, C]⟩ ![1])
  (h2 : (⟨2, ![1, C]⟩ : Shape).BroadcastsInDim ⟨2, ![R, C]⟩ ![0, 1])
  (hz : (⟨0, ![]⟩ : Shape).BroadcastsInDim ⟨2, ![R, C]⟩ (![] : Fin 0 → Fin 2))
  (A : FVec Ideal ⟨2, ![R, K]⟩ .f32) (Wt : FVec Ideal ⟨2, ![K, C]⟩ .f32) (b : FVec Ideal ⟨1, ![C]⟩ .f32)

/-- The product with the weights plus the bias row stretched over the points, at `(n, j)`: the affine layer of
    point `n`'s row. -/
theorem hostDense_apply (n : Fin R) (j : Fin C) :
    addf (Host.dotGeneral (F := Ideal) (plainDot R K C wf) none A Wt)
        (broadcastInDim ⟨2, ![R, C]⟩ ![0, 1] h2 (broadcastInDim ⟨2, ![1, C]⟩ ![1] h1 b)) (ix2 n j)
      = Cert.Spec.dense (fun k => A (ix2 n k)) (fun k j => Wt (ix2 k j)) (fun j => b (ix1 j)) j := by
  rw [addf_apply, hostDot_apply, bcastInDim_1b_ab_apply, bcastInDim_b_1b_apply]
  rfl

/-- The same followed by the maximum with the zero word stretched to the whole array: the rectified layer. -/
theorem hostLayer_apply (n : Fin R) (j : Fin C) :
    maximumf (addf (Host.dotGeneral (F := Ideal) (plainDot R K C wf) none A Wt)
        (broadcastInDim ⟨2, ![R, C]⟩ ![0, 1] h2 (broadcastInDim ⟨2, ![1, C]⟩ ![1] h1 b)))
        (broadcastInDim ⟨2, ![R, C]⟩ ![] hz (constant (F := Ideal) ⟨0, ![]⟩ .f32 0x00000000#32)) (ix2 n j)
      = Cert.Spec.layer (fun k => A (ix2 n k)) (fun k j => Wt (ix2 k j)) (fun j => b (ix1 j)) j := by
  rw [maximumf_apply, hostDense_apply, bcastInDim_scalar_apply _ hz _ (fun a => a.elim0), constant_apply]
  rfl

end Dense

/-! ## Three layers -/

section Tower
variable {R K H J : Nat}
  (wf1 : DotDims.WF ⟨2, ![R, K]⟩ ⟨2, ![K, H]⟩ ⟨2, ![R, H]⟩ [1] [0] [0] [1] [] [])
  (wf2 : DotDims.WF ⟨2, ![R, H]⟩ ⟨2, ![H, H]⟩ ⟨2, ![R, H]⟩ [1] [0] [0] [1] [] [])
  (wf3 : DotDims.WF ⟨2, ![R, H]⟩ ⟨2, ![H, J]⟩ ⟨2, ![R, J]⟩ [1] [0] [0] [1] [] [])
  (hH1 : (⟨1, ![H]⟩ : Shape).BroadcastsInDim ⟨2, ![1, H]⟩ ![1])
  (hH2 : (⟨2, ![1, H]⟩ : Shape).BroadcastsInDim ⟨2, ![R, H]⟩ ![0, 1])
  (hJ1 : (⟨1, ![J]⟩ : Shape).BroadcastsInDim ⟨2, ![1, J]⟩ ![1])
  (hJ2 : (⟨2, ![1, J]⟩ : Shape).BroadcastsInDim ⟨2, ![R, J]⟩ ![0, 1])
  (hz : (⟨0, ![]⟩ : Shape).BroadcastsInDim ⟨2, ![R, H]⟩ (![] : Fin 0 → Fin 2))
  (A : FVec Ideal ⟨2, ![R, K]⟩ .f32)
  (W1 : FVec Ideal ⟨2, ![K, H]⟩ .f32) (b1 : FVec Ideal ⟨1, ![H]⟩ .f32)
  (W2 : FVec Ideal ⟨2, ![H, H]⟩ .f32) (b2 : FVec Ideal ⟨1, ![H]⟩ .f32)
  (W3 : FVec Ideal ⟨2, ![H, J]⟩ .f32) (b3 : FVec Ideal ⟨1, ![J]⟩ .f32)

/-- Two rectified layers and an affine one, as the host computes them on all points at once, read at `(n, q)`:
    the perceptron of point `n`'s row. -/
theorem hostTower_apply (n : Fin R) (q : Fin J) :
    addf (Host.dotGeneral (F := Ideal) (plainDot R H J wf3) none
          (maximumf (addf (Host.dotGeneral (F := Ideal) (plainDot R H H wf2) none
                (maximumf (addf (Host.dotGeneral (F := Ideal) (plainDot R K H wf1) none A W1)
                    (broadcastInDim ⟨2, ![R, H]⟩ ![0, 1] hH2 (broadcastInDim ⟨2, ![1, H]⟩ ![1] hH1 b1)))
                  (broadcastInDim ⟨2, ![R, H]⟩ ![] hz (constant (F := Ideal) ⟨0, ![]⟩ .f32 0x00000000#32)))
                W2)
              (broadcastInDim ⟨2, ![R, H]⟩ ![0, 1] hH2 (broadcastInDim ⟨2, ![1, H]⟩ ![1] hH1 b2)))
            (broadcastInDim ⟨2, ![R, H]⟩ ![] hz (constant (F := Ideal) ⟨0, ![]⟩ .f32 0x00000000#32)))
          W3)
        (broadcastInDim ⟨2, ![R, J]⟩ ![0, 1] hJ2 (broadcastInDim ⟨2, ![1, J]⟩ ![1] hJ1 b3)) (ix2 n q)
      = Cert.Spec.dense
          (Cert.Spec.layer
            (Cert.Spec.layer (fun k => A (ix2 n k)) (fun k j => W1 (ix2 k j)) (fun j => b1 (ix1 j)))
            (fun k j => W2 (ix2 k j)) (fun j => b2 (ix1 j)))
          (fun k j => W3 (ix2 k j)) (fun j => b3 (ix1 j)) q := by
  rw [hostDense_apply]
  refine congrArg (fun v => Cert.Spec.dense v _ _ q) (funext fun k => ?_)
  rw [hostLayer_apply]
  refine congrArg (fun v => Cert.Spec.layer v _ _ k) (funext fun k' => ?_)
  rw [hostLayer_apply]

end Tower

/-! ## Arrays laid side by side, read at an index -/

section Cat
variable {α : Type}

/-- Arrays `[R, C₁], [R, C₂], …` laid side by side into `[R, C]`, read at `(n, c)`: piece `k`, when the pieces
    before it have `pre` columns in all and `c = pre + c'` with `c'` a column of piece `k`, at `(n, c')`. -/
theorem catCols_apply {R C C₁ : Nat} (xs : List ((s : Shape) × (s.Idx → α)))
    (h : Shape.Concatenates (xs.map (·.1)) ⟨2, ![R, C]⟩ 1)
    (k : Nat) (x₁ : (⟨2, ![R, C₁]⟩ : Shape).Idx → α) (hxk : xs[k]? = some ⟨⟨2, ![R, C₁]⟩, x₁⟩)
    (pre : Nat)
    (hpre : (((xs.take k).map (·.1)).map fun s : Shape =>
      if h : s.rank = (⟨2, ![R, C]⟩ : Shape).rank then s.size ((1 : Fin 2).cast h.symm) else 0).sum = pre)
    (n : Fin R) (c : Fin C) (c' : Fin C₁) (hc : pre + c'.val = c.val) :
    concatenate ⟨2, ![R, C]⟩ 1 xs h (ix2 n c) = x₁ (ix2 n c') := by
  obtain ⟨hk, hxk'⟩ := List.getElem?_eq_some_iff.mp hxk
  refine concatenate_apply_piece 1 xs h (ix2 n c) k hk _ x₁ hxk' rfl pre hpre (ix2 n c') ?_ hc
  intro b hb
  match b with
  | ⟨0, _⟩ => rfl
  | ⟨1, _⟩ => exact absurd rfl hb

end Cat

/-! ## The embedded rows -/

section Embed
variable {R : Nat}
  (hs : (⟨0, ![]⟩ : Shape).BroadcastsInDim ⟨2, ![R, 3]⟩ (![] : Fin 0 → Fin 2))
  (vd : FVec Ideal ⟨2, ![R, 3]⟩ .f32)

/-- The sine of the directions scaled by a constant word, at `(n, a)`. -/
theorem hostSinScaled_apply (c : BitVec 32) (n : Fin R) (a : Fin 3) :
    Host.sin (mulf vd (broadcastInDim ⟨2, ![R, 3]⟩ ![] hs (constant (F := Ideal) ⟨0, ![]⟩ .f32 c))) (ix2 n a)
      = Ideal.sin (vd (ix2 n a) * Ideal.ofBits .f32 c) := by
  show FloatOps.hostUnary .sin _ = _
  rw [Ideal.hostUnary_sin_def, mulf_apply, bcastInDim_scalar_apply _ hs _ (fun a => a.elim0), constant_apply]

/-- The cosine of the directions scaled by a constant word, at `(n, a)`. -/
theorem hostCosScaled_apply (c : BitVec 32) (n : Fin R) (a : Fin 3) :
    Host.cos (mulf vd (broadcastInDim ⟨2, ![R, 3]⟩ ![] hs (constant (F := Ideal) ⟨0, ![]⟩ .f32 c))) (ix2 n a)
      = Ideal.cos (vd (ix2 n a) * Ideal.ofBits .f32 c) := by
  show FloatOps.hostUnary .cos _ = _
  rw [Ideal.hostUnary_cos_def, mulf_apply, bcastInDim_scalar_apply _ hs _ (fun a => a.elim0), constant_apply]

variable
  (hcat9 : Shape.Concatenates [(⟨2, ![R, 3]⟩ : Shape), ⟨2, ![R, 3]⟩, ⟨2, ![R, 3]⟩, ⟨2, ![R, 3]⟩, ⟨2, ![R, 3]⟩,
    ⟨2, ![R, 3]⟩, ⟨2, ![R, 3]⟩, ⟨2, ![R, 3]⟩, ⟨2, ![R, 3]⟩] ⟨2, ![R, 27]⟩ 1)
  (hcat3 : Shape.Concatenates [(⟨2, ![R, 12]⟩ : Shape), ⟨2, ![R, 27]⟩, ⟨2, ![R, 2]⟩] ⟨2, ![R, 41]⟩ 1)
  (feat : FVec Ideal ⟨2, ![R, 12]⟩ .f32) (ff : FVec Ideal ⟨2, ![R, 2]⟩ .f32)

/-- The features, the direction with its sines and cosines at the four scales, and the frame features laid side by
    side, read at `(n, k)`: column `k` of point `n`'s embedded row. -/
theorem hostEmbed_apply (n : Fin R) (k : Fin 41) :
    concatenate (α := Ideal .f32) ⟨2, ![R, 41]⟩ 1
      [⟨⟨2, ![R, 12]⟩, feat⟩,
       ⟨⟨2, ![R, 27]⟩, concatenate ⟨2, ![R, 27]⟩ 1
          [⟨⟨2, ![R, 3]⟩, vd⟩,
           ⟨⟨2, ![R, 3]⟩, Host.sin (mulf vd (broadcastInDim ⟨2, ![R, 3]⟩ ![] hs (constant (F := Ideal) ⟨0, ![]⟩ .f32 0x3F800000#32)))⟩,
           ⟨⟨2, ![R, 3]⟩, Host.cos (mulf vd (broadcastInDim ⟨2, ![R, 3]⟩ ![] hs (constant (F := Ideal) ⟨0, ![]⟩ .f32 0x3F800000#32)))⟩,
           ⟨⟨2, ![R, 3]⟩, Host.sin (mulf vd (broadcastInDim ⟨2, ![R, 3]⟩ ![] hs (constant (F := Ideal) ⟨0, ![]⟩ .f32 0x40000000#32)))⟩,
           ⟨⟨2, ![R, 3]⟩, Host.cos (mulf vd (broadcastInDim ⟨2, ![R, 3]⟩ ![] hs (constant (F := Ideal) ⟨0, ![]⟩ .f32 0x40000000#32)))⟩,
           ⟨⟨2, ![R, 3]⟩, Host.sin (mulf vd (broadcastInDim ⟨2, ![R, 3]⟩ ![] hs (constant (F := Ideal) ⟨0, ![]⟩ .f32 0x40800000#32)))⟩,
           ⟨⟨2, ![R, 3]⟩, Host.cos (mulf vd (broadcastInDim ⟨2, ![R, 3]⟩ ![] hs (constant (F := Ideal) ⟨0, ![]⟩ .f32 0x40800000#32)))⟩,
           ⟨⟨2, ![R, 3]⟩, Host.sin (mulf vd (broadcastInDim ⟨2, ![R, 3]⟩ ![] hs (constant (F := Ideal) ⟨0, ![]⟩ .f32 0x41000000#32)))⟩,
           ⟨⟨2, ![R, 3]⟩, Host.cos (mulf vd (broadcastInDim ⟨2, ![R, 3]⟩ ![] hs (constant (F := Ideal) ⟨0, ![]⟩ .f32 0x41000000#32)))⟩] hcat9⟩,
       ⟨⟨2, ![R, 2]⟩, ff⟩] hcat3 (ix2 n k)
      = Cert.Spec.embed (fun k => feat (ix2 n k)) (fun a => ff (ix2 n a)) (fun a => vd (ix2 n a)) k := by
  have hk := k.isLt
  unfold Cert.Spec.embed
  by_cases h0 : k.val < 12
  · rw [dif_pos h0]
    exact catCols_apply _ _ 0 feat rfl 0 rfl n k ⟨k.val, h0⟩ (by simp)
  rw [dif_neg h0]
  by_cases h1 : k.val < 15
  · rw [dif_pos h1]
    refine (catCols_apply _ _ 1 _ rfl 12 rfl n k ⟨k.val - 12, by omega⟩ (by first | omega | (simp; done) | (simp; omega))).trans ?_
    refine (catCols_apply _ _ 0 _ rfl 0 rfl n ⟨k.val - 12, by omega⟩ ⟨k.val - 12, by omega⟩ (by first | omega | (simp; done) | (simp; omega))).trans ?_
    rfl
  rw [dif_neg h1]
  by_cases h2 : k.val < 18
  · rw [dif_pos h2]
    refine (catCols_apply _ _ 1 _ rfl 12 rfl n k ⟨k.val - 12, by omega⟩ (by first | omega | (simp; done) | (simp; omega))).trans ?_
    refine (catCols_apply _ _ 1 _ rfl 3 rfl n ⟨k.val - 12, by omega⟩ ⟨k.val - 15, by omega⟩ (by first | omega | (simp; done) | (simp; omega))).trans ?_
    exact hostSinScaled_apply hs vd _ n _
  rw [dif_neg h2]
  by_cases h3 : k.val < 21
  · rw [dif_pos h3]
    refine (catCols_apply _ _ 1 _ rfl 12 rfl n k ⟨k.val - 12, by omega⟩ (by first | omega | (simp; done) | (simp; omega))).trans ?_
    refine (catCols_apply _ _ 2 _ rfl 6 rfl n ⟨k.val - 12, by omega⟩ ⟨k.val - 18, by omega⟩ (by first | omega | (simp; done) | (simp; omega))).trans ?_
    exact hostCosScaled_apply hs vd _ n _
  rw [dif_neg h3]
  by_cases h4 : k.val < 24
  · rw [dif_pos h4]
    refine (catCols_apply _ _ 1 _ rfl 12 rfl n k ⟨k.val - 12, by omega⟩ (by first | omega | (simp; done) | (simp; omega))).trans ?_
    refine (catCols_apply _ _ 3 _ rfl 9 rfl n ⟨k.val - 12, by omega⟩ ⟨k.val - 21, by omega⟩ (by first | omega | (simp; done) | (simp; omega))).trans ?_
    exact hostSinScaled_apply hs vd _ n _
  rw [dif_neg h4]
  by_cases h5 : k.val < 27
  · rw [dif_pos h5]
    refine (catCols_apply _ _ 1 _ rfl 12 rfl n k ⟨k.val - 12, by omega⟩ (by first | omega | (simp; done) | (simp; omega))).trans ?_
    refine (catCols_apply _ _ 4 _ rfl 12 rfl n ⟨k.val - 12, by omega⟩ ⟨k.val - 24, by omega⟩ (by first | omega | (simp; done) | (simp; omega))).trans ?_
    exact hostCosScaled_apply hs vd _ n _
  rw [dif_neg h5]
  by_cases h6 : k.val < 30
  · rw [dif_pos h6]
    refine (catCols_apply _ _ 1 _ rfl 12 rfl n k ⟨k.val - 12, by omega⟩ (by first | omega | (simp; done) | (simp; omega))).trans ?_
    refine (catCols_apply _ _ 5 _ rfl 15 rfl n ⟨k.val - 12, by omega⟩ ⟨k.val - 27, by omega⟩ (by first | omega | (simp; done) | (simp; omega))).trans ?_
    exact hostSinScaled_apply hs vd _ n _
  rw [dif_neg h6]
  by_cases h7 : k.val < 33
  · rw [dif_pos h7]
    refine (catCols_apply _ _ 1 _ rfl 12 rfl n k ⟨k.val - 12, by omega⟩ (by first | omega | (simp; done) | (simp; omega))).trans ?_
    refine (catCols_apply _ _ 6 _ rfl 18 rfl n ⟨k.val - 12, by omega⟩ ⟨k.val - 30, by omega⟩ (by first | omega | (simp; done) | (simp; omega))).trans ?_
    exact hostCosScaled_apply hs vd _ n _
  rw [dif_neg h7]
  by_cases h8 : k.val < 36
  · rw [dif_pos h8]
    refine (catCols_apply _ _ 1 _ rfl 12 rfl n k ⟨k.val - 12, by omega⟩ (by first | omega | (simp; done) | (simp; omega))).trans ?_
    refine (catCols_apply _ _ 7 _ rfl 21 rfl n ⟨k.val - 12, by omega⟩ ⟨k.val - 33, by omega⟩ (by first | omega | (simp; done) | (simp; omega))).trans ?_
    exact hostSinScaled_apply hs vd _ n _
  rw [dif_neg h8]
  by_cases h9 : k.val < 39
  · rw [dif_pos h9]
    refine (catCols_apply _ _ 1 _ rfl 12 rfl n k ⟨k.val - 12, by omega⟩ (by first | omega | (simp; done) | (simp; omega))).trans ?_
    refine (catCols_apply _ _ 8 _ rfl 24 rfl n ⟨k.val - 12, by omega⟩ ⟨k.val - 36, by omega⟩ (by first | omega | (simp; done) | (simp; omega))).trans ?_
    exact hostCosScaled_apply hs vd _ n _
  rw [dif_neg h9]
  exact catCols_apply _ _ 2 ff rfl 39 rfl n k ⟨k.val - 39, by omega⟩ (by first | omega | (simp; done) | (simp; omega))

end Embed

open Cert.ReferenceIdeal.Gen

/-! ## The last 71 operations in four runs

The same operations in the same order as the list they are cut from (`after_opsC`, by unfolding): the distance
tower and the scaled sines and cosines of the direction (50 operations), the two operations that lay the
embedded rows side by side, the colour tower (18 operations), and the colours laid beside the distance. -/

section Runs
variable {F : FTy → Type} [FloatOps F]

set_option maxHeartbeats 40000000 in
/-- The distance tower and the sines and cosines of the scaled directions. -/
abbrev seg1 : List (HloOp τ sig (Elt F)) :=
  [
    binary main_v185 main_arg2 main_v186 ((fun l r => Host.dotGeneral dot_S1048576x12_S12x128_S1048576x128_1_0_0_1_n_n none l r) : (⟨S1048576x12, .f32⟩ : BufTy).Contents (Elt F) → (⟨S12x128, .f32⟩ : BufTy).Contents (Elt F) → (⟨S1048576x128, .f32⟩ : BufTy).Contents (Elt F)),
    unary main_arg3 main_v187 (broadcastInDim S1x128 ![1] bcast_S128_S1x128_1 : (⟨S128, .f32⟩ : BufTy).Contents (Elt F) → (⟨S1x128, .f32⟩ : BufTy).Contents (Elt F)),
    unary main_v187 main_v188 (broadcastInDim S1048576x128 ![0, 1] bcast_S1x128_S1048576x128_0_1 : (⟨S1x128, .f32⟩ : BufTy).Contents (Elt F) → (⟨S1048576x128, .f32⟩ : BufTy).Contents (Elt F)),
    binary main_v186 main_v188 main_v189 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1048576x128, .f32⟩) main_call2_v0) (broadcastInDim S1048576x128 ![] bcast_S_S1048576x128),
    TRef.binary (TRef.of (T := ⟨S1048576x128, .f32⟩) main_v189) (TRef.of (T := ⟨S1048576x128, .f32⟩) main_call2_v0) (TRef.of (T := ⟨S1048576x128, .f32⟩) main_v190) maximumf,
    binary main_v190 main_arg4 main_v191 ((fun l r => Host.dotGeneral dot_S1048576x128_S128x128_S1048576x128_1_0_0_1_n_n none l r) : (⟨S1048576x128, .f32⟩ : BufTy).Contents (Elt F) → (⟨S128x128, .f32⟩ : BufTy).Contents (Elt F) → (⟨S1048576x128, .f32⟩ : BufTy).Contents (Elt F)),
    unary main_arg5 main_v192 (broadcastInDim S1x128 ![1] bcast_S128_S1x128_1 : (⟨S128, .f32⟩ : BufTy).Contents (Elt F) → (⟨S1x128, .f32⟩ : BufTy).Contents (Elt F)),
    unary main_v192 main_v193 (broadcastInDim S1048576x128 ![0, 1] bcast_S1x128_S1048576x128_0_1 : (⟨S1x128, .f32⟩ : BufTy).Contents (Elt F) → (⟨S1048576x128, .f32⟩ : BufTy).Contents (Elt F)),
    binary main_v191 main_v193 main_v194 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1048576x128, .f32⟩) main_call3_v0) (broadcastInDim S1048576x128 ![] bcast_S_S1048576x128),
    TRef.binary (TRef.of (T := ⟨S1048576x128, .f32⟩) main_v194) (TRef.of (T := ⟨S1048576x128, .f32⟩) main_call3_v0) (TRef.of (T := ⟨S1048576x128, .f32⟩) main_v195) maximumf,
    binary main_v195 main_arg6 main_v196 ((fun l r => Host.dotGeneral dot_S1048576x128_S128x1_S1048576x1_1_0_0_1_n_n none l r) : (⟨S1048576x128, .f32⟩ : BufTy).Contents (Elt F) → (⟨S128x1, .f32⟩ : BufTy).Contents (Elt F) → (⟨S1048576x1, .f32⟩ : BufTy).Contents (Elt F)),
    unary main_arg7 main_v197 (broadcastInDim S1x1 ![1] bcast_S1_S1x1_1 : (⟨S1, .f32⟩ : BufTy).Contents (Elt F) → (⟨S1x1, .f32⟩ : BufTy).Contents (Elt F)),
    unary main_v197 main_v198 (broadcastInDim S1048576x1 ![0, 1] bcast_S1x1_S1048576x1_0_1 : (⟨S1x1, .f32⟩ : BufTy).Contents (Elt F) → (⟨S1048576x1, .f32⟩ : BufTy).Contents (Elt F)),
    binary main_v196 main_v198 main_v199 (addf : (⟨S1048576x1, .f32⟩ : BufTy).Contents (Elt F) → (⟨S1048576x1, .f32⟩ : BufTy).Contents (Elt F) → (⟨S1048576x1, .f32⟩ : BufTy).Contents (Elt F)),
    nullary main_cst_47 (constant S_ .f32 0x3F800000#32),
    unary main_cst_47 main_v200 (broadcastInDim S1048576x3 ![] bcast_S_S1048576x3 : (⟨S_, .f32⟩ : BufTy).Contents (Elt F) → (⟨S1048576x3, .f32⟩ : BufTy).Contents (Elt F)),
    binary main_v2 main_v200 main_v201 (mulf : (⟨S1048576x3, .f32⟩ : BufTy).Contents (Elt F) → (⟨S1048576x3, .f32⟩ : BufTy).Contents (Elt F) → (⟨S1048576x3, .f32⟩ : BufTy).Contents (Elt F)),
    unary main_v201 main_v202 (Host.sin : (⟨S1048576x3, .f32⟩ : BufTy).Contents (Elt F) → (⟨S1048576x3, .f32⟩ : BufTy).Contents (Elt F)),
    nullary main_cst_48 (constant S_ .f32 0x3F800000#32),
    unary main_cst_48 main_v203 (broadcastInDim S1048576x3 ![] bcast_S_S1048576x3 : (⟨S_, .f32⟩ : BufTy).Contents (Elt F) → (⟨S1048576x3, .f32⟩ : BufTy).Contents (Elt F)),
    binary main_v2 main_v203 main_v204 (mulf : (⟨S1048576x3, .f32⟩ : BufTy).Contents (Elt F) → (⟨S1048576x3, .f32⟩ : BufTy).Contents (Elt F) → (⟨S1048576x3, .f32⟩ : BufTy).Contents (Elt F)),
    unary main_v204 main_v205 (Host.cos : (⟨S1048576x3, .f32⟩ : BufTy).Contents (Elt F) → (⟨S1048576x3, .f32⟩ : BufTy).Contents (Elt F)),
    nullary main_cst_49 (constant S_ .f32 0x40000000#32),
    unary main_cst_49 main_v206 (broadcastInDim S1048576x3 ![] bcast_S_S1048576x3 : (⟨S_, .f32⟩ : BufTy).Contents (Elt F) → (⟨S1048576x3, .f32⟩ : BufTy).Contents (Elt F)),
    binary main_v2 main_v206 main_v207 (mulf : (⟨S1048576x3, .f32⟩ : BufTy).Contents (Elt F) → (⟨S1048576x3, .f32⟩ : BufTy).Contents (Elt F) → (⟨S1048576x3, .f32⟩ : BufTy).Contents (Elt F)),
    unary main_v207 main_v208 (Host.sin : (⟨S1048576x3, .f32⟩ : BufTy).Contents (Elt F) → (⟨S1048576x3, .f32⟩ : BufTy).Contents (Elt F)),
    nullary main_cst_50 (constant S_ .f32 0x40000000#32),
    unary main_cst_50 main_v209 (broadcastInDim S1048576x3 ![] bcast_S_S1048576x3 : (⟨S_, .f32⟩ : BufTy).Contents (Elt F) → (⟨S1048576x3, .f32⟩ : BufTy).Contents (Elt F)),
    binary main_v2 main_v209 main_v210 (mulf : (⟨S1048576x3, .f32⟩ : BufTy).Contents (Elt F) → (⟨S1048576x3, .f32⟩ : BufTy).Contents (Elt F) → (⟨S1048576x3, .f32⟩ : BufTy).Contents (Elt F)),
    unary main_v210 main_v211 (Host.cos : (⟨S1048576x3, .f32⟩ : BufTy).Contents (Elt F) → (⟨S1048576x3, .f32⟩ : BufTy).Contents (Elt F)),
    nullary main_cst_51 (constant S_ .f32 0x40800000#32),
    unary main_cst_51 main_v212 (broadcastInDim S1048576x3 ![] bcast_S_S1048576x3 : (⟨S_, .f32⟩ : BufTy).Contents (Elt F) → (⟨S1048576x3, .f32⟩ : BufTy).Contents (Elt F)),
    binary main_v2 main_v212 main_v213 (mulf : (⟨S1048576x3, .f32⟩ : BufTy).Contents (Elt F) → (⟨S1048576x3, .f32⟩ : BufTy).Contents (Elt F) → (⟨S1048576x3, .f32⟩ : BufTy).Contents (Elt F)),
    unary main_v213 main_v214 (Host.sin : (⟨S1048576x3, .f32⟩ : BufTy).Contents (Elt F) → (⟨S1048576x3, .f32⟩ : BufTy).Contents (Elt F)),
    nullary main_cst_52 (constant S_ .f32 0x40800000#32),
    unary main_cst_52 main_v215 (broadcastInDim S1048576x3 ![] bcast_S_S1048576x3 : (⟨S_, .f32⟩ : BufTy).Contents (Elt F) → (⟨S1048576x3, .f32⟩ : BufTy).Contents (Elt F)),
    binary main_v2 main_v215 main_v216 (mulf : (⟨S1048576x3, .f32⟩ : BufTy).Contents (Elt F) → (⟨S1048576x3, .f32⟩ : BufTy).Contents (Elt F) → (⟨S1048576x3, .f32⟩ : BufTy).Contents (Elt F)),
    unary main_v216 main_v217 (Host.cos : (⟨S1048576x3, .f32⟩ : BufTy).Contents (Elt F) → (⟨S1048576x3, .f32⟩ : BufTy).Contents (Elt F)),
    nullary main_cst_53 (constant S_ .f32 0x41000000#32),
    unary main_cst_53 main_v218 (broadcastInDim S1048576x3 ![] bcast_S_S1048576x3 : (⟨S_, .f32⟩ : BufTy).Contents (Elt F) → (⟨S1048576x3, .f32⟩ : BufTy).Contents (Elt F)),
    binary main_v2 main_v218 main_v219 (mulf : (⟨S1048576x3, .f32⟩ : BufTy).Contents (Elt F) → (⟨S1048576x3, .f32⟩ : BufTy).Contents (Elt F) → (⟨S1048576x3, .f32⟩ : BufTy).Contents (Elt F)),
    unary main_v219 main_v220 (Host.sin : (⟨S1048576x3, .f32⟩ : BufTy).Contents (Elt F) → (⟨S1048576x3, .f32⟩ : BufTy).Contents (Elt F)),
    nullary main_cst_54 (constant S_ .f32 0x41000000#32),
    unary main_cst_54 main_v221 (broadcastInDim S1048576x3 ![] bcast_S_S1048576x3 : (⟨S_, .f32⟩ : BufTy).Contents (Elt F) → (⟨S1048576x3, .f32⟩ : BufTy).Contents (Elt F)),
    binary main_v2 main_v221 main_v222 (mulf : (⟨S1048576x3, .f32⟩ : BufTy).Contents (Elt F) → (⟨S1048576x3, .f32⟩ : BufTy).Contents (Elt F) → (⟨S1048576x3, .f32⟩ : BufTy).Contents (Elt F)),
    unary main_v222 main_v223 (Host.cos : (⟨S1048576x3, .f32⟩ : BufTy).Contents (Elt F) → (⟨S1048576x3, .f32⟩ : BufTy).Contents (Elt F)) ]

set_option maxHeartbeats 40000000 in
/-- The two operations that lay the embedded rows side by side. -/
abbrev seg2 : List (HloOp τ sig (Elt F)) :=
  [
    nary ![main_v2, main_v202, main_v205, main_v208, main_v211, main_v214, main_v217, main_v220, main_v223] main_v224 (fun u => concatenate S1048576x27 1 [⟨S1048576x3, u 0⟩, ⟨S1048576x3, u 1⟩, ⟨S1048576x3, u 2⟩, ⟨S1048576x3, u 3⟩, ⟨S1048576x3, u 4⟩, ⟨S1048576x3, u 5⟩, ⟨S1048576x3, u 6⟩, ⟨S1048576x3, u 7⟩, ⟨S1048576x3, u 8⟩] concatenates_S1048576x3_S1048576x3_S1048576x3_S1048576x3_S1048576x3_S1048576x3_S1048576x3_S1048576x3_S1048576x3_S1048576x27_d1),
    nary ![main_v185, main_v224, main_v1] main_v225 (fun u => concatenate S1048576x41 1 [⟨S1048576x12, u 0⟩, ⟨S1048576x27, u 1⟩, ⟨S1048576x2, u 2⟩] concatenates_S1048576x12_S1048576x27_S1048576x2_S1048576x41_d1) ]

set_option maxHeartbeats 40000000 in
/-- The colour tower on the embedded rows. -/
abbrev seg3 : List (HloOp τ sig (Elt F)) :=
  [
    binary main_v225 main_arg8 main_v226 ((fun l r => Host.dotGeneral dot_S1048576x41_S41x128_S1048576x128_1_0_0_1_n_n none l r) : (⟨S1048576x41, .f32⟩ : BufTy).Contents (Elt F) → (⟨S41x128, .f32⟩ : BufTy).Contents (Elt F) → (⟨S1048576x128, .f32⟩ : BufTy).Contents (Elt F)),
    unary main_arg9 main_v227 (broadcastInDim S1x128 ![1] bcast_S128_S1x128_1 : (⟨S128, .f32⟩ : BufTy).Contents (Elt F) → (⟨S1x128, .f32⟩ : BufTy).Contents (Elt F)),
    unary main_v227 main_v228 (broadcastInDim S1048576x128 ![0, 1] bcast_S1x128_S1048576x128_0_1 : (⟨S1x128, .f32⟩ : BufTy).Contents (Elt F) → (⟨S1048576x128, .f32⟩ : BufTy).Contents (Elt F)),
    binary main_v226 main_v228 main_v229 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1048576x128, .f32⟩) main_call4_v0) (broadcastInDim S1048576x128 ![] bcast_S_S1048576x128),
    TRef.binary (TRef.of (T := ⟨S1048576x128, .f32⟩) main_v229) (TRef.of (T := ⟨S1048576x128, .f32⟩) main_call4_v0) (TRef.of (T := ⟨S1048576x128, .f32⟩) main_v230) maximumf,
    binary main_v230 main_arg10 main_v231 ((fun l r => Host.dotGeneral dot_S1048576x128_S128x128_S1048576x128_1_0_0_1_n_n none l r) : (⟨S1048576x128, .f32⟩ : BufTy).Contents (Elt F) → (⟨S128x128, .f32⟩ : BufTy).Contents (Elt F) → (⟨S1048576x128, .f32⟩ : BufTy).Contents (Elt F)),
    unary main_arg11 main_v232 (broadcastInDim S1x128 ![1] bcast_S128_S1x128_1 : (⟨S128, .f32⟩ : BufTy).Contents (Elt F) → (⟨S1x128, .f32⟩ : BufTy).Contents (Elt F)),
    unary main_v232 main_v233 (broadcastInDim S1048576x128 ![0, 1] bcast_S1x128_S1048576x128_0_1 : (⟨S1x128, .f32⟩ : BufTy).Contents (Elt F) → (⟨S1048576x128, .f32⟩ : BufTy).Contents (Elt F)),
    binary main_v231 main_v233 main_v234 (addf : (⟨S1048576x128, .f32⟩ : BufTy).Contents (Elt F) → (⟨S1048576x128, .f32⟩ : BufTy).Contents (Elt F) → (⟨S1048576x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1048576x128, .f32⟩) main_call5_v0) (broadcastInDim S1048576x128 ![] bcast_S_S1048576x128),
    TRef.binary (TRef.of (T := ⟨S1048576x128, .f32⟩) main_v234) (TRef.of (T := ⟨S1048576x128, .f32⟩) main_call5_v0) (TRef.of (T := ⟨S1048576x128, .f32⟩) main_v235) maximumf,
    binary main_v235 main_arg12 main_v236 ((fun l r => Host.dotGeneral dot_S1048576x128_S128x3_S1048576x3_1_0_0_1_n_n none l r) : (⟨S1048576x128, .f32⟩ : BufTy).Contents (Elt F) → (⟨S128x3, .f32⟩ : BufTy).Contents (Elt F) → (⟨S1048576x3, .f32⟩ : BufTy).Contents (Elt F)),
    unary main_arg13 main_v237 (broadcastInDim S1x3 ![1] bcast_S3_S1x3_1 : (⟨S3, .f32⟩ : BufTy).Contents (Elt F) → (⟨S1x3, .f32⟩ : BufTy).Contents (Elt F)),
    unary main_v237 main_v238 (broadcastInDim S1048576x3 ![0, 1] bcast_S1x3_S1048576x3_0_1 : (⟨S1x3, .f32⟩ : BufTy).Contents (Elt F) → (⟨S1048576x3, .f32⟩ : BufTy).Contents (Elt F)),
    binary main_v236 main_v238 main_v239 (addf : (⟨S1048576x3, .f32⟩ : BufTy).Contents (Elt F) → (⟨S1048576x3, .f32⟩ : BufTy).Contents (Elt F) → (⟨S1048576x3, .f32⟩ : BufTy).Contents (Elt F)) ]

set_option maxHeartbeats 40000000 in
/-- The colours laid beside the distance. -/
abbrev seg4 : List (HloOp τ sig (Elt F)) :=
  [
    binary main_v239 main_v199 main_v240 ((fun a b => concatenate S1048576x4 1 [⟨S1048576x3, a⟩, ⟨S1048576x1, b⟩] concatenates_S1048576x3_S1048576x1_S1048576x4_d1) : (⟨S1048576x3, .f32⟩ : BufTy).Contents (Elt F) → (⟨S1048576x1, .f32⟩ : BufTy).Contents (Elt F) → (⟨S1048576x4, .f32⟩ : BufTy).Contents (Elt F)) ]

end Runs

set_option maxHeartbeats 40000000 in
/-- The four runs one after the other are the whole list's run. -/
theorem after_opsC (W : Valuation τ sig (Elt Ideal)) :
    after (opsC (F := Ideal)) W
      = after (seg4 (F := Ideal)) (after (seg3 (F := Ideal)) (after (seg2 (F := Ideal)) (after (seg1 (F := Ideal)) W))) := rfl

/-! ## The runs read at an index -/

set_option maxHeartbeats 4000000 in
/-- The last run at `(n, q)`: a colour for `q < 3`, the distance for `q = 3`. -/
theorem seg4_apply (V : Valuation τ sig (Elt Ideal)) (n : Fin 1048576) (q : Fin 4) :
    (after (seg4 (F := Ideal)) V (Proc.devRef .tc main_v240) : S1048576x4.Idx → EReal) (ix2 n q)
      = if h : q.val < 3 then (V (Proc.devRef .tc main_v239) : S1048576x3.Idx → EReal) (ix2 n ⟨q.val, h⟩)
        else (V (Proc.devRef .tc main_v199) : S1048576x1.Idx → EReal) (ix2 n 0) := by
  simp only [after_cons, after_nil]
  rw [binary_result]
  have hq := q.isLt
  by_cases h : q.val < 3
  · rw [dif_pos h]
    exact catCols_apply _ _ 0 _ rfl 0 rfl n q ⟨q.val, h⟩ (by simp)
  · rw [dif_neg h]
    exact catCols_apply _ _ 1 _ rfl 3 rfl n q 0 (by first | omega | (simp; done) | (simp; omega))

set_option maxHeartbeats 4000000 in
/-- The colour tower's run, at `(n, q)`: the perceptron of point `n`'s embedded row. -/
theorem seg3_v239_apply (V : Valuation τ sig (Elt Ideal)) (n : Fin 1048576) (q : Fin 3) :
    ((after (seg3 (F := Ideal)) V) (Proc.devRef .tc main_v239) : S1048576x3.Idx → EReal) (ix2 n q)
      = Cert.Spec.dense (Cert.Spec.layer (Cert.Spec.layer
            (fun k => (V (Proc.devRef .tc main_v225) : S1048576x41.Idx → EReal) (ix2 n k))
            (fun k j => (V (Proc.devRef .tc main_arg8) : S41x128.Idx → EReal) (ix2 k j)) (fun j => (V (Proc.devRef .tc main_arg9) : S128.Idx → EReal) (ix1 j)))
            (fun k j => (V (Proc.devRef .tc main_arg10) : S128x128.Idx → EReal) (ix2 k j)) (fun j => (V (Proc.devRef .tc main_arg11) : S128.Idx → EReal) (ix1 j)))
          (fun k j => (V (Proc.devRef .tc main_arg12) : S128x3.Idx → EReal) (ix2 k j)) (fun j => (V (Proc.devRef .tc main_arg13) : S3.Idx → EReal) (ix1 j)) q := by
  after_results_simp
  exact hostTower_apply (R := 1048576) (K := 41) (H := 128) (J := 3)
    dot_S1048576x41_S41x128_S1048576x128_1_0_0_1_n_n_wf dot_S1048576x128_S128x128_S1048576x128_1_0_0_1_n_n_wf
    dot_S1048576x128_S128x3_S1048576x3_1_0_0_1_n_n_wf
    bcast_S128_S1x128_1 bcast_S1x128_S1048576x128_0_1 bcast_S3_S1x3_1 bcast_S1x3_S1048576x3_0_1 bcast_S_S1048576x128
    _ _ _ _ _ _ _ n q

set_option maxHeartbeats 4000000 in
/-- This run does not write the buffer. -/
theorem seg3_keep_v199 (V : Valuation τ sig (Elt Ideal)) :
    after (seg3 (F := Ideal)) V (Proc.devRef .tc main_v199) = V (Proc.devRef .tc main_v199) := by
  after_results_simp

/-- The two layings side by side, from any contents. -/
theorem seg2_v225 (V : Valuation τ sig (Elt Ideal)) :
    (after (seg2 (F := Ideal)) V (Proc.devRef .tc main_v225) : S1048576x41.Idx → EReal)
      = concatenate S1048576x41 1
          [⟨S1048576x12, (V (Proc.devRef .tc main_v185) : S1048576x12.Idx → EReal)⟩,
           ⟨S1048576x27, concatenate S1048576x27 1
          [⟨S1048576x3, (V (Proc.devRef .tc main_v2) : S1048576x3.Idx → EReal)⟩,
           ⟨S1048576x3, (V (Proc.devRef .tc main_v202) : S1048576x3.Idx → EReal)⟩,
           ⟨S1048576x3, (V (Proc.devRef .tc main_v205) : S1048576x3.Idx → EReal)⟩,
           ⟨S1048576x3, (V (Proc.devRef .tc main_v208) : S1048576x3.Idx → EReal)⟩,
           ⟨S1048576x3, (V (Proc.devRef .tc main_v211) : S1048576x3.Idx → EReal)⟩,
           ⟨S1048576x3, (V (Proc.devRef .tc main_v214) : S1048576x3.Idx → EReal)⟩,
           ⟨S1048576x3, (V (Proc.devRef .tc main_v217) : S1048576x3.Idx → EReal)⟩,
           ⟨S1048576x3, (V (Proc.devRef .tc main_v220) : S1048576x3.Idx → EReal)⟩,
           ⟨S1048576x3, (V (Proc.devRef .tc main_v223) : S1048576x3.Idx → EReal)⟩]
             concatenates_S1048576x3_S1048576x3_S1048576x3_S1048576x3_S1048576x3_S1048576x3_S1048576x3_S1048576x3_S1048576x3_S1048576x27_d1⟩,
           ⟨S1048576x2, (V (Proc.devRef .tc main_v1) : S1048576x2.Idx → EReal)⟩]
          concatenates_S1048576x12_S1048576x27_S1048576x2_S1048576x41_d1 := rfl

set_option maxHeartbeats 4000000 in
/-- This run does not write the buffer. -/
theorem seg2_keep_v199 (V : Valuation τ sig (Elt Ideal)) :
    after (seg2 (F := Ideal)) V (Proc.devRef .tc main_v199) = V (Proc.devRef .tc main_v199) := by
  after_results

set_option maxHeartbeats 4000000 in
/-- This run does not write the buffer. -/
theorem seg2_keep_arg8 (V : Valuation τ sig (Elt Ideal)) :
    after (seg2 (F := Ideal)) V (Proc.devRef .tc main_arg8) = V (Proc.devRef .tc main_arg8) := by
  after_results

set_option maxHeartbeats 4000000 in
/-- This run does not write the buffer. -/
theorem seg2_keep_arg9 (V : Valuation τ sig (Elt Ideal)) :
    after (seg2 (F := Ideal)) V (Proc.devRef .tc main_arg9) = V (Proc.devRef .tc main_arg9) := by
  after_results

set_option maxHeartbeats 4000000 in
/-- This run does not write the buffer. -/
theorem seg2_keep_arg10 (V : Valuation τ sig (Elt Ideal)) :
    after (seg2 (F := Ideal)) V (Proc.devRef .tc main_arg10) = V (Proc.devRef .tc main_arg10) := by
  after_results

set_option maxHeartbeats 4000000 in
/-- This run does not write the buffer. -/
theorem seg2_keep_arg11 (V : Valuation τ sig (Elt Ideal)) :
    after (seg2 (F := Ideal)) V (Proc.devRef .tc main_arg11) = V (Proc.devRef .tc main_arg11) := by
  after_results

set_option maxHeartbeats 4000000 in
/-- This run does not write the buffer. -/
theorem seg2_keep_arg12 (V : Valuation τ sig (Elt Ideal)) :
    after (seg2 (F := Ideal)) V (Proc.devRef .tc main_arg12) = V (Proc.devRef .tc main_arg12) := by
  after_results

set_option maxHeartbeats 4000000 in
/-- This run does not write the buffer. -/
theorem seg2_keep_arg13 (V : Valuation τ sig (Elt Ideal)) :
    after (seg2 (F := Ideal)) V (Proc.devRef .tc main_arg13) = V (Proc.devRef .tc main_arg13) := by
  after_results

set_option maxHeartbeats 4000000 in
/-- This run does not write the buffer. -/
theorem seg1_keep_v185 (V : Valuation τ sig (Elt Ideal)) :
    after (seg1 (F := Ideal)) V (Proc.devRef .tc main_v185) = V (Proc.devRef .tc main_v185) := by
  after_results_simp

set_option maxHeartbeats 4000000 in
/-- This run does not write the buffer. -/
theorem seg1_keep_v1 (V : Valuation τ sig (Elt Ideal)) :
    after (seg1 (F := Ideal)) V (Proc.devRef .tc main_v1) = V (Proc.devRef .tc main_v1) := by
  after_results_simp

set_option maxHeartbeats 4000000 in
/-- This run does not write the buffer. -/
theorem seg1_keep_v2 (V : Valuation τ sig (Elt Ideal)) :
    after (seg1 (F := Ideal)) V (Proc.devRef .tc main_v2) = V (Proc.devRef .tc main_v2) := by
  after_results_simp

set_option maxHeartbeats 4000000 in
/-- This run does not write the buffer. -/
theorem seg1_keep_arg8 (V : Valuation τ sig (Elt Ideal)) :
    after (seg1 (F := Ideal)) V (Proc.devRef .tc main_arg8) = V (Proc.devRef .tc main_arg8) := by
  after_results_simp

set_option maxHeartbeats 4000000 in
/-- This run does not write the buffer. -/
theorem seg1_keep_arg9 (V : Valuation τ sig (Elt Ideal)) :
    after (seg1 (F := Ideal)) V (Proc.devRef .tc main_arg9) = V (Proc.devRef .tc main_arg9) := by
  after_results_simp

set_option maxHeartbeats 4000000 in
/-- This run does not write the buffer. -/
theorem seg1_keep_arg10 (V : Valuation τ sig (Elt Ideal)) :
    after (seg1 (F := Ideal)) V (Proc.devRef .tc main_arg10) = V (Proc.devRef .tc main_arg10) := by
  after_results_simp

set_option maxHeartbeats 4000000 in
/-- This run does not write the buffer. -/
theorem seg1_keep_arg11 (V : Valuation τ sig (Elt Ideal)) :
    after (seg1 (F := Ideal)) V (Proc.devRef .tc main_arg11) = V (Proc.devRef .tc main_arg11) := by
  after_results_simp

set_option maxHeartbeats 4000000 in
/-- This run does not write the buffer. -/
theorem seg1_keep_arg12 (V : Valuation τ sig (Elt Ideal)) :
    after (seg1 (F := Ideal)) V (Proc.devRef .tc main_arg12) = V (Proc.devRef .tc main_arg12) := by
  after_results_simp

set_option maxHeartbeats 4000000 in
/-- This run does not write the buffer. -/
theorem seg1_keep_arg13 (V : Valuation τ sig (Elt Ideal)) :
    after (seg1 (F := Ideal)) V (Proc.devRef .tc main_arg13) = V (Proc.devRef .tc main_arg13) := by
  after_results_simp

set_option maxHeartbeats 4000000 in
/-- The first run at this buffer: the sine of the directions scaled by the word. -/
theorem seg1_v202 (W : Valuation τ sig (Elt Ideal)) :
    (after (seg1 (F := Ideal)) W (Proc.devRef .tc main_v202) : S1048576x3.Idx → EReal)
      = Host.sin (mulf (F := Ideal) (W (Proc.devRef .tc main_v2) : S1048576x3.Idx → EReal)
          (broadcastInDim S1048576x3 ![] bcast_S_S1048576x3 (constant (F := Ideal) S_ .f32 0x3F800000#32))) := by
  after_results_simp

set_option maxHeartbeats 4000000 in
/-- The first run at this buffer: the cosine of the directions scaled by the word. -/
theorem seg1_v205 (W : Valuation τ sig (Elt Ideal)) :
    (after (seg1 (F := Ideal)) W (Proc.devRef .tc main_v205) : S1048576x3.Idx → EReal)
      = Host.cos (mulf (F := Ideal) (W (Proc.devRef .tc main_v2) : S1048576x3.Idx → EReal)
          (broadcastInDim S1048576x3 ![] bcast_S_S1048576x3 (constant (F := Ideal) S_ .f32 0x3F800000#32))) := by
  after_results_simp

set_option maxHeartbeats 4000000 in
/-- The first run at this buffer: the sine of the directions scaled by the word. -/
theorem seg1_v208 (W : Valuation τ sig (Elt Ideal)) :
    (after (seg1 (F := Ideal)) W (Proc.devRef .tc main_v208) : S1048576x3.Idx → EReal)
      = Host.sin (mulf (F := Ideal) (W (Proc.devRef .tc main_v2) : S1048576x3.Idx → EReal)
          (broadcastInDim S1048576x3 ![] bcast_S_S1048576x3 (constant (F := Ideal) S_ .f32 0x40000000#32))) := by
  after_results_simp

set_option maxHeartbeats 4000000 in
/-- The first run at this buffer: the cosine of the directions scaled by the word. -/
theorem seg1_v211 (W : Valuation τ sig (Elt Ideal)) :
    (after (seg1 (F := Ideal)) W (Proc.devRef .tc main_v211) : S1048576x3.Idx → EReal)
      = Host.cos (mulf (F := Ideal) (W (Proc.devRef .tc main_v2) : S1048576x3.Idx → EReal)
          (broadcastInDim S1048576x3 ![] bcast_S_S1048576x3 (constant (F := Ideal) S_ .f32 0x40000000#32))) := by
  after_results_simp

set_option maxHeartbeats 4000000 in
/-- The first run at this buffer: the sine of the directions scaled by the word. -/
theorem seg1_v214 (W : Valuation τ sig (Elt Ideal)) :
    (after (seg1 (F := Ideal)) W (Proc.devRef .tc main_v214) : S1048576x3.Idx → EReal)
      = Host.sin (mulf (F := Ideal) (W (Proc.devRef .tc main_v2) : S1048576x3.Idx → EReal)
          (broadcastInDim S1048576x3 ![] bcast_S_S1048576x3 (constant (F := Ideal) S_ .f32 0x40800000#32))) := by
  after_results_simp

set_option maxHeartbeats 4000000 in
/-- The first run at this buffer: the cosine of the directions scaled by the word. -/
theorem seg1_v217 (W : Valuation τ sig (Elt Ideal)) :
    (after (seg1 (F := Ideal)) W (Proc.devRef .tc main_v217) : S1048576x3.Idx → EReal)
      = Host.cos (mulf (F := Ideal) (W (Proc.devRef .tc main_v2) : S1048576x3.Idx → EReal)
          (broadcastInDim S1048576x3 ![] bcast_S_S1048576x3 (constant (F := Ideal) S_ .f32 0x40800000#32))) := by
  after_results_simp

set_option maxHeartbeats 4000000 in
/-- The first run at this buffer: the sine of the directions scaled by the word. -/
theorem seg1_v220 (W : Valuation τ sig (Elt Ideal)) :
    (after (seg1 (F := Ideal)) W (Proc.devRef .tc main_v220) : S1048576x3.Idx → EReal)
      = Host.sin (mulf (F := Ideal) (W (Proc.devRef .tc main_v2) : S1048576x3.Idx → EReal)
          (broadcastInDim S1048576x3 ![] bcast_S_S1048576x3 (constant (F := Ideal) S_ .f32 0x41000000#32))) := by
  after_results_simp

set_option maxHeartbeats 4000000 in
/-- The first run at this buffer: the cosine of the directions scaled by the word. -/
theorem seg1_v223 (W : Valuation τ sig (Elt Ideal)) :
    (after (seg1 (F := Ideal)) W (Proc.devRef .tc main_v223) : S1048576x3.Idx → EReal)
      = Host.cos (mulf (F := Ideal) (W (Proc.devRef .tc main_v2) : S1048576x3.Idx → EReal)
          (broadcastInDim S1048576x3 ![] bcast_S_S1048576x3 (constant (F := Ideal) S_ .f32 0x41000000#32))) := by
  after_results_simp

set_option maxHeartbeats 4000000 in
/-- The distance tower's run, at `(n, q)`: the perceptron of point `n`'s feature row. -/
theorem seg1_v199_apply (W : Valuation τ sig (Elt Ideal)) (n : Fin 1048576) (q : Fin 1) :
    ((after (seg1 (F := Ideal)) W) (Proc.devRef .tc main_v199) : S1048576x1.Idx → EReal) (ix2 n q)
      = Cert.Spec.dense (Cert.Spec.layer (Cert.Spec.layer
            (fun k => (W (Proc.devRef .tc main_v185) : S1048576x12.Idx → EReal) (ix2 n k))
            (fun k j => (W (Proc.devRef .tc main_arg2) : S12x128.Idx → EReal) (ix2 k j)) (fun j => (W (Proc.devRef .tc main_arg3) : S128.Idx → EReal) (ix1 j)))
            (fun k j => (W (Proc.devRef .tc main_arg4) : S128x128.Idx → EReal) (ix2 k j)) (fun j => (W (Proc.devRef .tc main_arg5) : S128.Idx → EReal) (ix1 j)))
          (fun k j => (W (Proc.devRef .tc main_arg6) : S128x1.Idx → EReal) (ix2 k j)) (fun j => (W (Proc.devRef .tc main_arg7) : S1.Idx → EReal) (ix1 j)) q := by
  after_results_simp
  exact hostTower_apply (R := 1048576) (K := 12) (H := 128) (J := 1)
    dot_S1048576x12_S12x128_S1048576x128_1_0_0_1_n_n_wf dot_S1048576x128_S128x128_S1048576x128_1_0_0_1_n_n_wf
    dot_S1048576x128_S128x1_S1048576x1_1_0_0_1_n_n_wf
    bcast_S128_S1x128_1 bcast_S1x128_S1048576x128_0_1 bcast_S1_S1x1_1 bcast_S1x1_S1048576x1_0_1 bcast_S_S1048576x128
    _ _ _ _ _ _ _ n q

set_option maxHeartbeats 4000000 in
/-- The first two runs at the embedded rows' buffer, at `(n, k)`: column `k` of point `n`'s embedded row. -/
theorem seg12_v225_apply (W : Valuation τ sig (Elt Ideal)) (n : Fin 1048576) (k : Fin 41) :
    ((after (seg2 (F := Ideal)) (after (seg1 (F := Ideal)) W)) (Proc.devRef .tc main_v225) : S1048576x41.Idx → EReal) (ix2 n k)
      = Cert.Spec.embed (fun k => (W (Proc.devRef .tc main_v185) : S1048576x12.Idx → EReal) (ix2 n k)) (fun a => (W (Proc.devRef .tc main_v1) : S1048576x2.Idx → EReal) (ix2 n a))
          (fun a => (W (Proc.devRef .tc main_v2) : S1048576x3.Idx → EReal) (ix2 n a)) k := by
  rw [seg2_v225, seg1_keep_v185, seg1_keep_v1, seg1_keep_v2, seg1_v202, seg1_v205, seg1_v208, seg1_v211, seg1_v214, seg1_v217, seg1_v220, seg1_v223]
  exact hostEmbed_apply (R := 1048576) bcast_S_S1048576x3 _
    concatenates_S1048576x3_S1048576x3_S1048576x3_S1048576x3_S1048576x3_S1048576x3_S1048576x3_S1048576x3_S1048576x3_S1048576x27_d1
    concatenates_S1048576x12_S1048576x27_S1048576x2_S1048576x41_d1 _ _ n k

/-! ## The last 71 operations read at an index -/

set_option maxHeartbeats 4000000 in
/-- The reference's last 71 operations, read at an index: the two towers of the index's point. -/
theorem tail_apply (W : Valuation τ sig (Elt Ideal)) (i : S1048576x4.Idx) :
    (after (opsC (F := Ideal)) W (Proc.devRef .tc main_v240) : S1048576x4.Idx → EReal) i
      = Cert.Spec.towers
          (fun k => (W (Proc.devRef .tc main_v185) : S1048576x12.Idx → EReal) (ix2 (i 0) k))
          (fun a => (W (Proc.devRef .tc main_v1) : S1048576x2.Idx → EReal) (ix2 (i 0) a))
          (fun a => (W (Proc.devRef .tc main_v2) : S1048576x3.Idx → EReal) (ix2 (i 0) a))
          (fun k j => (W (Proc.devRef .tc main_arg2) : S12x128.Idx → EReal) (ix2 k j))
          (fun j => (W (Proc.devRef .tc main_arg3) : S128.Idx → EReal) (ix1 j))
          (fun k j => (W (Proc.devRef .tc main_arg4) : S128x128.Idx → EReal) (ix2 k j))
          (fun j => (W (Proc.devRef .tc main_arg5) : S128.Idx → EReal) (ix1 j))
          (fun k j => (W (Proc.devRef .tc main_arg6) : S128x1.Idx → EReal) (ix2 k j))
          (fun j => (W (Proc.devRef .tc main_arg7) : S1.Idx → EReal) (ix1 j))
          (fun k j => (W (Proc.devRef .tc main_arg8) : S41x128.Idx → EReal) (ix2 k j))
          (fun j => (W (Proc.devRef .tc main_arg9) : S128.Idx → EReal) (ix1 j))
          (fun k j => (W (Proc.devRef .tc main_arg10) : S128x128.Idx → EReal) (ix2 k j))
          (fun j => (W (Proc.devRef .tc main_arg11) : S128.Idx → EReal) (ix1 j))
          (fun k j => (W (Proc.devRef .tc main_arg12) : S128x3.Idx → EReal) (ix2 k j))
          (fun j => (W (Proc.devRef .tc main_arg13) : S3.Idx → EReal) (ix1 j))
          (i 1) := by
  obtain ⟨n, q, rfl⟩ : ∃ (n : Fin 1048576) (q : Fin 4), i = ix2 n q := ⟨i 0, i 1, eq_ix2 i⟩
  show (after (opsC (F := Ideal)) W (Proc.devRef .tc main_v240) : S1048576x4.Idx → EReal) (ix2 n q)
      = Cert.Spec.towers
          (fun k => (W (Proc.devRef .tc main_v185) : S1048576x12.Idx → EReal) (ix2 n k))
          (fun a => (W (Proc.devRef .tc main_v1) : S1048576x2.Idx → EReal) (ix2 n a))
          (fun a => (W (Proc.devRef .tc main_v2) : S1048576x3.Idx → EReal) (ix2 n a))
          (fun k j => (W (Proc.devRef .tc main_arg2) : S12x128.Idx → EReal) (ix2 k j))
          (fun j => (W (Proc.devRef .tc main_arg3) : S128.Idx → EReal) (ix1 j))
          (fun k j => (W (Proc.devRef .tc main_arg4) : S128x128.Idx → EReal) (ix2 k j))
          (fun j => (W (Proc.devRef .tc main_arg5) : S128.Idx → EReal) (ix1 j))
          (fun k j => (W (Proc.devRef .tc main_arg6) : S128x1.Idx → EReal) (ix2 k j))
          (fun j => (W (Proc.devRef .tc main_arg7) : S1.Idx → EReal) (ix1 j))
          (fun k j => (W (Proc.devRef .tc main_arg8) : S41x128.Idx → EReal) (ix2 k j))
          (fun j => (W (Proc.devRef .tc main_arg9) : S128.Idx → EReal) (ix1 j))
          (fun k j => (W (Proc.devRef .tc main_arg10) : S128x128.Idx → EReal) (ix2 k j))
          (fun j => (W (Proc.devRef .tc main_arg11) : S128.Idx → EReal) (ix1 j))
          (fun k j => (W (Proc.devRef .tc main_arg12) : S128x3.Idx → EReal) (ix2 k j))
          (fun j => (W (Proc.devRef .tc main_arg13) : S3.Idx → EReal) (ix1 j))
          q
  rw [after_opsC, seg4_apply]
  unfold Cert.Spec.towers
  by_cases h : q.val < 3
  · rw [dif_pos h, dif_pos h, seg3_v239_apply]
    rw [seg2_keep_arg8, seg1_keep_arg8, seg2_keep_arg9, seg1_keep_arg9, seg2_keep_arg10, seg1_keep_arg10, seg2_keep_arg11, seg1_keep_arg11, seg2_keep_arg12, seg1_keep_arg12, seg2_keep_arg13, seg1_keep_arg13]
    exact congrArg (fun e => Cert.Spec.dense (Cert.Spec.layer (Cert.Spec.layer e _ _) _ _) _ _ ⟨q.val, h⟩)
      (funext fun k => seg12_v225_apply W n k)
  · rw [dif_neg h, dif_neg h, seg3_keep_v199, seg2_keep_v199]
    exact seg1_v199_apply W n 0

end Cert.RefTail

end
-- ==== Proof.Feature.lean ====
/-
  The interpolated feature rows are ONE function of the voxel position, the clamped corner and the grid.

  After the position `pos = clip(p)·159` and the corner `clip(floor pos, 0, 158)` are known, both programs apply
  the same operations: the corner's integer coordinates, the fractional weights `pos - corner`, eight row
  gathers from the grid flattened to 4096000 rows at the linear indices `((x·160 + y)·160 + z)` of the corner's
  eight neighbours, and the trilinear combination of the eight rows. The kernel's program spells this chain in
  its host operations before the call, the reference in its own; read as terms of the three inputs the two
  spellings are the same term, so there is one function `Phi` that both compute.
-/
import proofs.«161056_j33775622815975_2_alg».proof.Proof.RefOps
import proofs.«161056_j33775622815975_2_alg».proof.Proof.Gen.KernelIdeal.Launch
import Idealize.ShloMosaic.Lib.StableHlo.Run
import Idealize.ShloMosaic.PureOps.Ideal

set_option maxRecDepth 16384

noncomputable section

namespace Cert.Feature

open Idealize.ShloMosaic Idealize.ShloMosaic.TcCoe Idealize.ShloMosaic.StableHlo Idealize.SL.Sem

set_option maxHeartbeats 40000000 in
/-- One function of (position, corner, grid) gives the feature rows in both programs: the reference's
    `main_v185` after its middle stretch of operations, the kernel program's `main_v177` after its last stretch of
    host operations, from any contents of the buffers those stretches read. -/
theorem shared :
    ∃ Phi : (⟨Cert.ReferenceIdeal.S1048576x3, .f32⟩ : BufTy).Contents (Elt Ideal) → (⟨Cert.ReferenceIdeal.S1048576x3, .f32⟩ : BufTy).Contents (Elt Ideal)
        → (⟨Cert.ReferenceIdeal.S160x160x160x12, .f32⟩ : BufTy).Contents (Elt Ideal) → (⟨Cert.ReferenceIdeal.S1048576x12, .f32⟩ : BufTy).Contents (Elt Ideal),
      (∀ W : Valuation Cert.ReferenceIdeal.τ Cert.ReferenceIdeal.sig (Elt Ideal),
        after (Cert.ReferenceIdeal.Value.opsB (F := Ideal)) W (Proc.devRef .tc Cert.ReferenceIdeal.main_v185)
          = Phi (W (Proc.devRef .tc Cert.ReferenceIdeal.main_v11)) (W (Proc.devRef .tc Cert.ReferenceIdeal.main_v13))
              (W (Proc.devRef .tc Cert.ReferenceIdeal.main_arg1)))
      ∧ (∀ W : Valuation Cert.KernelIdeal.τ Cert.KernelIdeal.sig (Elt Ideal),
        after (Cert.KernelIdeal.Gen.hostOps0_4 (F := Ideal)) W (Proc.devRef .tc Cert.KernelIdeal.main_v177)
          = Phi (W (Proc.devRef .tc Cert.KernelIdeal.main_v3)) (W (Proc.devRef .tc Cert.KernelIdeal.main_v5))
              (W (Proc.devRef .tc Cert.KernelIdeal.main_arg1))) := by
  refine ⟨?Phi, fun W => ?_, fun W => ?_⟩
  case refine_1 =>
    after_results_simp
    generalize W (Proc.devRef .tc Cert.ReferenceIdeal.main_v11) = a
    generalize W (Proc.devRef .tc Cert.ReferenceIdeal.main_v13) = b
    generalize W (Proc.devRef .tc Cert.ReferenceIdeal.main_arg1) = g
    exact rfl
  case refine_2 =>
    after_results_simp
    generalize W (Proc.devRef .tc Cert.KernelIdeal.main_v3) = a
    generalize W (Proc.devRef .tc Cert.KernelIdeal.main_v5) = b
    generalize W (Proc.devRef .tc Cert.KernelIdeal.main_arg1) = g
    exact rfl

end Cert.Feature

end
-- ==== Proof.Final.lean ====
/-
  The common value of both programs: the result array as ONE function of the interpolated feature rows,
  the input rows and the twelve weight and bias arrays — row `n`, column `q` is output `q` of the two towers
  evaluated on row `n`.
-/
import proofs.«161056_j33775622815975_2_alg».proof.Proof.Spec

noncomputable section

namespace Cert.Final

open Idealize.ShloMosaic Idealize.ShloMosaic.ValueIdx

/-- The result array of the two towers over all rows. -/
def G (feat : (⟨2, ![1048576, 12]⟩ : Shape).Idx → EReal) (x : (⟨2, ![1048576, 8]⟩ : Shape).Idx → EReal)
    (dW1 : (⟨2, ![12, 128]⟩ : Shape).Idx → EReal) (db1 : (⟨1, ![128]⟩ : Shape).Idx → EReal)
    (dW2 : (⟨2, ![128, 128]⟩ : Shape).Idx → EReal) (db2 : (⟨1, ![128]⟩ : Shape).Idx → EReal)
    (dW3 : (⟨2, ![128, 1]⟩ : Shape).Idx → EReal) (db3 : (⟨1, ![1]⟩ : Shape).Idx → EReal)
    (rW1 : (⟨2, ![41, 128]⟩ : Shape).Idx → EReal) (rb1 : (⟨1, ![128]⟩ : Shape).Idx → EReal)
    (rW2 : (⟨2, ![128, 128]⟩ : Shape).Idx → EReal) (rb2 : (⟨1, ![128]⟩ : Shape).Idx → EReal)
    (rW3 : (⟨2, ![128, 3]⟩ : Shape).Idx → EReal) (rb3 : (⟨1, ![3]⟩ : Shape).Idx → EReal) :
    (⟨2, ![1048576, 4]⟩ : Shape).Idx → EReal := fun i =>
  Cert.Spec.point (fun k => feat (ix2 (i 0) k)) (fun a => x (ix2 (i 0) a))
    (fun k j => dW1 (ix2 k j)) (fun j => db1 (ix1 j)) (fun k j => dW2 (ix2 k j)) (fun j => db2 (ix1 j))
    (fun k j => dW3 (ix2 k j)) (fun j => db3 (ix1 j))
    (fun k j => rW1 (ix2 k j)) (fun j => rb1 (ix1 j)) (fun k j => rW2 (ix2 k j)) (fun j => rb2 (ix1 j))
    (fun k j => rW3 (ix2 k j)) (fun j => rb3 (ix1 j)) (i 1)

end Cert.Final

end
-- ==== Proof.Bridge.lean ====
/-
  The two programs compute one array.

  Kernel side: the result array is the wide perceptron of each row's embedded features with the packed
  weights (the blocks-to-array step); the packed weights are the block-diagonal layout of the towers'
  weights (the host operations before the call, read at an index); the wide perceptron with that layout is
  the two towers. Reference side: its last operations are the two towers on the same rows. The feature rows
  themselves are computed by the same chain of host operations in both programs, from a clamped position
  that the reference writes as clip((p - 0) / 1) and the kernel as clip(p): equal on the extended reals.
-/
import proofs.«161056_j33775622815975_2_alg».proof.Proof.KArray
import proofs.«161056_j33775622815975_2_alg».proof.Proof.KHost
import proofs.«161056_j33775622815975_2_alg».proof.Proof.Merge
import proofs.«161056_j33775622815975_2_alg».proof.Proof.Stages
import proofs.«161056_j33775622815975_2_alg».proof.Proof.RefTail
import proofs.«161056_j33775622815975_2_alg».proof.Proof.Feature
import proofs.«161056_j33775622815975_2_alg».proof.Proof.Final

set_option maxRecDepth 16384

noncomputable section

namespace Cert.Bridge

open Idealize.ShloMosaic Idealize.ShloMosaic.TcCoe Idealize.ShloMosaic.StableHlo Idealize.ShloMosaic.ValueIdx Idealize.SL.Sem

/-- The kernel's result array is the two towers over the feature rows the region finds and the launch arguments. -/
theorem kernel_value (m : (ℓ : Loc Cert.KernelIdeal.nD Cert.KernelIdeal.τ Cert.KernelIdeal.sig) → Buf (Elt Ideal) ℓ) (c : Dev Cert.KernelIdeal.nD) :
    Cert.KArray.Gk m c
      = Cert.Final.G (Cert.KernelIdeal.Gen.V (F := Ideal) m c Cert.KernelIdeal.main_v177) (m ((c : Thread Cert.KernelIdeal.nD Cert.KernelIdeal.τ).loc Cert.KernelIdeal.main_arg0))
          (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) := by
  funext i
  have hW1 := funext fun k => funext fun j => Cert.KHost.W1c_apply m c k j
  have hb1 := funext fun j => Cert.KHost.b1c_apply m c j
  have hW2 := funext fun k => funext fun j => Cert.KHost.W2c_apply m c k j
  have hb2 := funext fun j => Cert.KHost.b2c_apply m c j
  have hW3 := funext fun k => funext fun q => Cert.KHost.W3c_apply m c k q
  have hb3 := funext fun q => Cert.KHost.b3c_apply m c q
  unfold Cert.KArray.Gk Cert.Final.G Cert.Spec.point
  rw [hW1, hb1, hW2, hb2, hW3, hb3, Cert.KernelIdeal.Gen.V_main_arg0]
  exact Cert.Spec.merged_eq_towers _ _ _ _ _ _ _ _ _ _ _ _ _ _ _ _

/-- The feature rows the kernel's region finds are the reference's: one function (`Feature.shared`) of the same
    position, corner and grid (the first stage agrees: `Stages.stageA_pos`, `stageA_corner`). -/
theorem feat_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c : Thread Cert.KernelIdeal.nD Cert.KernelIdeal.τ).loc Cert.KernelIdeal.main_arg1)) :
    (Cert.KernelIdeal.Gen.V (F := Ideal) m c Cert.KernelIdeal.main_v177 : (⟨Cert.ReferenceIdeal.S1048576x12, .f32⟩ : BufTy).Contents (Elt Ideal))
      = Cert.Stages.WR2 m' c (Proc.devRef .tc Cert.ReferenceIdeal.main_v185) := by
  obtain ⟨Phi, hR, hK⟩ := Cert.Feature.shared
  have e1 := Cert.Stages.stageA_pos m m' c h0
  have e2 := Cert.Stages.stageA_corner m m' c h0
  have e3 : (Cert.Stages.WK m c (Proc.devRef .tc Cert.KernelIdeal.main_arg1) : (⟨Cert.ReferenceIdeal.S160x160x160x12, .f32⟩ : BufTy).Contents (Elt Ideal))
      = Cert.Stages.WR1 m' c (Proc.devRef .tc Cert.ReferenceIdeal.main_arg1) :=
    (Cert.Stages.WK_arg1 m c).trans (h1.symm.trans (Cert.Stages.WR1_arg1 m' c).symm)
  refine (Cert.Stages.V_eq m c Cert.KernelIdeal.main_v177).trans ?_
  refine (hK (Cert.Stages.WK m c)).trans ?_
  refine Eq.trans ?_ (hR (Cert.Stages.WR1 m' c)).symm
  exact congr (congr (congrArg Phi e1) e2) e3

/-- The reference's result array is the two towers over ITS feature rows and its launch arguments. -/
theorem ref_value (m' : (ℓ : Loc Cert.ReferenceIdeal.nD Cert.ReferenceIdeal.τ Cert.ReferenceIdeal.sig) → Buf (Elt Ideal) ℓ) (c : Dev Cert.ReferenceIdeal.nD) :
    (after (Cert.ReferenceIdeal.Value.opsC (F := Ideal)) (Cert.Stages.WR2 m' c) (Proc.devRef .tc Cert.ReferenceIdeal.main_v240) : (⟨2, ![1048576, 4]⟩ : Shape).Idx → EReal)
      = Cert.Final.G (Cert.Stages.WR2 m' c (Proc.devRef .tc Cert.ReferenceIdeal.main_v185)) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := by
  funext i
  obtain ⟨n, q, rfl⟩ : ∃ (n : Fin 1048576) (q : Fin 4), i = ix2 n q := ⟨i 0, i 1, eq_ix2 i⟩
  refine (Cert.RefTail.tail_apply (Cert.Stages.WR2 m' c) (ix2 n q)).trans ?_
  unfold Cert.Final.G Cert.Spec.point
  have e1 : (fun a => (Cert.Stages.WR2 m' c (Proc.devRef .tc Cert.ReferenceIdeal.main_v1) : Cert.ReferenceIdeal.S1048576x2.Idx → EReal) (ix2 n a))
      = Cert.Spec.ffOf (fun k => (m' ((c.tc : Thread Cert.ReferenceIdeal.nD Cert.ReferenceIdeal.τ).loc Cert.ReferenceIdeal.main_arg0) : Cert.ReferenceIdeal.S1048576x8.Idx → EReal) (ix2 n k)) :=
    funext fun a => Cert.Stages.WR2_v1 m' c n a
  have e2 : (fun a => (Cert.Stages.WR2 m' c (Proc.devRef .tc Cert.ReferenceIdeal.main_v2) : Cert.ReferenceIdeal.S1048576x3.Idx → EReal) (ix2 n a))
      = Cert.Spec.vdOf (fun k => (m' ((c.tc : Thread Cert.ReferenceIdeal.nD Cert.ReferenceIdeal.τ).loc Cert.ReferenceIdeal.main_arg0) : Cert.ReferenceIdeal.S1048576x8.Idx → EReal) (ix2 n k)) :=
    funext fun a => Cert.Stages.WR2_v2 m' c n a
  show Cert.Spec.towers _ (fun a => (Cert.Stages.WR2 m' c (Proc.devRef .tc Cert.ReferenceIdeal.main_v1) : Cert.ReferenceIdeal.S1048576x2.Idx → EReal) (ix2 n a))
      (fun a => (Cert.Stages.WR2 m' c (Proc.devRef .tc Cert.ReferenceIdeal.main_v2) : Cert.ReferenceIdeal.S1048576x3.Idx → EReal) (ix2 n a)) _ _ _ _ _ _ _ _ _ _ _ _ q = _
  rw [e1, e2, Cert.Stages.WR2_arg2, Cert.Stages.WR2_arg3, Cert.Stages.WR2_arg4, Cert.Stages.WR2_arg5, Cert.Stages.WR2_arg6, Cert.Stages.WR2_arg7, Cert.Stages.WR2_arg8, Cert.Stages.WR2_arg9, Cert.Stages.WR2_arg10, Cert.Stages.WR2_arg11, Cert.Stages.WR2_arg12, Cert.Stages.WR2_arg13]

/-- From memories that agree on the arguments, the reference's result array is the kernel's. -/
theorem ref_eq_kernel (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (after (Cert.ReferenceIdeal.Value.opsC (F := Ideal)) (Cert.Stages.WR2 m' c) (Proc.devRef .tc Cert.ReferenceIdeal.main_v240) : (⟨2, ![1048576, 4]⟩ : Shape).Idx → EReal)
      = Cert.KArray.Gk m c := by
  obtain ⟨h0, h1, h2, h3, h4, h5, h6, h7, h8, h9, h10, h11, h12, h13⟩ := hag
  rw [ref_value m' c, kernel_value m c, ← feat_eq m m' c h0 h1, h0, h2, h3, h4, h5, h6, h7, h8, h9, h10, h11, h12, h13]

end Cert.Bridge

end
-- ==== Proof.lean ====
/-
  The certificate: a fused 41 → 256 → 256 → 4 perceptron kernel against two 128-wide towers.

  For each of 1048576 query points both programs interpolate a 12-feature row from a voxel grid (host
  operations, the same in both up to a clamp written two ways), embed it with the view direction's sines and
  cosines and two frame features into 41 columns, and evaluate two perceptrons: colour (41 → 128 → 128 → 3)
  and distance (12 → 128 → 128 → 1). The reference does so with plain matrix products. The kernel lays the
  two towers' weights out block-diagonally and evaluates ONE perceptron of width 256 per block of 4096 rows.
  At the ideal instance (exact extended reals, format changes the identity) the two results are equal
  index by index: a product with a zero weight is zero and zero terms do not change a sum
  (Spec.lean, Merge.lean); no finiteness of the inputs is used, so the precondition is never opened.

  The three frames: the two kernel programs' are generated; the reference's is its run (Stages.lean) with
  the result dropped. The idealization rewrote nothing, so its claim is trivial.
-/
import proofs.«161056_j33775622815975_2_alg».proof.Defs
import proofs.«161056_j33775622815975_2_alg».proof.Proof.Gen.Kernel
import proofs.«161056_j33775622815975_2_alg».proof.Proof.Gen.Kernel.Skeleton
import proofs.«161056_j33775622815975_2_alg».proof.Proof.Gen.Kernel.Launch
import proofs.«161056_j33775622815975_2_alg».proof.Proof.Gen.Kernel.Points
import proofs.«161056_j33775622815975_2_alg».proof.Proof.Gen.Kernel.Frame
import proofs.«161056_j33775622815975_2_alg».proof.Proof.Gen.KernelIdeal
import proofs.«161056_j33775622815975_2_alg».proof.Proof.Gen.KernelIdeal.Skeleton
import proofs.«161056_j33775622815975_2_alg».proof.Proof.Gen.KernelIdeal.Launch
import proofs.«161056_j33775622815975_2_alg».proof.Proof.Gen.KernelIdeal.Points
import proofs.«161056_j33775622815975_2_alg».proof.Proof.Gen.KernelIdeal.Frame
import proofs.«161056_j33775622815975_2_alg».proof.Proof.Gen.ReferenceIdeal
import proofs.«161056_j33775622815975_2_alg».proof.Proof.Gen.Pre_finite_inputs
import proofs.«161056_j33775622815975_2_alg».proof.Proof.Gen.KernelIdeal.Value
import proofs.«161056_j33775622815975_2_alg».proof.Proof.Bridge
import Idealize.ShloMosaic.Adequacy
import Idealize.ShloMosaic.Init

set_option maxRecDepth 16384

noncomputable section

namespace Cert.Proof

open Idealize.ShloMosaic Idealize.SL.Sem

namespace Claims

variable [hKernel : Cert.Kernel.Facts] [hKernelIdeal : Cert.KernelIdeal.Facts] [hReferenceIdeal : Cert.ReferenceIdeal.Facts] [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's run leaves every argument as launched: none of its operations writes one. -/
theorem frame_ri : Cert.frame_ReferenceIdeal := fun m ρ _ =>
  (θ_run Cert.ReferenceIdeal.defs _ _).mono (fun _ h c =>
    ⟨(h c Cert.ReferenceIdeal.main_arg0).trans ((Cert.Stages.opsC_arg0 _).trans (Cert.Stages.WR2_arg0 _ c)),
     (h c Cert.ReferenceIdeal.main_arg1).trans ((Cert.Stages.opsC_arg1 _).trans (Cert.Stages.WR2_arg1 _ c)),
     (h c Cert.ReferenceIdeal.main_arg2).trans ((Cert.Stages.opsC_arg2 _).trans (Cert.Stages.WR2_arg2 _ c)),
     (h c Cert.ReferenceIdeal.main_arg3).trans ((Cert.Stages.opsC_arg3 _).trans (Cert.Stages.WR2_arg3 _ c)),
     (h c Cert.ReferenceIdeal.main_arg4).trans ((Cert.Stages.opsC_arg4 _).trans (Cert.Stages.WR2_arg4 _ c)),
     (h c Cert.ReferenceIdeal.main_arg5).trans ((Cert.Stages.opsC_arg5 _).trans (Cert.Stages.WR2_arg5 _ c)),
     (h c Cert.ReferenceIdeal.main_arg6).trans ((Cert.Stages.opsC_arg6 _).trans (Cert.Stages.WR2_arg6 _ c)),
     (h c Cert.ReferenceIdeal.main_arg7).trans ((Cert.Stages.opsC_arg7 _).trans (Cert.Stages.WR2_arg7 _ c)),
     (h c Cert.ReferenceIdeal.main_arg8).trans ((Cert.Stages.opsC_arg8 _).trans (Cert.Stages.WR2_arg8 _ c)),
     (h c Cert.ReferenceIdeal.main_arg9).trans ((Cert.Stages.opsC_arg9 _).trans (Cert.Stages.WR2_arg9 _ c)),
     (h c Cert.ReferenceIdeal.main_arg10).trans ((Cert.Stages.opsC_arg10 _).trans (Cert.Stages.WR2_arg10 _ c)),
     (h c Cert.ReferenceIdeal.main_arg11).trans ((Cert.Stages.opsC_arg11 _).trans (Cert.Stages.WR2_arg11 _ c)),
     (h c Cert.ReferenceIdeal.main_arg12).trans ((Cert.Stages.opsC_arg12 _).trans (Cert.Stages.WR2_arg12 _ c)),
     (h c Cert.ReferenceIdeal.main_arg13).trans ((Cert.Stages.opsC_arg13 _).trans (Cert.Stages.WR2_arg13 _ c))⟩)
    (Cert.Stages.ref_run m ρ)

/-- Both runs end with the result at the two towers over the same feature rows and the same arguments. -/
theorem algebraic : Cert.algebraic_KernelIdeal_ReferenceIdeal := by
  intro m ρ m' ρ' _ hagree
  refine ⟨fun c => Cert.KArray.Gk m c, ?_, ?_⟩
  · exact (θ_run Cert.KernelIdeal.defs _ _).mono (fun r h c => ⟨(h c).1.trans (Cert.KArray.final m c), (h c).2⟩)
      (Cert.KernelIdeal.Value.run_blocks m ρ)
  · refine (θ_run Cert.ReferenceIdeal.defs _ _).mono (fun _ h c => ⟨(h c Cert.ReferenceIdeal.main_v240).trans ?_,
     (h c Cert.ReferenceIdeal.main_arg0).trans ((Cert.Stages.opsC_arg0 _).trans (Cert.Stages.WR2_arg0 _ c)),
     (h c Cert.ReferenceIdeal.main_arg1).trans ((Cert.Stages.opsC_arg1 _).trans (Cert.Stages.WR2_arg1 _ c)),
     (h c Cert.ReferenceIdeal.main_arg2).trans ((Cert.Stages.opsC_arg2 _).trans (Cert.Stages.WR2_arg2 _ c)),
     (h c Cert.ReferenceIdeal.main_arg3).trans ((Cert.Stages.opsC_arg3 _).trans (Cert.Stages.WR2_arg3 _ c)),
     (h c Cert.ReferenceIdeal.main_arg4).trans ((Cert.Stages.opsC_arg4 _).trans (Cert.Stages.WR2_arg4 _ c)),
     (h c Cert.ReferenceIdeal.main_arg5).trans ((Cert.Stages.opsC_arg5 _).trans (Cert.Stages.WR2_arg5 _ c)),
     (h c Cert.ReferenceIdeal.main_arg6).trans ((Cert.Stages.opsC_arg6 _).trans (Cert.Stages.WR2_arg6 _ c)),
     (h c Cert.ReferenceIdeal.main_arg7).trans ((Cert.Stages.opsC_arg7 _).trans (Cert.Stages.WR2_arg7 _ c)),
     (h c Cert.ReferenceIdeal.main_arg8).trans ((Cert.Stages.opsC_arg8 _).trans (Cert.Stages.WR2_arg8 _ c)),
     (h c Cert.ReferenceIdeal.main_arg9).trans ((Cert.Stages.opsC_arg9 _).trans (Cert.Stages.WR2_arg9 _ c)),
     (h c Cert.ReferenceIdeal.main_arg10).trans ((Cert.Stages.opsC_arg10 _).trans (Cert.Stages.WR2_arg10 _ c)),
     (h c Cert.ReferenceIdeal.main_arg11).trans ((Cert.Stages.opsC_arg11 _).trans (Cert.Stages.WR2_arg11 _ c)),
     (h c Cert.ReferenceIdeal.main_arg12).trans ((Cert.Stages.opsC_arg12 _).trans (Cert.Stages.WR2_arg12 _ c)),
     (h c Cert.ReferenceIdeal.main_arg13).trans ((Cert.Stages.opsC_arg13 _).trans (Cert.Stages.WR2_arg13 _ c))⟩)
      (Cert.Stages.ref_run m' ρ')
    exact Cert.Bridge.ref_eq_kernel m m' c (hagree c)

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
